-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v124)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v124) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v121) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S2x1600000 : Shape := ⟨2, ![2, 1600000]⟩
abbrev S3x32x32 : Shape := ⟨3, ![3, 32, 32]⟩
abbrev S32 : Shape := ⟨1, ![32]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S3x32x32 : S_.BroadcastsInDim S3x32x32 (![] : Fin 0 → Fin S3x32x32.rank)
  reducesTo_S3x32x32_S_d0_1_2 : S3x32x32.ReducesTo [0, 1, 2] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S32 .f32) (main_v13 : IVec S_ 1) (main_v16 : IVec S3x32x32 1) : IVec S_ 1 :=
  let main_c_5 : IVec S_ 1 := constantI S_ 1 1#1
  let main_v17 : IVec S_ 1 := (fun x v => Host.reduce IntOp.andi x v reducesTo_S3x32x32_S_d0_1_2 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  main_v23

def fn {F : FTy → Type} [FloatOps F] (main_arg0 : FVec F S100000x32 .f32) (main_arg1 : IVec S2x1600000 32) (main_arg2 : FVec F S3x32x32 .f32) (main_arg3 : FVec F S32 .f32) (main_arg4 : FVec F S3x32x32 .f32) (main_arg5 : FVec F S32 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S3x32x32 .f32 := Host.absf main_arg2
  let main_cst_0 : FVec F S_ .f32 := constant S_ .f32 0x7F800000#32
  let main_v5 : FVec F S3x32x32 .f32 := broadcastInDim S3x32x32 ![] bcast_S_S3x32x32 main_cst_0
  let main_v6 : IVec S3x32x32 1 := cmpf .olt main_v4 main_v5
  let main_c_1 : IVec S_ 1 := constantI S_ 1 1#1
  let main_v7 : IVec S_ 1 := (fun x v => Host.reduce IntOp.andi x v reducesTo_S3x32x32_S_d0_1_2 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S3x32x32 .f32 := Host.absf main_arg4
  let main_cst_4 : FVec F S_ .f32 := constant S_ .f32 0x7F800000#32
  let main_v15 : FVec F S3x32x32 .f32 := broadcastInDim S3x32x32 ![] bcast_S_S3x32x32 main_cst_4
  let main_v16 : IVec S3x32x32 1 := cmpf .olt main_v14 main_v15
  fn_part1 (F := F) main_arg5 main_v13 main_v16
-- ==== Kernel.lean ====
abbrev S100000x32 : Shape := ⟨2, ![100000, 32]⟩
abbrev S2x1600000 : Shape := ⟨2, ![2, 1600000]⟩
abbrev S3x32x32 : Shape := ⟨3, ![3, 32, 32]⟩
abbrev S32 : Shape := ⟨1, ![32]⟩
abbrev S1x1600000 : Shape := ⟨2, ![1, 1600000]⟩
abbrev S1600000 : Shape := ⟨1, ![1600000]⟩
abbrev S_ : Shape := ⟨0, ![]⟩
abbrev S100001 : Shape := ⟨1, ![100001]⟩
abbrev S1600000x1 : Shape := ⟨2, ![1600000, 1]⟩
abbrev S100000 : Shape := ⟨1, ![100000]⟩
abbrev S100000x1 : Shape := ⟨2, ![100000, 1]⟩
abbrev S1600000x32 : Shape := ⟨2, ![1600000, 32]⟩
abbrev S100001x32 : Shape := ⟨2, ![100001, 32]⟩
abbrev S1x32x32 : Shape := ⟨3, ![1, 32, 32]⟩
abbrev S32x32 : Shape := ⟨2, ![32, 32]⟩
abbrev S1x32 : Shape := ⟨2, ![1, 32]⟩
abbrev S5000x32 : Shape := ⟨2, ![5000, 32]⟩

abbrev nBuf : Space → Nat
  | .hbm => 156
  | .vmem => 22
  | .smem => 0
  | _ => 0

abbrev hbmTy0_0 (i : Nat) : BufTy := match i % 128 with
  | 0 => ⟨S100000x32, .f32⟩
  | 1 => ⟨S2x1600000, .i32⟩
  | 2 => ⟨S3x32x32, .f32⟩
  | 3 => ⟨S32, .f32⟩
  | 4 => ⟨S3x32x32, .f32⟩
  | 5 => ⟨S32, .f32⟩
  | 6 => ⟨S1x1600000, .i32⟩
  | 7 => ⟨S1600000, .i32⟩
  | 8 => ⟨S1x1600000, .i32⟩
  | 9 => ⟨S1600000, .i32⟩
  | 10 => ⟨S1600000, .i1⟩
  | 11 => ⟨S_, .i32⟩
  | 12 => ⟨S_, .i32⟩
  | 13 => ⟨S1600000, .i32⟩
  | 14 => ⟨S1600000, .i32⟩
  | 15 => ⟨S_, .f32⟩
  | 16 => ⟨S1600000, .f32⟩
  | 17 => ⟨S_, .f32⟩
  | 18 => ⟨S100001, .f32⟩
  | 19 => ⟨S1600000x1, .i32⟩
  | 20 => ⟨S100001, .f32⟩
  | 21 => ⟨S100000, .f32⟩
  | 22 => ⟨S_, .f32⟩
  | 23 => ⟨S100000, .f32⟩
  | 24 => ⟨S100000, .i1⟩
  | 25 => ⟨S_, .f32⟩
  | 26 => ⟨S100000, .f32⟩
  | 27 => ⟨S100000, .f32⟩
  | 28 => ⟨S100000, .f32⟩
  | 29 => ⟨S_, .f32⟩
  | 30 => ⟨S100000, .f32⟩
  | 31 => ⟨S100000, .f32⟩
  | 32 => ⟨S_, .f32⟩
  | 33 => ⟨S_, .f32⟩
  | 34 => ⟨S100000, .f32⟩
  | 35 => ⟨S100000, .f32⟩
  | 36 => ⟨S100000x1, .f32⟩
  | 37 => ⟨S100000x32, .f32⟩
  | 38 => ⟨S100000x32, .f32⟩
  | 39 => ⟨S_, .i32⟩
  | 40 => ⟨S1600000, .i32⟩
  | 41 => ⟨S1600000, .i1⟩
  | 42 => ⟨S_, .i32⟩
  | 43 => ⟨S1600000, .i32⟩
  | 44 => ⟨S1600000, .i32⟩
  | 45 => ⟨S1600000, .i32⟩
  | 46 => ⟨S1600000x1, .i32⟩
  | 47 => ⟨S1600000x32, .f32⟩
  | 48 => ⟨S_, .f32⟩
  | 49 => ⟨S100001x32, .f32⟩
  | 50 => ⟨S1600000x1, .i32⟩
  | 51 => ⟨S100001x32, .f32⟩
  | 52 => ⟨S100000x32, .f32⟩
  | 53 => ⟨S100000x1, .f32⟩
  | 54 => ⟨S100000x1, .f32⟩
  | 55 => ⟨S100000x32, .f32⟩
  | 56 => ⟨S100000x32, .f32⟩
  | 57 => ⟨S100000x1, .f32⟩
  | 58 => ⟨S100000x32, .f32⟩
  | 59 => ⟨S100000x32, .f32⟩
  | 60 => ⟨S_, .i32⟩
  | 61 => ⟨S1600000, .i32⟩
  | 62 => ⟨S1600000, .i1⟩
  | 63 => ⟨S_, .i32⟩
  | 64 => ⟨S1600000, .i32⟩
  | 65 => ⟨S1600000, .i32⟩
  | 66 => ⟨S1600000, .i32⟩
  | 67 => ⟨S1600000x1, .i32⟩
  | 68 => ⟨S1600000x32, .f32⟩
  | 69 => ⟨S_, .f32⟩
  | 70 => ⟨S100001x32, .f32⟩
  | 71 => ⟨S1600000x1, .i32⟩
  | 72 => ⟨S100001x32, .f32⟩
  | 73 => ⟨S100000x32, .f32⟩
  | 74 => ⟨S100000x1, .f32⟩
  | 75 => ⟨S100000x1, .f32⟩
  | 76 => ⟨S100000x32, .f32⟩
  | 77 => ⟨S100000x32, .f32⟩
  | 78 => ⟨S1x32x32, .f32⟩
  | 79 => ⟨S32x32, .f32⟩
  | 80 => ⟨S1x32x32, .f32⟩
  | 81 => ⟨S32x32, .f32⟩
  | 82 => ⟨S32x32, .f32⟩
  | 83 => ⟨S1x32x32, .f32⟩
  | 84 => ⟨S32x32, .f32⟩
  | 85 => ⟨S1x32x32, .f32⟩
  | 86 => ⟨S32x32, .f32⟩
  | 87 => ⟨S_, .f32⟩
  | 88 => ⟨S32x32, .f32⟩
  | 89 => ⟨S32x32, .f32⟩
  | 90 => ⟨S1x32x32, .f32⟩
  | 91 => ⟨S1x32x32, .f32⟩
  | 92 => ⟨S1x32x32, .f32⟩
  | 93 => ⟨S3x32x32, .f32⟩
  | 94 => ⟨S1x32, .f32⟩
  | 95 => ⟨S100000x32, .f32⟩
  | 96 => ⟨S100000x1, .f32⟩
  | 97 => ⟨S100000x32, .f32⟩
  | 98 => ⟨S100000x32, .f32⟩
  | 99 => ⟨S_, .i32⟩
  | 100 => ⟨S1600000, .i32⟩
  | 101 => ⟨S1600000, .i1⟩
  | 102 => ⟨S_, .i32⟩
  | 103 => ⟨S1600000, .i32⟩
  | 104 => ⟨S1600000, .i32⟩
  | 105 => ⟨S1600000, .i32⟩
  | 106 => ⟨S1600000x1, .i32⟩
  | 107 => ⟨S1600000x32, .f32⟩
  | 108 => ⟨S_, .f32⟩
  | 109 => ⟨S100001x32, .f32⟩
  | 110 => ⟨S1600000x1, .i32⟩
  | 111 => ⟨S100001x32, .f32⟩
  | 112 => ⟨S100000x32, .f32⟩
  | 113 => ⟨S100000x1, .f32⟩
  | 114 => ⟨S100000x1, .f32⟩
  | 115 => ⟨S100000x32, .f32⟩
  | 116 => ⟨S100000x32, .f32⟩
  | 117 => ⟨S100000x1, .f32⟩
  | 118 => ⟨S100000x32, .f32⟩
  | 119 => ⟨S100000x32, .f32⟩
  | 120 => ⟨S_, .i32⟩
  | 121 => ⟨S1600000, .i32⟩
  | 122 => ⟨S1600000, .i1⟩
  | 123 => ⟨S_, .i32⟩
  | 124 => ⟨S1600000, .i32⟩
  | 125 => ⟨S1600000, .i32⟩
  | 126 => ⟨S1600000, .i32⟩
  | 127 => ⟨S1600000x1, .i32⟩
  | _ => ⟨S100000x32, .f32⟩

abbrev hbmTy0_1 (i : Nat) : BufTy := match i % 128 with
  | 0 => ⟨S1600000x32, .f32⟩
  | 1 => ⟨S_, .f32⟩
  | 2 => ⟨S100001x32, .f32⟩
  | 3 => ⟨S1600000x1, .i32⟩
  | 4 => ⟨S100001x32, .f32⟩
  | 5 => ⟨S100000x32, .f32⟩
  | 6 => ⟨S100000x1, .f32⟩
  | 7 => ⟨S100000x1, .f32⟩
  | 8 => ⟨S100000x32, .f32⟩
  | 9 => ⟨S100000x32, .f32⟩
  | 10 => ⟨S1x32x32, .f32⟩
  | 11 => ⟨S32x32, .f32⟩
  | 12 => ⟨S1x32x32, .f32⟩
  | 13 => ⟨S32x32, .f32⟩
  | 14 => ⟨S32x32, .f32⟩
  | 15 => ⟨S1x32x32, .f32⟩
  | 16 => ⟨S32x32, .f32⟩
  | 17 => ⟨S1x32x32, .f32⟩
  | 18 => ⟨S32x32, .f32⟩
  | 19 => ⟨S_, .f32⟩
  | 20 => ⟨S32x32, .f32⟩
  | 21 => ⟨S32x32, .f32⟩
  | 22 => ⟨S1x32x32, .f32⟩
  | 23 => ⟨S1x32x32, .f32⟩
  | 24 => ⟨S1x32x32, .f32⟩
  | 25 => ⟨S3x32x32, .f32⟩
  | 26 => ⟨S1x32, .f32⟩
  | 27 => ⟨S100000x32, .f32⟩
  | _ => ⟨S100000x32, .f32⟩

abbrev hbmTy (i : Nat) : BufTy := match i / 128 with
  | 0 => hbmTy0_0 i
  | 1 => hbmTy0_1 i
  | _ => ⟨S100000x32, .f32⟩

abbrev bufTy : (tb : Table) → Fin (tcTables nBuf tb) → BufTy
  | .hbm, ⟨i, _⟩ => hbmTy i
  | .local _ .vmem, ⟨0, _⟩ => ⟨S5000x32, .f32⟩
  | .local _ .vmem, ⟨1, _⟩ => ⟨S5000x32, .f32⟩
  | .local _ .vmem, ⟨2, _⟩ => ⟨S5000x32, .f32⟩
  | .local _ .vmem, ⟨3, _⟩ => ⟨S5000x32, .f32⟩
  | .local _ .vmem, ⟨4, _⟩ => ⟨S5000x32, .f32⟩
  | .local _ .vmem, ⟨5, _⟩ => ⟨S5000x32, .f32⟩
  | .local _ .vmem, ⟨6, _⟩ => ⟨S3x32x32, .f32⟩
  | .local _ .vmem, ⟨7, _⟩ => ⟨S1x32, .f32⟩
  | .local _ .vmem, ⟨8, _⟩ => ⟨S5000x32, .f32⟩
  | .local _ .vmem, ⟨9, _⟩ => ⟨S5000x32, .f32⟩
  | .local _ .vmem, ⟨10, _⟩ => ⟨S5000x32, .f32⟩
  | .local _ .vmem, ⟨11, _⟩ => ⟨S5000x32, .f32⟩
  | .local _ .vmem, ⟨12, _⟩ => ⟨S5000x32, .f32⟩
  | .local _ .vmem, ⟨13, _⟩ => ⟨S5000x32, .f32⟩
  | .local _ .vmem, ⟨14, _⟩ => ⟨S5000x32, .f32⟩
  | .local _ .vmem, ⟨15, _⟩ => ⟨S5000x32, .f32⟩
  | .local _ .vmem, ⟨16, _⟩ => ⟨S3x32x32, .f32⟩
  | .local _ .vmem, ⟨17, _⟩ => ⟨S1x32, .f32⟩
  | .local _ .vmem, ⟨18, _⟩ => ⟨S5000x32, .f32⟩
  | .local _ .vmem, ⟨19, _⟩ => ⟨S5000x32, .f32⟩
  | .local _ .vmem, ⟨20, _⟩ => ⟨S5000x32, .f32⟩
  | .local _ .vmem, ⟨21, _⟩ => ⟨S5000x32, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_call0_v0 : Ref sig .tc := ⟨.hbm, 12, rfl⟩
abbrev main_call0_v1 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_call1_v0 : Ref sig .tc := ⟨.hbm, 33, rfl⟩
abbrev main_call1_v1 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_5 : Ref sig .tc := ⟨.hbm, 39, rfl⟩
abbrev main_v22 : Ref sig .tc := ⟨.hbm, 40, rfl⟩
abbrev main_v23 : Ref sig .tc := ⟨.hbm, 41, rfl⟩
abbrev main_c_6 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_7 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_c_8 : Ref sig .tc := ⟨.hbm, 60, rfl⟩
abbrev main_v40 : Ref sig .tc := ⟨.hbm, 61, rfl⟩
abbrev main_v41 : Ref sig .tc := ⟨.hbm, 62, rfl⟩
abbrev main_c_9 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_10 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_11 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_c_12 : Ref sig .tc := ⟨.hbm, 99, rfl⟩
abbrev main_v75 : Ref sig .tc := ⟨.hbm, 100, rfl⟩
abbrev main_v76 : Ref sig .tc := ⟨.hbm, 101, rfl⟩
abbrev main_c_13 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_cst_14 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_c_15 : Ref sig .tc := ⟨.hbm, 120, rfl⟩
abbrev main_v93 : Ref sig .tc := ⟨.hbm, 121, rfl⟩
abbrev main_v94 : Ref sig .tc := ⟨.hbm, 122, rfl⟩
abbrev main_c_16 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_cst_17 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_cst_18 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem5_0 : DmaSem sig := 18
abbrev cc1_sem5_1 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3x32x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S3x32x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x32 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S5000x32 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100001 : S_.BroadcastsInDim S100001 (![] : Fin 0 → Fin S100001.rank)
  bcast_S1600000_S1600000x1_0 : S1600000.BroadcastsInDim S1600000x1 (![0] : Fin 1 → Fin S1600000x1.rank)
  slices_S100001_S100000_0 : S100001.Slices ![0] S100000
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x32_0_1 : S100000x1.BroadcastsInDim S100000x32 (![0, 1] : Fin 2 → Fin S100000x32.rank)
  bcast_S_S100001x32 : S_.BroadcastsInDim S100001x32 (![] : Fin 0 → Fin S100001x32.rank)
  slices_S100001x32_S100000x32_0_0 : S100001x32.Slices ![0, 0] S100000x32
  slices_S3x32x32_S1x32x32_0_0_0 : S3x32x32.Slices ![0, 0, 0] S1x32x32
  shapeCasts_S1x32x32_S32x32 : S1x32x32.ShapeCasts S32x32
  slices_S3x32x32_S1x32x32_2_0_0 : S3x32x32.Slices ![2, 0, 0] S1x32x32
  slices_S3x32x32_S1x32x32_1_0_0 : S3x32x32.Slices ![1, 0, 0] S1x32x32
  bcast_S_S32x32 : S_.BroadcastsInDim S32x32 (![] : Fin 0 → Fin S32x32.rank)
  bcast_S32x32_S1x32x32_1_2 : S32x32.BroadcastsInDim S1x32x32 (![1, 2] : Fin 2 → Fin S1x32x32.rank)
  concatenates_S1x32x32_S1x32x32_S1x32x32_S3x32x32_d0 : Shape.Concatenates [S1x32x32, S1x32x32, S1x32x32] S3x32x32 0
  shapeCasts_S32_S1x32 : S32.ShapeCasts S1x32
  inb_S5000x32_S5000x32_0_0 : ∀ a, (![0, 0] : Fin 2 → Nat) a + S5000x32.size a ≤ S5000x32.size a
  h_S5000x32 : 0 < S5000x32.numel
  bitsLt_bf16_f32 : FTy.bits .bf16 < FTy.bits .f32
  shapeCasts_S5000x32_S5000x32 : S5000x32.ShapeCasts S5000x32
  inb_S3x32x32_S1x32x32_0_0_0 : ∀ a, (![0, 0, 0] : Fin 3 → Nat) a + S1x32x32.size a ≤ S3x32x32.size a
  h_S1x32x32 : 0 < S1x32x32.numel
  inb_S3x32x32_S1x32x32_1_0_0 : ∀ a, (![1, 0, 0] : Fin 3 → Nat) a + S1x32x32.size a ≤ S3x32x32.size a
  inb_S3x32x32_S1x32x32_2_0_0 : ∀ a, (![2, 0, 0] : Fin 3 → Nat) a + S1x32x32.size a ≤ S3x32x32.size a
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  scatter_S100001_S1600000x1_S1600000_n_0_0_1_wf : ScatterDims.WF S100001 S1600000x1 S1600000 [] [0] [0] 1
  gather_S100000x32_S1600000x1_S1600000x32_1_0_n_n_0_1_132_wf : GatherDims.WF S100000x32 S1600000x1 S1600000x32 [1] [0] [] [0] [] 1 ![1, 32]
  scatter_S100001x32_S1600000x1_S1600000x32_1_0_0_1_wf : ScatterDims.WF S100001x32 S1600000x1 S1600000x32 [1] [0] [0] 1
  dot_S5000x32_S32x32_S5000x32_1_0_0_1_n_n_wf : DotDims.WF S5000x32 S32x32 S5000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x32.size a ≤ S100000x32.size a
  hwx0_0 : ∀ i : grid0.Coords, EltTy.bits .f32 = 32 ∨ (Rect.block (s := S100000x32) S5000x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x32.size a ≤ S100000x32.size a
  hwx0_1 : ∀ i : grid0.Coords, EltTy.bits .f32 = 32 ∨ (Rect.block (s := S100000x32) S5000x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x32.size a ≤ S100000x32.size a
  hwx0_2 : ∀ i : grid0.Coords, EltTy.bits .f32 = 32 ∨ (Rect.block (s := S100000x32) S5000x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x32x32.size a ≤ S3x32x32.size a
  hwx0_3 : ∀ i : grid0.Coords, EltTy.bits .f32 = 32 ∨ (Rect.block (s := S3x32x32) S3x32x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x32.size a ≤ S1x32.size a
  hwx0_4 : ∀ i : grid0.Coords, EltTy.bits .f32 = 32 ∨ (Rect.block (s := S1x32) S1x32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x32.size a ≤ S100000x32.size a
  hwx0_5 : ∀ i : grid0.Coords, EltTy.bits .f32 = 32 ∨ (Rect.block (s := S100000x32) S5000x32.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x32.size a ≤ S100000x32.size a
  hwx1_0 : ∀ i : grid1.Coords, EltTy.bits .f32 = 32 ∨ (Rect.block (s := S100000x32) S5000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x32.size a ≤ S100000x32.size a
  hwx1_1 : ∀ i : grid1.Coords, EltTy.bits .f32 = 32 ∨ (Rect.block (s := S100000x32) S5000x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x32.size a ≤ S100000x32.size a
  hwx1_2 : ∀ i : grid1.Coords, EltTy.bits .f32 = 32 ∨ (Rect.block (s := S100000x32) S5000x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S3x32x32.size a ≤ S3x32x32.size a
  hwx1_3 : ∀ i : grid1.Coords, EltTy.bits .f32 = 32 ∨ (Rect.block (s := S3x32x32) S3x32x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x32.size a ≤ S1x32.size a
  hwx1_4 : ∀ i : grid1.Coords, EltTy.bits .f32 = 32 ∨ (Rect.block (s := S1x32) S1x32.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x32.size a ≤ S100000x32.size a
  hwx1_5 : ∀ i : grid1.Coords, EltTy.bits .f32 = 32 ∨ (Rect.block (s := S100000x32) S5000x32.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x32.size a ≤ S100000x32.size a
  hwx1_6 : ∀ i : grid1.Coords, EltTy.bits .f32 = 32 ∨ (Rect.block (s := S100000x32) S5000x32.size (cc1_transform_6 i) (hinb1_6 i)).WholeWords (EltTy.packing .f32)

variable [Facts₀]

def scatter_S100001_S1600000x1_S1600000_n_0_0_1 : ScatterDims S100001 S1600000x1 S1600000 where
  updateWindowDims := []
  insertedWindowDims := [0]
  scatterDimsToOperandDims := [0]
  indexVectorDim := 1
  wf := scatter_S100001_S1600000x1_S1600000_n_0_0_1_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100001x32_S1600000x1_S1600000x32_1_0_0_1 : ScatterDims S100001x32 S1600000x1 S1600000x32 where
  updateWindowDims := [1]
  insertedWindowDims := [0]
  scatterDimsToOperandDims := [0]
  indexVectorDim := 1
  wf := scatter_S100001x32_S1600000x1_S1600000x32_1_0_0_1_wf
def dot_S5000x32_S32x32_S5000x32_1_0_0_1_n_n : DotDims S5000x32 S32x32 S5000x32 where
  lhsContracting := [1]
  rhsContracting := [0]
  lhsNonContracting := [0]
  rhsNonContracting := [1]
  lhsBatch := []
  rhsBatch := []
  wf := dot_S5000x32_S32x32_S5000x32_1_0_0_1_n_n_wf

abbrev win0_0 : Pipeline.Window sig grid0 :=
  Pipeline.Window.ofSpec (Memref.whole main_arg0) S5000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v36) S5000x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v54) S5000x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v69) S3x32x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v70) S1x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v71) S5000x32.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v71) S5000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v89) S5000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v107) S5000x32.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v122) S3x32x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v123) S1x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg0) S5000x32.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v124) S5000x32.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x32 : Shape := ⟨2, ![100000, 32]⟩
abbrev S2x1600000 : Shape := ⟨2, ![2, 1600000]⟩
abbrev S3x32x32 : Shape := ⟨3, ![3, 32, 32]⟩
abbrev S32 : Shape := ⟨1, ![32]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1x32x32 : Shape := ⟨3, ![1, 32, 32]⟩
abbrev S32x32 : Shape := ⟨2, ![32, 32]⟩
abbrev S1600000x32 : Shape := ⟨2, ![1600000, 32]⟩
abbrev S1x32 : Shape := ⟨2, ![1, 32]⟩

abbrev nBuf : Space → Nat
  | .hbm => 155
  | .vmem => 0
  | .smem => 0
  | _ => 0

abbrev hbmTy0_0 (i : Nat) : BufTy := match i % 128 with
  | 0 => ⟨S100000x32, .f32⟩
  | 1 => ⟨S2x1600000, .i32⟩
  | 2 => ⟨S3x32x32, .f32⟩
  | 3 => ⟨S32, .f32⟩
  | 4 => ⟨S3x32x32, .f32⟩
  | 5 => ⟨S32, .f32⟩
  | 6 => ⟨S1x1600000, .i32⟩
  | 7 => ⟨S1600000, .i32⟩
  | 8 => ⟨S1x1600000, .i32⟩
  | 9 => ⟨S1600000, .i32⟩
  | 10 => ⟨S1600000, .i1⟩
  | 11 => ⟨S1600000, .f32⟩
  | 12 => ⟨S_, .f32⟩
  | 13 => ⟨S100000, .f32⟩
  | 14 => ⟨S1600000x1, .i32⟩
  | 15 => ⟨S100000, .f32⟩
  | 16 => ⟨S_, .f32⟩
  | 17 => ⟨S100000, .f32⟩
  | 18 => ⟨S100000, .i1⟩
  | 19 => ⟨S_, .f32⟩
  | 20 => ⟨S100000, .f32⟩
  | 21 => ⟨S100000, .f32⟩
  | 22 => ⟨S100000, .f32⟩
  | 23 => ⟨S_, .f32⟩
  | 24 => ⟨S100000, .f32⟩
  | 25 => ⟨S100000, .f32⟩
  | 26 => ⟨S_, .f32⟩
  | 27 => ⟨S_, .f32⟩
  | 28 => ⟨S100000, .f32⟩
  | 29 => ⟨S100000, .f32⟩
  | 30 => ⟨S1600000, .f32⟩
  | 31 => ⟨S_, .i32⟩
  | 32 => ⟨S1600000, .i32⟩
  | 33 => ⟨S1600000, .i1⟩
  | 34 => ⟨S_, .i32⟩
  | 35 => ⟨S1600000, .i32⟩
  | 36 => ⟨S1600000, .i32⟩
  | 37 => ⟨S1600000, .i32⟩
  | 38 => ⟨S1600000x1, .i32⟩
  | 39 => ⟨S1600000, .f32⟩
  | 40 => ⟨S1600000, .f32⟩
  | 41 => ⟨S_, .i32⟩
  | 42 => ⟨S1600000, .i32⟩
  | 43 => ⟨S1600000, .i1⟩
  | 44 => ⟨S_, .i32⟩
  | 45 => ⟨S1600000, .i32⟩
  | 46 => ⟨S1600000, .i32⟩
  | 47 => ⟨S1600000, .i32⟩
  | 48 => ⟨S1600000x1, .i32⟩
  | 49 => ⟨S1600000, .f32⟩
  | 50 => ⟨S1600000, .f32⟩
  | 51 => ⟨S1x32x32, .f32⟩
  | 52 => ⟨S32x32, .f32⟩
  | 53 => ⟨S100000x32, .f32⟩
  | 54 => ⟨S1600000x1, .f32⟩
  | 55 => ⟨S_, .i32⟩
  | 56 => ⟨S1600000, .i32⟩
  | 57 => ⟨S1600000, .i1⟩
  | 58 => ⟨S_, .i32⟩
  | 59 => ⟨S1600000, .i32⟩
  | 60 => ⟨S1600000, .i32⟩
  | 61 => ⟨S1600000, .i32⟩
  | 62 => ⟨S1600000x1, .i32⟩
  | 63 => ⟨S1600000x32, .f32⟩
  | 64 => ⟨S1600000x32, .f32⟩
  | 65 => ⟨S1600000x32, .f32⟩
  | 66 => ⟨S_, .f32⟩
  | 67 => ⟨S100000x32, .f32⟩
  | 68 => ⟨S1600000x1, .i32⟩
  | 69 => ⟨S100000x32, .f32⟩
  | 70 => ⟨S1x32x32, .f32⟩
  | 71 => ⟨S32x32, .f32⟩
  | 72 => ⟨S100000x32, .f32⟩
  | 73 => ⟨S100000x32, .f32⟩
  | 74 => ⟨S1600000x1, .f32⟩
  | 75 => ⟨S_, .i32⟩
  | 76 => ⟨S1600000, .i32⟩
  | 77 => ⟨S1600000, .i1⟩
  | 78 => ⟨S_, .i32⟩
  | 79 => ⟨S1600000, .i32⟩
  | 80 => ⟨S1600000, .i32⟩
  | 81 => ⟨S1600000, .i32⟩
  | 82 => ⟨S1600000x1, .i32⟩
  | 83 => ⟨S1600000x32, .f32⟩
  | 84 => ⟨S1600000x32, .f32⟩
  | 85 => ⟨S1600000x32, .f32⟩
  | 86 => ⟨S_, .f32⟩
  | 87 => ⟨S100000x32, .f32⟩
  | 88 => ⟨S1600000x1, .i32⟩
  | 89 => ⟨S100000x32, .f32⟩
  | 90 => ⟨S_, .f32⟩
  | 91 => ⟨S100000x32, .f32⟩
  | 92 => ⟨S100000x32, .f32⟩
  | 93 => ⟨S100000x32, .f32⟩
  | 94 => ⟨S1x32x32, .f32⟩
  | 95 => ⟨S32x32, .f32⟩
  | 96 => ⟨S100000x32, .f32⟩
  | 97 => ⟨S100000x32, .f32⟩
  | 98 => ⟨S1x32, .f32⟩
  | 99 => ⟨S100000x32, .f32⟩
  | 100 => ⟨S100000x32, .f32⟩
  | 101 => ⟨S_, .f32⟩
  | 102 => ⟨S100000x32, .f32⟩
  | 103 => ⟨S100000x32, .f32⟩
  | 104 => ⟨S1x32x32, .f32⟩
  | 105 => ⟨S32x32, .f32⟩
  | 106 => ⟨S100000x32, .f32⟩
  | 107 => ⟨S1600000x1, .f32⟩
  | 108 => ⟨S_, .i32⟩
  | 109 => ⟨S1600000, .i32⟩
  | 110 => ⟨S1600000, .i1⟩
  | 111 => ⟨S_, .i32⟩
  | 112 => ⟨S1600000, .i32⟩
  | 113 => ⟨S1600000, .i32⟩
  | 114 => ⟨S1600000, .i32⟩
  | 115 => ⟨S1600000x1, .i32⟩
  | 116 => ⟨S1600000x32, .f32⟩
  | 117 => ⟨S1600000x32, .f32⟩
  | 118 => ⟨S1600000x32, .f32⟩
  | 119 => ⟨S_, .f32⟩
  | 120 => ⟨S100000x32, .f32⟩
  | 121 => ⟨S1600000x1, .i32⟩
  | 122 => ⟨S100000x32, .f32⟩
  | 123 => ⟨S1x32x32, .f32⟩
  | 124 => ⟨S32x32, .f32⟩
  | 125 => ⟨S100000x32, .f32⟩
  | 126 => ⟨S100000x32, .f32⟩
  | 127 => ⟨S1600000x1, .f32⟩
  | _ => ⟨S100000x32, .f32⟩

abbrev hbmTy0_1 (i : Nat) : BufTy := match i % 128 with
  | 0 => ⟨S_, .i32⟩
  | 1 => ⟨S1600000, .i32⟩
  | 2 => ⟨S1600000, .i1⟩
  | 3 => ⟨S_, .i32⟩
  | 4 => ⟨S1600000, .i32⟩
  | 5 => ⟨S1600000, .i32⟩
  | 6 => ⟨S1600000, .i32⟩
  | 7 => ⟨S1600000x1, .i32⟩
  | 8 => ⟨S1600000x32, .f32⟩
  | 9 => ⟨S1600000x32, .f32⟩
  | 10 => ⟨S1600000x32, .f32⟩
  | 11 => ⟨S_, .f32⟩
  | 12 => ⟨S100000x32, .f32⟩
  | 13 => ⟨S1600000x1, .i32⟩
  | 14 => ⟨S100000x32, .f32⟩
  | 15 => ⟨S_, .f32⟩
  | 16 => ⟨S100000x32, .f32⟩
  | 17 => ⟨S100000x32, .f32⟩
  | 18 => ⟨S100000x32, .f32⟩
  | 19 => ⟨S1x32x32, .f32⟩
  | 20 => ⟨S32x32, .f32⟩
  | 21 => ⟨S100000x32, .f32⟩
  | 22 => ⟨S100000x32, .f32⟩
  | 23 => ⟨S1x32, .f32⟩
  | 24 => ⟨S100000x32, .f32⟩
  | 25 => ⟨S100000x32, .f32⟩
  | 26 => ⟨S100000x32, .f32⟩
  | _ => ⟨S100000x32, .f32⟩

abbrev hbmTy (i : Nat) : BufTy := match i / 128 with
  | 0 => hbmTy0_0 i
  | 1 => hbmTy0_1 i
  | _ => ⟨S100000x32, .f32⟩

abbrev bufTy : (tb : Table) → Fin (tcTables nBuf tb) → BufTy
  | .hbm, ⟨i, _⟩ => hbmTy i
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_v17 : Ref sig .tc := ⟨.hbm, 30, rfl⟩
abbrev main_c : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_c_5 : Ref sig .tc := ⟨.hbm, 41, rfl⟩
abbrev main_v26 : Ref sig .tc := ⟨.hbm, 42, rfl⟩
abbrev main_v27 : Ref sig .tc := ⟨.hbm, 43, rfl⟩
abbrev main_c_6 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_c_7 : Ref sig .tc := ⟨.hbm, 55, rfl⟩
abbrev main_v38 : Ref sig .tc := ⟨.hbm, 56, rfl⟩
abbrev main_v39 : Ref sig .tc := ⟨.hbm, 57, rfl⟩
abbrev main_c_8 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_9 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_c_10 : Ref sig .tc := ⟨.hbm, 75, rfl⟩
abbrev main_v55 : Ref sig .tc := ⟨.hbm, 76, rfl⟩
abbrev main_v56 : Ref sig .tc := ⟨.hbm, 77, rfl⟩
abbrev main_c_11 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_cst_12 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_cst_13 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_call1_cst : Ref sig .tc := ⟨.hbm, 101, rfl⟩
abbrev main_call1_v0 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_c_14 : Ref sig .tc := ⟨.hbm, 108, rfl⟩
abbrev main_v82 : Ref sig .tc := ⟨.hbm, 109, rfl⟩
abbrev main_v83 : Ref sig .tc := ⟨.hbm, 110, rfl⟩
abbrev main_c_15 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_cst_16 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_c_17 : Ref sig .tc := ⟨.hbm, 128, rfl⟩
abbrev main_v99 : Ref sig .tc := ⟨.hbm, 129, rfl⟩
abbrev main_v100 : Ref sig .tc := ⟨.hbm, 130, rfl⟩
abbrev main_c_18 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_cst_19 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_cst_20 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  slices_S3x32x32_S1x32x32_0_0_0 : S3x32x32.Slices ![0, 0, 0] S1x32x32
  shapeCasts_S1x32x32_S32x32 : S1x32x32.ShapeCasts S32x32
  bcast_S1600000x1_S1600000x32_0_1 : S1600000x1.BroadcastsInDim S1600000x32 (![0, 1] : Fin 2 → Fin S1600000x32.rank)
  bcast_S_S100000x32 : S_.BroadcastsInDim S100000x32 (![] : Fin 0 → Fin S100000x32.rank)
  slices_S3x32x32_S1x32x32_1_0_0 : S3x32x32.Slices ![1, 0, 0] S1x32x32
  slices_S3x32x32_S1x32x32_2_0_0 : S3x32x32.Slices ![2, 0, 0] S1x32x32
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S100000x32_S32x32_S100000x32_1_0_0_1_n_n_wf : DotDims.WF S100000x32 S32x32 S100000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf

class Facts : Prop extends Facts₀ where

variable [Facts]
-- ==== Proof.KBody0.lean ====
/-
  The first pallas_call of the kernel program, at a grid point: what the body leaves in its output block.
  The call tiles the 100000 rows of three node arrays into 20 blocks of 5000 rows; the [3,32,32] weight stack and the [1,32]
  bias row are one block each, the same at every point. The body loads the three row blocks, the three weight matrices
  (slices 0, 1, 2 of the stack) and the bias row, and stores ONE value over the whole output block: the payload
  `k0_pay1` of those loads (three matrix products summed, the bias row added, the maximum with zero).
  This module states that at an arbitrary entry valuation `V` of the buffers and proves the pipeline's body obligation.
-/
import proofs.«146355_j53403623358893_2_alg».proof.Proof.Gen.Kernel.Launch
import proofs.«146355_j53403623358893_2_alg».proof.Proof.Gen.Kernel.Skeleton
import proofs.«146355_j53403623358893_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- Window `w`'s block at grid point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every grid point, fetched there or not: when a point does not
    fetch, the block index has not moved since the last fetch. One lemma per input window. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body reads and writes -/

/-- A whole [5000,32] block. -/
abbrev rRows0 : Rect S5000x32 := Rect.unit (s := S5000x32) ![0, 0] S5000x32.size inb_S5000x32_S5000x32_0_0
/-- Matrix `j` of the [3,32,32] weight stack. -/
abbrev rW0_0 : Rect S3x32x32 := Rect.unit (s := S3x32x32) ![0, 0, 0] S1x32x32.size inb_S3x32x32_S1x32x32_0_0_0
abbrev rW0_1 : Rect S3x32x32 := Rect.unit (s := S3x32x32) ![1, 0, 0] S1x32x32.size inb_S3x32x32_S1x32x32_1_0_0
abbrev rW0_2 : Rect S3x32x32 := Rect.unit (s := S3x32x32) ![2, 0, 0] S1x32x32.size inb_S3x32x32_S1x32x32_2_0_0
/-- The whole [1,32] bias row. -/
abbrev rBias0 : Rect S1x32 := Rect.unit (s := S1x32) ![0, 0] S1x32.size inb_S1x32_S1x32_0_0

/-- The output block after the body, from the five input blocks: one store of the payload over the whole block. -/
def out0_5 (x0 x1 x2 : Vec F S5000x32 .f32) (x3 : Vec F S3x32x32 .f32) (x4 : Vec F S1x32 .f32) : Vec F S5000x32 .f32 :=
  View.canon [⟨rRows0, k0_pay1 (View.ld x0 rRows0) (View.ld x1 rRows0) (View.ld x2 rRows0) (View.ld x3 rW0_0) (View.ld x3 rW0_1) (View.ld x3 rW0_2) (View.ld x4 rBias0)⟩]

/-- The one store covers the block. -/
theorem cover0_5 (p0 : Vec F S5000x32 .f32) (y : S5000x32.Idx) :
    ∃ pc ∈ ([⟨rRows0, p0⟩] : List (View.Piece (Elt F) S5000x32 .f32)), y ∈ pc.1.set :=
  View.cover_of_tiled [⟨rRows0, p0⟩] S5000x32.size (by rfl) y

/-! ## The body's triple -/

set_option maxHeartbeats 1000000 in
/-- The body on whole staging memrefs — the inputs' at contents `x0 … x4`, the output's at anything — runs to a state with
    the inputs as they were and the output at `out0_5` of them. -/
theorem sound_kernel0 (c : Dev nD) (E : Set ℕ) (i : grid0.Coords)
    (arg1 : Memref sig .tc .vmem S5000x32 .f32) (harg1 : arg1.IsWhole) (arg2 : Memref sig .tc .vmem S5000x32 .f32) (harg2 : arg2.IsWhole)
    (arg3 : Memref sig .tc .vmem S5000x32 .f32) (harg3 : arg3.IsWhole) (arg4 : Memref sig .tc .vmem S3x32x32 .f32) (harg4 : arg4.IsWhole)
    (arg5 : Memref sig .tc .vmem S1x32 .f32) (harg5 : arg5.IsWhole) (arg6 : Memref sig .tc .vmem S5000x32 .f32) (harg6 : arg6.IsWhole)
    (x0 x1 x2 : Vec F S5000x32 .f32) (x3 : Vec F S3x32x32 .f32) (x4 : Vec F S1x32 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E (cc0_kernel i arg1 harg1 arg2 harg2 arg3 harg3 arg4 harg4 arg5 harg5 arg6 harg6) K := by
  simp only [cc0_kernel_eq_skeleton]; unfold cc0_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The pipeline's proof data -/

/-- The proof data of the first pipeline on core `c`: the arrays as the call finds them; after the body at point `t` each
    input's buffer at its block and the output's at `out0_5` of the input blocks; nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) :
    (dat0 V c).after 5 t = out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.KBody1.lean ====
/-
  The second pallas_call of the kernel program, at a grid point: what the body leaves in its output block.
  Same tiling as the first call (20 blocks of 5000 rows; the weight stack and the bias row one block each), with a sixth
  input, the residual rows. The body stores ONE value over the whole output block: the payload `k1_pay1` of its loads
  (three matrix products summed, the bias row added, the residual block added; no maximum here).
-/
import proofs.«146355_j53403623358893_2_alg».proof.Proof.Gen.Kernel.Launch
import proofs.«146355_j53403623358893_2_alg».proof.Proof.Gen.Kernel.Skeleton
import proofs.«146355_j53403623358893_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-- Window `w`'s block at grid point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every grid point, fetched there or not. One lemma per input window. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The rectangles the body reads and writes -/

/-- A whole [5000,32] block. -/
abbrev rRows1 : Rect S5000x32 := Rect.unit (s := S5000x32) ![0, 0] S5000x32.size inb_S5000x32_S5000x32_0_0
/-- Matrix `j` of the [3,32,32] weight stack. -/
abbrev rW1_0 : Rect S3x32x32 := Rect.unit (s := S3x32x32) ![0, 0, 0] S1x32x32.size inb_S3x32x32_S1x32x32_0_0_0
abbrev rW1_1 : Rect S3x32x32 := Rect.unit (s := S3x32x32) ![1, 0, 0] S1x32x32.size inb_S3x32x32_S1x32x32_1_0_0
abbrev rW1_2 : Rect S3x32x32 := Rect.unit (s := S3x32x32) ![2, 0, 0] S1x32x32.size inb_S3x32x32_S1x32x32_2_0_0
/-- The whole [1,32] bias row. -/
abbrev rBias1 : Rect S1x32 := Rect.unit (s := S1x32) ![0, 0] S1x32.size inb_S1x32_S1x32_0_0

/-- The output block after the body, from the six input blocks: one store of the payload over the whole block. -/
def out1_6 (x0 x1 x2 : Vec F S5000x32 .f32) (x3 : Vec F S3x32x32 .f32) (x4 : Vec F S1x32 .f32) (x5 : Vec F S5000x32 .f32) : Vec F S5000x32 .f32 :=
  View.canon [⟨rRows1, k1_pay1 (View.ld x0 rRows1) (View.ld x1 rRows1) (View.ld x2 rRows1) (View.ld x3 rW1_0) (View.ld x3 rW1_1) (View.ld x3 rW1_2) (View.ld x4 rBias1) (View.ld x5 rRows1)⟩]

/-- The one store covers the block. -/
theorem cover1_6 (p0 : Vec F S5000x32 .f32) (y : S5000x32.Idx) :
    ∃ pc ∈ ([⟨rRows1, p0⟩] : List (View.Piece (Elt F) S5000x32 .f32)), y ∈ pc.1.set :=
  View.cover_of_tiled [⟨rRows1, p0⟩] S5000x32.size (by rfl) y

/-! ## The body's triple -/

set_option maxHeartbeats 1000000 in
/-- The body on whole staging memrefs — the inputs' at contents `x0 … x5`, the output's at anything — runs to a state with
    the inputs as they were and the output at `out1_6` of them. -/
theorem sound_kernel1 (c : Dev nD) (E : Set ℕ) (i : grid1.Coords)
    (arg1 : Memref sig .tc .vmem S5000x32 .f32) (harg1 : arg1.IsWhole) (arg2 : Memref sig .tc .vmem S5000x32 .f32) (harg2 : arg2.IsWhole)
    (arg3 : Memref sig .tc .vmem S5000x32 .f32) (harg3 : arg3.IsWhole) (arg4 : Memref sig .tc .vmem S3x32x32 .f32) (harg4 : arg4.IsWhole)
    (arg5 : Memref sig .tc .vmem S1x32 .f32) (harg5 : arg5.IsWhole) (arg6 : Memref sig .tc .vmem S5000x32 .f32) (harg6 : arg6.IsWhole)
    (arg7 : Memref sig .tc .vmem S5000x32 .f32) (harg7 : arg7.IsWhole)
    (x0 x1 x2 : Vec F S5000x32 .f32) (x3 : Vec F S3x32x32 .f32) (x4 : Vec F S1x32 .f32) (x5 : Vec F S5000x32 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out1_6 x0 x1 x2 x3 x4 x5)) -∗ K ⟨⟩))
      ⊢ wp frame (wpE (defs₀ (F := F)) Variants.none c none) E (cc1_kernel i arg1 harg1 arg2 harg2 arg3 harg3 arg4 harg4 arg5 harg5 arg6 harg6 arg7 harg7) K := by
  simp only [cc1_kernel_eq_skeleton]; unfold cc1_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

/-! ## The pipeline's proof data -/

/-- The proof data of the second pipeline on core `c`: the arrays as the call finds them; after the body at point `t` each
    input's buffer at its block and the output's at `out1_6` of the input blocks; nothing owed, full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) :
    (dat1 V c).after 6 t = out1_6 (iblk1 V c 0 t) (iblk1 V c 1 t) (iblk1 V c 2 t) (iblk1 V c 3 t) (iblk1 V c 4 t) (iblk1 V c 5 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.Hand

end
-- ==== Proof.KRun.lean ====
/-
  The idealized kernel program's run, end to end: eight items in order — five stretches of host operations, the first
  pallas_call, one more stretch, the second pallas_call. Between items a core's buffers hold: the launch memory folded
  through each stretch's operations; after a pallas_call, the same except that the call's arrays hold what its pipeline
  leaves (inputs as found, the output the fold of its blocks' write-backs). Every weakly fair execution terminates without
  a fault in a state whose unscoped buffers hold the last of these valuations: in particular the six argument arrays are
  as launched, and the result array is the second call's output array.
-/
import proofs.«146355_j53403623358893_2_alg».proof.Proof.KBody0
import proofs.«146355_j53403623358893_2_alg».proof.Proof.KBody1
import proofs.«146355_j53403623358893_2_alg».proof.Proof.Gen.Kernel.Launch
import proofs.«146355_j53403623358893_2_alg».proof.Proof.Gen.Kernel.Skeleton
import proofs.«146355_j53403623358893_2_alg».proof.Proof.Gen.Kernel.Points
import proofs.«146355_j53403623358893_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents at each item's boundary -/

/-- What the first call finds, read at the TensorCore's references (the launch memory after the first five stretches). -/
abbrev U5 : (c : Dev nD) → (b : Ref sig .tc) → Buf (Elt F) ((c : Thread nD τ).loc b) := fun c b => V5 m c b
/-- After the first call: its arrays at what the pipeline leaves, every other buffer as found. -/
def W6 (c : Dev nD) : Valuation τ sig (Elt F) :=
  Pipeline.withArrays spec0 c (V5 m c) fun w => (dat0 (U5 m) c).arrAt w cfg0.N
theorem W6_arr (c : Dev nD) (w : Fin cfg0.W) :
    W6 m c (Proc.devRef .tc (Pipeline.arrRef spec0 w)) = (dat0 (U5 m) c).arrAt w cfg0.N := by
  unfold W6; exact Pipeline.withArrays_arr spec0 launch0.win.arr_inj c _ _ w
theorem W6_of_ne (c : Dev nD) (b : Ref sig .tc) (hb : ∀ w, Pipeline.arrRef spec0 w ≠ b) :
    W6 m c (Proc.devRef .tc b) = V5 m c (Proc.devRef .tc b) := by
  unfold W6; exact Pipeline.withArrays_of_ne spec0 c _ _ b hb
abbrev U6 : (c : Dev nD) → (b : Ref sig .tc) → Buf (Elt F) ((c : Thread nD τ).loc b) := fun c b => W6 m c b
theorem hF0 (c : Dev nD) (w : Fin cfg0.W) : (dat0 (U5 m) c).arrAt w cfg0.N = U6 m c (Pipeline.arrRef spec0 w) :=
  (W6_arr m c w).symm
theorem hrest0 (c : Dev nD) : ∀ b, b ∉ Finset.univ.image (Pipeline.arrRef spec0) → U6 m c b = U5 m c b :=
  fun b hb => W6_of_ne m c b fun w e => hb (Finset.mem_image.mpr ⟨w, Finset.mem_univ _, e⟩)

/-- After the sixth stretch: what the second call finds. -/
abbrev W7 : Dev nD → Valuation τ sig (Elt F) := fun c => StableHlo.after hostOps1 (W6 m c)
abbrev U7 : (c : Dev nD) → (b : Ref sig .tc) → Buf (Elt F) ((c : Thread nD τ).loc b) := fun c b => W7 m c b
/-- After the second call: its arrays at what the pipeline leaves, every other buffer as found. -/
def W8 (c : Dev nD) : Valuation τ sig (Elt F) :=
  Pipeline.withArrays spec1 c (W7 m c) fun w => (dat1 (U7 m) c).arrAt w cfg1.N
theorem W8_arr (c : Dev nD) (w : Fin cfg1.W) :
    W8 m c (Proc.devRef .tc (Pipeline.arrRef spec1 w)) = (dat1 (U7 m) c).arrAt w cfg1.N := by
  unfold W8; exact Pipeline.withArrays_arr spec1 launch1.win.arr_inj c _ _ w
theorem W8_of_ne (c : Dev nD) (b : Ref sig .tc) (hb : ∀ w, Pipeline.arrRef spec1 w ≠ b) :
    W8 m c (Proc.devRef .tc b) = W7 m c (Proc.devRef .tc b) := by
  unfold W8; exact Pipeline.withArrays_of_ne spec1 c _ _ b hb
abbrev U8 : (c : Dev nD) → (b : Ref sig .tc) → Buf (Elt F) ((c : Thread nD τ).loc b) := fun c b => W8 m c b
theorem hF1 (c : Dev nD) (w : Fin cfg1.W) : (dat1 (U7 m) c).arrAt w cfg1.N = U8 m c (Pipeline.arrRef spec1 w) :=
  (W8_arr m c w).symm
theorem hrest1 (c : Dev nD) : ∀ b, b ∉ Finset.univ.image (Pipeline.arrRef spec1) → U8 m c b = U7 m c b :=
  fun b hb => W8_of_ne m c b fun w e => hb (Finset.mem_image.mpr ⟨w, Finset.mem_univ _, e⟩)

/-- A buffer the sixth stretch does not write keeps its contents across it. -/
theorem W7_of (c : Dev nD) (r : Ref sig .tc) (h : r ∉ hostOps1_W) : W7 m c r = W6 m c r :=
  StableHlo.after_of_writes_sub hostOps1 _ hostOps1_writes h

/-- No host stretch writes an argument: after the first five stretches it holds its launch contents. -/
theorem V5_arg (c : Dev nD) (r : Ref sig .tc) (h1 : r ∉ hostOps0_W) (h2 : r ∉ hostOps0_1_W) (h3 : r ∉ hostOps0_2_W)
    (h4 : r ∉ hostOps0_3_W) (h5 : r ∉ hostOps0_4_W) : V5 m c r = m ((c : Thread nD τ).loc r) :=
  (V5_of m c r h5).trans <| (V4_of m c r h4).trans <| (V3_of m c r h3).trans <| (V2_of m c r h2).trans <| (V1_of m c r h1).trans rfl

/-! ## The arguments end as launched -/

/-- The node features are an input window of both calls (window 0 of the first, window 5 of the second): a call leaves
    an input's array as found. -/
theorem W8_main_arg0 (c : Dev nD) : W8 m c (Proc.devRef .tc main_arg0) = m ((c : Thread nD τ).loc main_arg0) :=
  calc W8 m c (Proc.devRef .tc main_arg0)
    _ = W7 m c (Proc.devRef .tc main_arg0) := (W8_arr m c 5).trans (((dat1 (U7 m) c).arrAt_in 5 rfl _).trans (A_eq1 (U7 m) c 5))
    _ = W6 m c (Proc.devRef .tc main_arg0) := W7_of m c main_arg0 (by decide)
    _ = V5 m c (Proc.devRef .tc main_arg0) := (W6_arr m c 0).trans (((dat0 (U5 m) c).arrAt_in 0 rfl _).trans (A_eq0 (U5 m) c 0))
    _ = m ((c : Thread nD τ).loc main_arg0) := V5_arg m c main_arg0 (by decide) (by decide) (by decide) (by decide) (by decide)
/-- The other arguments are no window's array. -/
theorem W8_main_arg1 (c : Dev nD) : W8 m c (Proc.devRef .tc main_arg1) = m ((c : Thread nD τ).loc main_arg1) :=
  (W8_of_ne m c main_arg1 (by decide)).trans <| (W7_of m c main_arg1 (by decide)).trans <| (W6_of_ne m c main_arg1 (by decide)).trans <|
    V5_arg m c main_arg1 (by decide) (by decide) (by decide) (by decide) (by decide)
theorem W8_main_arg2 (c : Dev nD) : W8 m c (Proc.devRef .tc main_arg2) = m ((c : Thread nD τ).loc main_arg2) :=
  (W8_of_ne m c main_arg2 (by decide)).trans <| (W7_of m c main_arg2 (by decide)).trans <| (W6_of_ne m c main_arg2 (by decide)).trans <|
    V5_arg m c main_arg2 (by decide) (by decide) (by decide) (by decide) (by decide)
theorem W8_main_arg3 (c : Dev nD) : W8 m c (Proc.devRef .tc main_arg3) = m ((c : Thread nD τ).loc main_arg3) :=
  (W8_of_ne m c main_arg3 (by decide)).trans <| (W7_of m c main_arg3 (by decide)).trans <| (W6_of_ne m c main_arg3 (by decide)).trans <|
    V5_arg m c main_arg3 (by decide) (by decide) (by decide) (by decide) (by decide)
theorem W8_main_arg4 (c : Dev nD) : W8 m c (Proc.devRef .tc main_arg4) = m ((c : Thread nD τ).loc main_arg4) :=
  (W8_of_ne m c main_arg4 (by decide)).trans <| (W7_of m c main_arg4 (by decide)).trans <| (W6_of_ne m c main_arg4 (by decide)).trans <|
    V5_arg m c main_arg4 (by decide) (by decide) (by decide) (by decide) (by decide)
theorem W8_main_arg5 (c : Dev nD) : W8 m c (Proc.devRef .tc main_arg5) = m ((c : Thread nD τ).loc main_arg5) :=
  (W8_of_ne m c main_arg5 (by decide)).trans <| (W7_of m c main_arg5 (by decide)).trans <| (W6_of_ne m c main_arg5 (by decide)).trans <|
    V5_arg m c main_arg5 (by decide) (by decide) (by decide) (by decide) (by decide)

/-! ## The proof data family and what rides along -/

/-- Every pipeline's proof data, each at its call's entry contents. -/
def pdats : (p : Fin 2) → (c : Dev nD) → Dat τ (Elt F) Unit ℕ (UR sig nD τ) ℕ (Pipeline.pin (pcfgs (F := F)) adm p) c
  | ⟨0, _⟩ => fun c => dat0 (U5 m) c
  | ⟨1, _⟩ => fun c => dat1 (U7 m) c
abbrev 𝒱ₙ : Variants := Variants.none
/-- No core owes another anything. -/
abbrev Lₙ : GSem nD τ sig → Finset Unit := fun _ => ∅
abbrev lvₙ : GSem nD τ sig → Unit → ℕ := fun _ _ => 0
/-- Beside the buffers, through every item: the core's generator register at some state, and nothing owed. -/
abbrev Rr (c : Dev nD) : sProp 𝕄 := iprop((∃ r, prngReg c r) ∗ ∃ W, owes (c : Thread nD τ) (0 : CellTallies nD τ sig Unit) W)
/-- A host stretch as an item, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱ₙ Lₙ lvₙ :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rr
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tlast (c : Dev nD) : sProp 𝕄 := iprop(StableHlo.held (c : Thread nD τ) (Pipeline.ucRefs τ sig) (W8 m c) ∗ ∃ r, prngReg c r)

/-! ## The calls as items -/

set_option backward.isDefEq.respectTransparency.types false in
/-- The first call: entered with every unscoped buffer at the fifth boundary's contents, left at `W6`. -/
def reg0 : Pipeline.RegionSeg (pcfgs (F := F)) adm (pdats m) () defs₀ 𝒱ₙ Lₙ lvₙ 0 where
  win := launch0.win.to₀
  block_pos := launch0.block_pos
  stage_whole := launch0.stage_whole
  K := PEmpty
  osem k := k.elim
  ho := Pipeline.OwnSemFacts.none _
  hbody c := (body_obligation0 (U5 m) c).loose
  hwaits := Pipeline.hwaits_of_owed_zero _ _ _ _ Lₙ lvₙ 0 fun _ _ => rfl
  pre c := iprop(StableHlo.held (c : Thread nD τ) (Pipeline.ucRefs τ sig) (V5 m c) ∗ Rr c)
  post c := iprop(StableHlo.held (c : Thread nD τ) (Pipeline.ucRefs τ sig) (W6 m c) ∗ Rr c)
  X c := iprop(∃ r, prngReg c r)
  Y c := iprop(∃ r, prngReg c r)
  Z c := Pipeline.unscopedRest (Ix := Unit) (Name := ℕ) (U := UR sig nD τ) (Lvl := ℕ) spec0 c (U5 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U5 m c) (U6 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second call: entered with every unscoped buffer at `W7`, left at `W8`. -/
def reg1 : Pipeline.RegionSeg (pcfgs (F := F)) adm (pdats m) () defs₀ 𝒱ₙ Lₙ lvₙ 1 where
  win := launch1.win.to₀
  block_pos := launch1.block_pos
  stage_whole := launch1.stage_whole
  K := PEmpty
  osem k := k.elim
  ho := Pipeline.OwnSemFacts.none _
  hbody c := (body_obligation1 (U7 m) c).loose
  hwaits := Pipeline.hwaits_of_owed_zero _ _ _ _ Lₙ lvₙ 1 fun _ _ => rfl
  pre c := iprop(StableHlo.held (c : Thread nD τ) (Pipeline.ucRefs τ sig) (W7 m c) ∗ Rr c)
  post c := iprop(Tlast m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (U7 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (U7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (U7 m c) (U8 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as items, and the launch -/

/-- @main's eight items in order. -/
abbrev segs : List (Pipeline.Seg (pcfgs (F := F)) adm (pdats m) () defs₀ 𝒱ₙ Lₙ lvₙ) :=
  [ .host (hseg hostOps0 hostOps0_sub hostOps0_fresh (V0 m)),
    .host (hseg hostOps0_1 hostOps0_1_sub hostOps0_1_fresh (V1 m)),
    .host (hseg hostOps0_2 hostOps0_2_sub hostOps0_2_fresh (V2 m)),
    .host (hseg hostOps0_3 hostOps0_3_sub hostOps0_3_fresh (V3 m)),
    .host (hseg hostOps0_4 hostOps0_4_sub hostOps0_4_fresh (V4 m)),
    .region (reg0 m),
    .host (hseg hostOps1 hostOps1_sub hostOps1_fresh (W6 m)),
    .region (reg1 m) ]

/-- @main is the run of the items. -/
theorem main_run (c : Dev nD) : main (F := F) c = Pipeline.Seg.run (segs m) := by
  rewrite [main_chain c, Pipeline.Seg.run_eq_chain,
    show (segs m).map Pipeline.Seg.prog = [
      StableHlo.seq hostOps0,
      StableHlo.seq hostOps0_1,
      StableHlo.seq hostOps0_2,
      StableHlo.seq hostOps0_3,
      StableHlo.seq hostOps0_4,
      Prog.lift (.customCall (Pipeline.entry 0) ()),
      StableHlo.seq hostOps1,
      Prog.lift (.customCall (Pipeline.entry 1) ()) ] from rfl]
  rfl

set_option backward.isDefEq.respectTransparency.types false in
/-- THE RUN. From any memory with zero counters every weakly fair execution of @main terminates, nothing faulting, in a
    state where the result array holds the last valuation's contents and the six argument arrays hold their launch contents. -/
theorem run_all (ρ : Dev nD → PrngReg) : θ_run defs (onTc (τ := τ) (main (F := F))) ⟨m, fun _ => 0, ρ⟩ (fun r => ∀ c : Dev nD,
      r.2.mem ((c.tc : Thread nD τ).loc main_v124) = W8 m c (Proc.devRef .tc main_v124)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m) () cellOf_inj emb₁ defs₀ 𝒱ₙ Lₙ lvₙ m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rr c)) (Tₙ := Tlast m)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach Lₙ lvₙ fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m c b)
    (hfin := fun c s' => by
      iintro ⟨⟨Hh, -⟩, HSI⟩
      unfold StableHlo.held
      imodintro
      iapply (pointsTo_read_all (Pipeline.ucRefs τ sig) (fun b => (((c : Thread nD τ)).1, b)) (W8 m c) s')
      isplitl [Hh] <;> iassumption)
    (hQ := fun s h c =>
      ⟨h c _ (mem_uc main_v124 (by decide)),
       (h c _ (mem_uc main_arg0 (by decide))).trans (W8_main_arg0 m c),
       (h c _ (mem_uc main_arg1 (by decide))).trans (W8_main_arg1 m c),
       (h c _ (mem_uc main_arg2 (by decide))).trans (W8_main_arg2 m c),
       (h c _ (mem_uc main_arg3 (by decide))).trans (W8_main_arg3 m c),
       (h c _ (mem_uc main_arg4 (by decide))).trans (W8_main_arg4 m c),
       (h c _ (mem_uc main_arg5 (by decide))).trans (W8_main_arg5 m c)⟩)

/-- The frame: the six argument arrays end as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => (h c).2) (run_all m ρ)

end Cert.Kernel.Hand

end
-- ==== Proof.KIBody0.lean ====
/-
  The first pallas_call of the idealized kernel program, at a grid point: what the body leaves in its output block.
  The call tiles the 100000 rows of three node arrays into 20 blocks of 5000 rows; the [3,32,32] weight stack and the [1,32]
  bias row are one block each, the same at every point. The body loads the three row blocks, the three weight matrices
  (slices 0, 1, 2 of the stack) and the bias row, and stores ONE value over the whole output block: the payload
  `k0_pay1` of those loads (three matrix products summed, the bias row added, the maximum with zero).
  This module states that at an arbitrary entry valuation `V` of the buffers and proves the pipeline's body obligation.
-/
import proofs.«146355_j53403623358893_2_alg».proof.Proof.Gen.KernelIdeal.Launch
import proofs.«146355_j53403623358893_2_alg».proof.Proof.Gen.KernelIdeal.Skeleton
import proofs.«146355_j53403623358893_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- Window `w`'s block at grid point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every grid point, fetched there or not: when a point does not
    fetch, the block index has not moved since the last fetch. One lemma per input window. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body reads and writes -/

/-- A whole [5000,32] block. -/
abbrev rRows0 : Rect S5000x32 := Rect.unit (s := S5000x32) ![0, 0] S5000x32.size inb_S5000x32_S5000x32_0_0
/-- Matrix `j` of the [3,32,32] weight stack. -/
abbrev rW0_0 : Rect S3x32x32 := Rect.unit (s := S3x32x32) ![0, 0, 0] S1x32x32.size inb_S3x32x32_S1x32x32_0_0_0
abbrev rW0_1 : Rect S3x32x32 := Rect.unit (s := S3x32x32) ![1, 0, 0] S1x32x32.size inb_S3x32x32_S1x32x32_1_0_0
abbrev rW0_2 : Rect S3x32x32 := Rect.unit (s := S3x32x32) ![2, 0, 0] S1x32x32.size inb_S3x32x32_S1x32x32_2_0_0
/-- The whole [1,32] bias row. -/
abbrev rBias0 : Rect S1x32 := Rect.unit (s := S1x32) ![0, 0] S1x32.size inb_S1x32_S1x32_0_0

/-- The output block after the body, from the five input blocks: one store of the payload over the whole block. -/
def out0_5 (x0 x1 x2 : Vec F S5000x32 .f32) (x3 : Vec F S3x32x32 .f32) (x4 : Vec F S1x32 .f32) : Vec F S5000x32 .f32 :=
  View.canon [⟨rRows0, k0_pay1 (View.ld x0 rRows0) (View.ld x1 rRows0) (View.ld x2 rRows0) (View.ld x3 rW0_0) (View.ld x3 rW0_1) (View.ld x3 rW0_2) (View.ld x4 rBias0)⟩]

/-- The one store covers the block. -/
theorem cover0_5 (p0 : Vec F S5000x32 .f32) (y : S5000x32.Idx) :
    ∃ pc ∈ ([⟨rRows0, p0⟩] : List (View.Piece (Elt F) S5000x32 .f32)), y ∈ pc.1.set :=
  View.cover_of_tiled [⟨rRows0, p0⟩] S5000x32.size (by rfl) y

/-! ## The body's triple -/

set_option maxHeartbeats 1000000 in
/-- The body on whole staging memrefs — the inputs' at contents `x0 … x4`, the output's at anything — runs to a state with
    the inputs as they were and the output at `out0_5` of them. -/
theorem sound_kernel0 (c : Dev nD) (E : Set ℕ) (i : grid0.Coords)
    (arg1 : Memref sig .tc .vmem S5000x32 .f32) (harg1 : arg1.IsWhole) (arg2 : Memref sig .tc .vmem S5000x32 .f32) (harg2 : arg2.IsWhole)
    (arg3 : Memref sig .tc .vmem S5000x32 .f32) (harg3 : arg3.IsWhole) (arg4 : Memref sig .tc .vmem S3x32x32 .f32) (harg4 : arg4.IsWhole)
    (arg5 : Memref sig .tc .vmem S1x32 .f32) (harg5 : arg5.IsWhole) (arg6 : Memref sig .tc .vmem S5000x32 .f32) (harg6 : arg6.IsWhole)
    (x0 x1 x2 : Vec F S5000x32 .f32) (x3 : Vec F S3x32x32 .f32) (x4 : Vec F S1x32 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E (cc0_kernel i arg1 harg1 arg2 harg2 arg3 harg3 arg4 harg4 arg5 harg5 arg6 harg6) K := by
  simp only [cc0_kernel_eq_skeleton]; unfold cc0_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The pipeline's proof data -/

/-- The proof data of the first pipeline on core `c`: the arrays as the call finds them; after the body at point `t` each
    input's buffer at its block and the output's at `out0_5` of the input blocks; nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) :
    (dat0 V c).after 5 t = out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.KIBody1.lean ====
/-
  The second pallas_call of the idealized kernel program, at a grid point: what the body leaves in its output block.
  Same tiling as the first call (20 blocks of 5000 rows; the weight stack and the bias row one block each), with a sixth
  input, the residual rows. The body stores ONE value over the whole output block: the payload `k1_pay1` of its loads
  (three matrix products summed, the bias row added, the residual block added; no maximum here).
-/
import proofs.«146355_j53403623358893_2_alg».proof.Proof.Gen.KernelIdeal.Launch
import proofs.«146355_j53403623358893_2_alg».proof.Proof.Gen.KernelIdeal.Skeleton
import proofs.«146355_j53403623358893_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-- Window `w`'s block at grid point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every grid point, fetched there or not. One lemma per input window. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The rectangles the body reads and writes -/

/-- A whole [5000,32] block. -/
abbrev rRows1 : Rect S5000x32 := Rect.unit (s := S5000x32) ![0, 0] S5000x32.size inb_S5000x32_S5000x32_0_0
/-- Matrix `j` of the [3,32,32] weight stack. -/
abbrev rW1_0 : Rect S3x32x32 := Rect.unit (s := S3x32x32) ![0, 0, 0] S1x32x32.size inb_S3x32x32_S1x32x32_0_0_0
abbrev rW1_1 : Rect S3x32x32 := Rect.unit (s := S3x32x32) ![1, 0, 0] S1x32x32.size inb_S3x32x32_S1x32x32_1_0_0
abbrev rW1_2 : Rect S3x32x32 := Rect.unit (s := S3x32x32) ![2, 0, 0] S1x32x32.size inb_S3x32x32_S1x32x32_2_0_0
/-- The whole [1,32] bias row. -/
abbrev rBias1 : Rect S1x32 := Rect.unit (s := S1x32) ![0, 0] S1x32.size inb_S1x32_S1x32_0_0

/-- The output block after the body, from the six input blocks: one store of the payload over the whole block. -/
def out1_6 (x0 x1 x2 : Vec F S5000x32 .f32) (x3 : Vec F S3x32x32 .f32) (x4 : Vec F S1x32 .f32) (x5 : Vec F S5000x32 .f32) : Vec F S5000x32 .f32 :=
  View.canon [⟨rRows1, k1_pay1 (View.ld x0 rRows1) (View.ld x1 rRows1) (View.ld x2 rRows1) (View.ld x3 rW1_0) (View.ld x3 rW1_1) (View.ld x3 rW1_2) (View.ld x4 rBias1) (View.ld x5 rRows1)⟩]

/-- The one store covers the block. -/
theorem cover1_6 (p0 : Vec F S5000x32 .f32) (y : S5000x32.Idx) :
    ∃ pc ∈ ([⟨rRows1, p0⟩] : List (View.Piece (Elt F) S5000x32 .f32)), y ∈ pc.1.set :=
  View.cover_of_tiled [⟨rRows1, p0⟩] S5000x32.size (by rfl) y

/-! ## The body's triple -/

set_option maxHeartbeats 1000000 in
/-- The body on whole staging memrefs — the inputs' at contents `x0 … x5`, the output's at anything — runs to a state with
    the inputs as they were and the output at `out1_6` of them. -/
theorem sound_kernel1 (c : Dev nD) (E : Set ℕ) (i : grid1.Coords)
    (arg1 : Memref sig .tc .vmem S5000x32 .f32) (harg1 : arg1.IsWhole) (arg2 : Memref sig .tc .vmem S5000x32 .f32) (harg2 : arg2.IsWhole)
    (arg3 : Memref sig .tc .vmem S5000x32 .f32) (harg3 : arg3.IsWhole) (arg4 : Memref sig .tc .vmem S3x32x32 .f32) (harg4 : arg4.IsWhole)
    (arg5 : Memref sig .tc .vmem S1x32 .f32) (harg5 : arg5.IsWhole) (arg6 : Memref sig .tc .vmem S5000x32 .f32) (harg6 : arg6.IsWhole)
    (arg7 : Memref sig .tc .vmem S5000x32 .f32) (harg7 : arg7.IsWhole)
    (x0 x1 x2 : Vec F S5000x32 .f32) (x3 : Vec F S3x32x32 .f32) (x4 : Vec F S1x32 .f32) (x5 : Vec F S5000x32 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out1_6 x0 x1 x2 x3 x4 x5)) -∗ K ⟨⟩))
      ⊢ wp frame (wpE (defs₀ (F := F)) Variants.none c none) E (cc1_kernel i arg1 harg1 arg2 harg2 arg3 harg3 arg4 harg4 arg5 harg5 arg6 harg6 arg7 harg7) K := by
  simp only [cc1_kernel_eq_skeleton]; unfold cc1_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

/-! ## The pipeline's proof data -/

/-- The proof data of the second pipeline on core `c`: the arrays as the call finds them; after the body at point `t` each
    input's buffer at its block and the output's at `out1_6` of the input blocks; nothing owed, full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) :
    (dat1 V c).after 6 t = out1_6 (iblk1 V c 0 t) (iblk1 V c 1 t) (iblk1 V c 2 t) (iblk1 V c 3 t) (iblk1 V c 4 t) (iblk1 V c 5 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Hand

end
-- ==== Proof.KIRun.lean ====
/-
  The idealized kernel program's run, end to end: eight items in order — five stretches of host operations, the first
  pallas_call, one more stretch, the second pallas_call. Between items a core's buffers hold: the launch memory folded
  through each stretch's operations; after a pallas_call, the same except that the call's arrays hold what its pipeline
  leaves (inputs as found, the output the fold of its blocks' write-backs). Every weakly fair execution terminates without
  a fault in a state whose unscoped buffers hold the last of these valuations: in particular the six argument arrays are
  as launched, and the result array is the second call's output array.
-/
import proofs.«146355_j53403623358893_2_alg».proof.Proof.KIBody0
import proofs.«146355_j53403623358893_2_alg».proof.Proof.KIBody1
import proofs.«146355_j53403623358893_2_alg».proof.Proof.Gen.KernelIdeal.Launch
import proofs.«146355_j53403623358893_2_alg».proof.Proof.Gen.KernelIdeal.Skeleton
import proofs.«146355_j53403623358893_2_alg».proof.Proof.Gen.KernelIdeal.Points
import proofs.«146355_j53403623358893_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents at each item's boundary -/

/-- What the first call finds, read at the TensorCore's references (the launch memory after the first five stretches). -/
abbrev U5 : (c : Dev nD) → (b : Ref sig .tc) → Buf (Elt F) ((c : Thread nD τ).loc b) := fun c b => V5 m c b
/-- After the first call: its arrays at what the pipeline leaves, every other buffer as found. -/
def W6 (c : Dev nD) : Valuation τ sig (Elt F) :=
  Pipeline.withArrays spec0 c (V5 m c) fun w => (dat0 (U5 m) c).arrAt w cfg0.N
theorem W6_arr (c : Dev nD) (w : Fin cfg0.W) :
    W6 m c (Proc.devRef .tc (Pipeline.arrRef spec0 w)) = (dat0 (U5 m) c).arrAt w cfg0.N := by
  unfold W6; exact Pipeline.withArrays_arr spec0 launch0.win.arr_inj c _ _ w
theorem W6_of_ne (c : Dev nD) (b : Ref sig .tc) (hb : ∀ w, Pipeline.arrRef spec0 w ≠ b) :
    W6 m c (Proc.devRef .tc b) = V5 m c (Proc.devRef .tc b) := by
  unfold W6; exact Pipeline.withArrays_of_ne spec0 c _ _ b hb
abbrev U6 : (c : Dev nD) → (b : Ref sig .tc) → Buf (Elt F) ((c : Thread nD τ).loc b) := fun c b => W6 m c b
theorem hF0 (c : Dev nD) (w : Fin cfg0.W) : (dat0 (U5 m) c).arrAt w cfg0.N = U6 m c (Pipeline.arrRef spec0 w) :=
  (W6_arr m c w).symm
theorem hrest0 (c : Dev nD) : ∀ b, b ∉ Finset.univ.image (Pipeline.arrRef spec0) → U6 m c b = U5 m c b :=
  fun b hb => W6_of_ne m c b fun w e => hb (Finset.mem_image.mpr ⟨w, Finset.mem_univ _, e⟩)

/-- After the sixth stretch: what the second call finds. -/
abbrev W7 : Dev nD → Valuation τ sig (Elt F) := fun c => StableHlo.after hostOps1 (W6 m c)
abbrev U7 : (c : Dev nD) → (b : Ref sig .tc) → Buf (Elt F) ((c : Thread nD τ).loc b) := fun c b => W7 m c b
/-- After the second call: its arrays at what the pipeline leaves, every other buffer as found. -/
def W8 (c : Dev nD) : Valuation τ sig (Elt F) :=
  Pipeline.withArrays spec1 c (W7 m c) fun w => (dat1 (U7 m) c).arrAt w cfg1.N
theorem W8_arr (c : Dev nD) (w : Fin cfg1.W) :
    W8 m c (Proc.devRef .tc (Pipeline.arrRef spec1 w)) = (dat1 (U7 m) c).arrAt w cfg1.N := by
  unfold W8; exact Pipeline.withArrays_arr spec1 launch1.win.arr_inj c _ _ w
theorem W8_of_ne (c : Dev nD) (b : Ref sig .tc) (hb : ∀ w, Pipeline.arrRef spec1 w ≠ b) :
    W8 m c (Proc.devRef .tc b) = W7 m c (Proc.devRef .tc b) := by
  unfold W8; exact Pipeline.withArrays_of_ne spec1 c _ _ b hb
abbrev U8 : (c : Dev nD) → (b : Ref sig .tc) → Buf (Elt F) ((c : Thread nD τ).loc b) := fun c b => W8 m c b
theorem hF1 (c : Dev nD) (w : Fin cfg1.W) : (dat1 (U7 m) c).arrAt w cfg1.N = U8 m c (Pipeline.arrRef spec1 w) :=
  (W8_arr m c w).symm
theorem hrest1 (c : Dev nD) : ∀ b, b ∉ Finset.univ.image (Pipeline.arrRef spec1) → U8 m c b = U7 m c b :=
  fun b hb => W8_of_ne m c b fun w e => hb (Finset.mem_image.mpr ⟨w, Finset.mem_univ _, e⟩)

/-- A buffer the sixth stretch does not write keeps its contents across it. -/
theorem W7_of (c : Dev nD) (r : Ref sig .tc) (h : r ∉ hostOps1_W) : W7 m c r = W6 m c r :=
  StableHlo.after_of_writes_sub hostOps1 _ hostOps1_writes h

/-- No host stretch writes an argument: after the first five stretches it holds its launch contents. -/
theorem V5_arg (c : Dev nD) (r : Ref sig .tc) (h1 : r ∉ hostOps0_W) (h2 : r ∉ hostOps0_1_W) (h3 : r ∉ hostOps0_2_W)
    (h4 : r ∉ hostOps0_3_W) (h5 : r ∉ hostOps0_4_W) : V5 m c r = m ((c : Thread nD τ).loc r) :=
  (V5_of m c r h5).trans <| (V4_of m c r h4).trans <| (V3_of m c r h3).trans <| (V2_of m c r h2).trans <| (V1_of m c r h1).trans rfl

/-! ## The arguments end as launched -/

/-- The node features are an input window of both calls (window 0 of the first, window 5 of the second): a call leaves
    an input's array as found. -/
theorem W8_main_arg0 (c : Dev nD) : W8 m c (Proc.devRef .tc main_arg0) = m ((c : Thread nD τ).loc main_arg0) :=
  calc W8 m c (Proc.devRef .tc main_arg0)
    _ = W7 m c (Proc.devRef .tc main_arg0) := (W8_arr m c 5).trans (((dat1 (U7 m) c).arrAt_in 5 rfl _).trans (A_eq1 (U7 m) c 5))
    _ = W6 m c (Proc.devRef .tc main_arg0) := W7_of m c main_arg0 (by decide)
    _ = V5 m c (Proc.devRef .tc main_arg0) := (W6_arr m c 0).trans (((dat0 (U5 m) c).arrAt_in 0 rfl _).trans (A_eq0 (U5 m) c 0))
    _ = m ((c : Thread nD τ).loc main_arg0) := V5_arg m c main_arg0 (by decide) (by decide) (by decide) (by decide) (by decide)
/-- The other arguments are no window's array. -/
theorem W8_main_arg1 (c : Dev nD) : W8 m c (Proc.devRef .tc main_arg1) = m ((c : Thread nD τ).loc main_arg1) :=
  (W8_of_ne m c main_arg1 (by decide)).trans <| (W7_of m c main_arg1 (by decide)).trans <| (W6_of_ne m c main_arg1 (by decide)).trans <|
    V5_arg m c main_arg1 (by decide) (by decide) (by decide) (by decide) (by decide)
theorem W8_main_arg2 (c : Dev nD) : W8 m c (Proc.devRef .tc main_arg2) = m ((c : Thread nD τ).loc main_arg2) :=
  (W8_of_ne m c main_arg2 (by decide)).trans <| (W7_of m c main_arg2 (by decide)).trans <| (W6_of_ne m c main_arg2 (by decide)).trans <|
    V5_arg m c main_arg2 (by decide) (by decide) (by decide) (by decide) (by decide)
theorem W8_main_arg3 (c : Dev nD) : W8 m c (Proc.devRef .tc main_arg3) = m ((c : Thread nD τ).loc main_arg3) :=
  (W8_of_ne m c main_arg3 (by decide)).trans <| (W7_of m c main_arg3 (by decide)).trans <| (W6_of_ne m c main_arg3 (by decide)).trans <|
    V5_arg m c main_arg3 (by decide) (by decide) (by decide) (by decide) (by decide)
theorem W8_main_arg4 (c : Dev nD) : W8 m c (Proc.devRef .tc main_arg4) = m ((c : Thread nD τ).loc main_arg4) :=
  (W8_of_ne m c main_arg4 (by decide)).trans <| (W7_of m c main_arg4 (by decide)).trans <| (W6_of_ne m c main_arg4 (by decide)).trans <|
    V5_arg m c main_arg4 (by decide) (by decide) (by decide) (by decide) (by decide)
theorem W8_main_arg5 (c : Dev nD) : W8 m c (Proc.devRef .tc main_arg5) = m ((c : Thread nD τ).loc main_arg5) :=
  (W8_of_ne m c main_arg5 (by decide)).trans <| (W7_of m c main_arg5 (by decide)).trans <| (W6_of_ne m c main_arg5 (by decide)).trans <|
    V5_arg m c main_arg5 (by decide) (by decide) (by decide) (by decide) (by decide)

/-! ## The proof data family and what rides along -/

/-- Every pipeline's proof data, each at its call's entry contents. -/
def pdats : (p : Fin 2) → (c : Dev nD) → Dat τ (Elt F) Unit ℕ (UR sig nD τ) ℕ (Pipeline.pin (pcfgs (F := F)) adm p) c
  | ⟨0, _⟩ => fun c => dat0 (U5 m) c
  | ⟨1, _⟩ => fun c => dat1 (U7 m) c
abbrev 𝒱ₙ : Variants := Variants.none
/-- No core owes another anything. -/
abbrev Lₙ : GSem nD τ sig → Finset Unit := fun _ => ∅
abbrev lvₙ : GSem nD τ sig → Unit → ℕ := fun _ _ => 0
/-- Beside the buffers, through every item: the core's generator register at some state, and nothing owed. -/
abbrev Rr (c : Dev nD) : sProp 𝕄 := iprop((∃ r, prngReg c r) ∗ ∃ W, owes (c : Thread nD τ) (0 : CellTallies nD τ sig Unit) W)
/-- A host stretch as an item, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱ₙ Lₙ lvₙ :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rr
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tlast (c : Dev nD) : sProp 𝕄 := iprop(StableHlo.held (c : Thread nD τ) (Pipeline.ucRefs τ sig) (W8 m c) ∗ ∃ r, prngReg c r)

/-! ## The calls as items -/

set_option backward.isDefEq.respectTransparency.types false in
/-- The first call: entered with every unscoped buffer at the fifth boundary's contents, left at `W6`. -/
def reg0 : Pipeline.RegionSeg (pcfgs (F := F)) adm (pdats m) () defs₀ 𝒱ₙ Lₙ lvₙ 0 where
  win := launch0.win.to₀
  block_pos := launch0.block_pos
  stage_whole := launch0.stage_whole
  K := PEmpty
  osem k := k.elim
  ho := Pipeline.OwnSemFacts.none _
  hbody c := (body_obligation0 (U5 m) c).loose
  hwaits := Pipeline.hwaits_of_owed_zero _ _ _ _ Lₙ lvₙ 0 fun _ _ => rfl
  pre c := iprop(StableHlo.held (c : Thread nD τ) (Pipeline.ucRefs τ sig) (V5 m c) ∗ Rr c)
  post c := iprop(StableHlo.held (c : Thread nD τ) (Pipeline.ucRefs τ sig) (W6 m c) ∗ Rr c)
  X c := iprop(∃ r, prngReg c r)
  Y c := iprop(∃ r, prngReg c r)
  Z c := Pipeline.unscopedRest (Ix := Unit) (Name := ℕ) (U := UR sig nD τ) (Lvl := ℕ) spec0 c (U5 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U5 m c) (U6 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second call: entered with every unscoped buffer at `W7`, left at `W8`. -/
def reg1 : Pipeline.RegionSeg (pcfgs (F := F)) adm (pdats m) () defs₀ 𝒱ₙ Lₙ lvₙ 1 where
  win := launch1.win.to₀
  block_pos := launch1.block_pos
  stage_whole := launch1.stage_whole
  K := PEmpty
  osem k := k.elim
  ho := Pipeline.OwnSemFacts.none _
  hbody c := (body_obligation1 (U7 m) c).loose
  hwaits := Pipeline.hwaits_of_owed_zero _ _ _ _ Lₙ lvₙ 1 fun _ _ => rfl
  pre c := iprop(StableHlo.held (c : Thread nD τ) (Pipeline.ucRefs τ sig) (W7 m c) ∗ Rr c)
  post c := iprop(Tlast m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (U7 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (U7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (U7 m c) (U8 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as items, and the launch -/

/-- @main's eight items in order. -/
abbrev segs : List (Pipeline.Seg (pcfgs (F := F)) adm (pdats m) () defs₀ 𝒱ₙ Lₙ lvₙ) :=
  [ .host (hseg hostOps0 hostOps0_sub hostOps0_fresh (V0 m)),
    .host (hseg hostOps0_1 hostOps0_1_sub hostOps0_1_fresh (V1 m)),
    .host (hseg hostOps0_2 hostOps0_2_sub hostOps0_2_fresh (V2 m)),
    .host (hseg hostOps0_3 hostOps0_3_sub hostOps0_3_fresh (V3 m)),
    .host (hseg hostOps0_4 hostOps0_4_sub hostOps0_4_fresh (V4 m)),
    .region (reg0 m),
    .host (hseg hostOps1 hostOps1_sub hostOps1_fresh (W6 m)),
    .region (reg1 m) ]

/-- @main is the run of the items. -/
theorem main_run (c : Dev nD) : main (F := F) c = Pipeline.Seg.run (segs m) := by
  rewrite [main_chain c, Pipeline.Seg.run_eq_chain,
    show (segs m).map Pipeline.Seg.prog = [
      StableHlo.seq hostOps0,
      StableHlo.seq hostOps0_1,
      StableHlo.seq hostOps0_2,
      StableHlo.seq hostOps0_3,
      StableHlo.seq hostOps0_4,
      Prog.lift (.customCall (Pipeline.entry 0) ()),
      StableHlo.seq hostOps1,
      Prog.lift (.customCall (Pipeline.entry 1) ()) ] from rfl]
  rfl

set_option backward.isDefEq.respectTransparency.types false in
/-- THE RUN. From any memory with zero counters every weakly fair execution of @main terminates, nothing faulting, in a
    state where the result array holds the last valuation's contents and the six argument arrays hold their launch contents. -/
theorem run_all (ρ : Dev nD → PrngReg) : θ_run defs (onTc (τ := τ) (main (F := F))) ⟨m, fun _ => 0, ρ⟩ (fun r => ∀ c : Dev nD,
      r.2.mem ((c.tc : Thread nD τ).loc main_v124) = W8 m c (Proc.devRef .tc main_v124)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m) () cellOf_inj emb₁ defs₀ 𝒱ₙ Lₙ lvₙ m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rr c)) (Tₙ := Tlast m)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach Lₙ lvₙ fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m c b)
    (hfin := fun c s' => by
      iintro ⟨⟨Hh, -⟩, HSI⟩
      unfold StableHlo.held
      imodintro
      iapply (pointsTo_read_all (Pipeline.ucRefs τ sig) (fun b => (((c : Thread nD τ)).1, b)) (W8 m c) s')
      isplitl [Hh] <;> iassumption)
    (hQ := fun s h c =>
      ⟨h c _ (mem_uc main_v124 (by decide)),
       (h c _ (mem_uc main_arg0 (by decide))).trans (W8_main_arg0 m c),
       (h c _ (mem_uc main_arg1 (by decide))).trans (W8_main_arg1 m c),
       (h c _ (mem_uc main_arg2 (by decide))).trans (W8_main_arg2 m c),
       (h c _ (mem_uc main_arg3 (by decide))).trans (W8_main_arg3 m c),
       (h c _ (mem_uc main_arg4 (by decide))).trans (W8_main_arg4 m c),
       (h c _ (mem_uc main_arg5 (by decide))).trans (W8_main_arg5 m c)⟩)

/-- The frame: the six argument arrays end as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => (h c).2) (run_all m ρ)

end Cert.KernelIdeal.Hand

end
-- ==== Proof.LibRows.lean ====
/-
  Rows of a table gathered at, and accumulated into, integer row numbers.

  `x[idx]` of a table `x : [N, C]` (or `[N]`) at row numbers `idx : [E, 1]` reads, for edge `e`, the row whose number is
  `idx[e, 0]` read as a signed integer and clamped into `[0, N − 1]` (`rowOf`). A `segment_sum` of messages `upd : [E, C]`
  (or `[E]`) at row numbers `idx` adds, into row `d`, the messages of exactly those edges `e` whose number `idx[e, 0]`, read
  signed and NOT clamped, is `d` (`edgesInto`): an edge whose number is outside `[0, N)` is dropped. The three sums of
  one program — onto `[N]`, onto `[N, C]` for each width — run over the SAME set of edges, and for an edge of that set the
  clamped row is `d` itself.
-/
import Idealize.ShloMosaic.PureOps.Ideal
import Idealize.ShloMosaic.Lib.ValueIdx

noncomputable section

namespace Cert.Lib.Rows

open Idealize.ShloMosaic Idealize.ShloMosaic.ValueIdx

/-- The row a gather's start index selects: the word read signed, clamped into `[0, N − 1]`. -/
def rowOf (N : Nat) (hN : 0 < N) {w : Nat} (v : BitVec w) : Fin N := ⟨min v.toInt.toNat (N - 1), by omega⟩

/-- The edges a scatter sends to row `d`: those whose row number, read signed, is `d`. -/
def edgesInto {N E w : Nat} (idx : IVec ⟨2, ![E, 1]⟩ w) (d : Fin N) : Finset (Fin E) :=
  Finset.univ.filter fun e => (idx (ix2 e (0 : Fin 1))).toInt = (d.val : Int)

theorem mem_edgesInto {N E w : Nat} (idx : IVec ⟨2, ![E, 1]⟩ w) (d : Fin N) (e : Fin E) :
    e ∈ edgesInto idx d ↔ (idx (ix2 e (0 : Fin 1))).toInt = (d.val : Int) := by
  simp [edgesInto]

/-- For an edge sent to row `d`, the clamped row of the same number is `d`. -/
theorem rowOf_of_toInt {N : Nat} (hN : 0 < N) {w : Nat} (v : BitVec w) (d : Fin N) (h : v.toInt = (d.val : Int)) :
    rowOf N hN v = d := by
  apply Fin.ext
  show min v.toInt.toNat (N - 1) = d.val
  rw [h, Int.toNat_natCast]
  have := d.isLt
  omega

/-! ## Gathers -/

/-- The dimension numbers of `x[idx]` for a table `[N, C]` at row numbers `[E, 1]`. -/
abbrev gatherRowsDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- A gathered row, read at edge `e` and column `k`: the table at the clamped row of `idx[e, 0]`, column `k`. -/
theorem gatherRows_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (gatherRowsDims N E C wf) x idx (ix2 e k) = x (ix2 (rowOf N hN (idx (ix2 e (0 : Fin 1)))) k) := by
  unfold Host.gather
  congr 1
  funext a
  refine Fin.ext ?_
  match a with
  | ⟨0, _⟩ =>
    show (gatherRowsDims N E C wf).start (ix2 e k) idx 0 + (gatherRowsDims N E C wf).batchCoord (ix2 e k) 0
      + (gatherRowsDims N E C wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gatherRowsDims N E C wf).startIndexMap from List.mem_singleton.mpr rfl)]
    have hsi : (gatherRowsDims N E C wf).siIdx (ix2 e k) ⟨List.idxOf (0 : Fin 2) (gatherRowsDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (gatherRowsDims N E C wf).start (ix2 e k) idx 1 + (gatherRowsDims N E C wf).batchCoord (ix2 e k) 1
      + (gatherRowsDims N E C wf).offCoord (ix2 e k) 1 = k.val
    rw [GatherDims.batchCoord_eq_zero _ _ _ List.not_mem_nil]
    have hs : (gatherRowsDims N E C wf).start (ix2 e k) idx 1 = 0 := by
      unfold GatherDims.start
      rw [dif_neg (show (1 : Fin 2) ∉ ([0] : List (Fin 2)) by decide)]
    rw [hs]
    have ho : (gatherRowsDims N E C wf).offCoord (ix2 e k) 1 = k.val := by
      unfold GatherDims.offCoord
      rw [dif_pos ((GatherDims.mem_sKept _ _).mpr ⟨(show (1 : Fin 2) ∉ ([0] : List (Fin 2)) by decide), List.not_mem_nil⟩)]
      rfl
    rw [ho]
    omega

/-- The dimension numbers of `x[idx]` for a flat table `[N]` at row numbers `[E, 1]`. -/
abbrev gatherEltsDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- A gathered element, read at edge `e`: the table at the clamped row of `idx[e, 0]`. -/
theorem gatherElts_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (gatherEltsDims N E wf) x idx (ix1 e) = x (ix1 (rowOf N hN (idx (ix2 e (0 : Fin 1))))) := by
  unfold Host.gather
  congr 1
  funext a
  obtain rfl : a = 0 := Subsingleton.elim _ _
  refine Fin.ext ?_
  show (gatherEltsDims N E wf).start (ix1 e) idx 0 + (gatherEltsDims N E wf).batchCoord (ix1 e) 0
    + (gatherEltsDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gatherEltsDims N E wf).startIndexMap from List.mem_singleton.mpr rfl)]
  have hsi : (gatherEltsDims N E wf).siIdx (ix1 e) ⟨List.idxOf (0 : Fin 1) (gatherEltsDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-! ## Accumulating scatters -/

/-- An axis is kept exactly when it is not listed. -/
theorem mem_kept {s : Shape} (axes : List (Fin s.rank)) (a : Fin s.rank) : a ∈ s.kept axes ↔ a ∉ axes := by
  simp [Shape.kept, List.mem_filter, List.mem_finRange]

/-- The dimension numbers of a `segment_sum` of rows `[E, C]` into `[N, C]` at row numbers `[E, 1]`. -/
abbrev scatterRowsDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section ScatterRows
variable {N E C w : Nat} (wf : ScatterDims.WF ⟨2, ![N, C]⟩ ⟨2, ![E, 1]⟩ ⟨2, ![E, C]⟩ [1] [0] [0] 1)
  (idx : IVec ⟨2, ![E, 1]⟩ w) (e : Fin E) (k : Fin C)

/-- On the row axis an update starts at its edge's row number, read signed. -/
theorem scatterRows_start0 : (scatterRowsDims N E C wf).start (ix2 e k) idx 0 = (idx (ix2 e (0 : Fin 1))).toInt := by
  unfold ScatterDims.start
  rw [dif_pos (show (0 : Fin 2) ∈ (scatterRowsDims N E C wf).scatterDimsToOperandDims from List.mem_singleton.mpr rfl)]
  have hsi : (scatterRowsDims N E C wf).siIdx (ix2 e k) ⟨List.idxOf (0 : Fin 2) (scatterRowsDims N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis it starts at zero … -/
theorem scatterRows_start1 : (scatterRowsDims N E C wf).start (ix2 e k) idx 1 = 0 := by
  unfold ScatterDims.start
  rw [dif_neg (show (1 : Fin 2) ∉ ([0] : List (Fin 2)) by decide)]

/-- … the row axis has no window coordinate … -/
theorem scatterRows_window0 : (scatterRowsDims N E C wf).window (ix2 e k) 0 = 0 := by
  unfold ScatterDims.window
  rw [dif_neg (fun h => ((mem_kept _ _).mp h) (List.mem_singleton.mpr rfl))]

/-- … and the column axis has the update's column. -/
theorem scatterRows_window1 : (scatterRowsDims N E C wf).window (ix2 e k) 1 = k.val := by
  unfold ScatterDims.window
  rw [dif_pos ((mem_kept _ _).mpr (show (1 : Fin 2) ∉ ([0] : List (Fin 2)) by decide))]
  rfl

/-- WHERE AN UPDATE LANDS: update `(e, k)` lands on element `(d, k')` exactly when edge `e`'s row number, read signed,
    is `d` and the columns agree. -/
theorem scatterRows_resultIdx_iff (d : Fin N) (k' : Fin C) :
    (scatterRowsDims N E C wf).resultIdx? (ix2 e k) idx = some (ix2 d k')
      ↔ (idx (ix2 e (0 : Fin 1))).toInt = (d.val : Int) ∧ k = k' := by
  unfold ScatterDims.resultIdx?
  constructor
  · intro h
    by_cases hb : ∀ a, 0 ≤ (scatterRowsDims N E C wf).start (ix2 e k) idx a + (scatterRowsDims N E C wf).window (ix2 e k) a
        ∧ (scatterRowsDims N E C wf).start (ix2 e k) idx a + (scatterRowsDims N E C wf).window (ix2 e k) a < (⟨2, ![N, C]⟩ : Shape).size a
    · rw [dif_pos hb] at h
      have hf := Option.some.inj h
      have h0 : ((scatterRowsDims N E C wf).start (ix2 e k) idx 0 + ((scatterRowsDims N E C wf).window (ix2 e k) 0 : Nat)).toNat = d.val :=
        congrArg Fin.val (congrFun hf 0)
      have h1 : ((scatterRowsDims N E C wf).start (ix2 e k) idx 1 + ((scatterRowsDims N E C wf).window (ix2 e k) 1 : Nat)).toNat = k'.val :=
        congrArg Fin.val (congrFun hf 1)
      have hb0 := (hb 0).1
      rw [scatterRows_start0, scatterRows_window0] at h0 hb0
      rw [scatterRows_start1, scatterRows_window1] at h1
      exact ⟨by omega, Fin.ext (by omega)⟩
    · rw [dif_neg hb] at h
      exact absurd h (by simp)
  · rintro ⟨hv, rfl⟩
    have hb : ∀ a, 0 ≤ (scatterRowsDims N E C wf).start (ix2 e k) idx a + (scatterRowsDims N E C wf).window (ix2 e k) a
        ∧ (scatterRowsDims N E C wf).start (ix2 e k) idx a + (scatterRowsDims N E C wf).window (ix2 e k) a < (⟨2, ![N, C]⟩ : Shape).size a := by
      intro a
      match a with
      | ⟨0, _⟩ =>
        show 0 ≤ (scatterRowsDims N E C wf).start (ix2 e k) idx 0 + ((scatterRowsDims N E C wf).window (ix2 e k) 0 : Nat)
          ∧ (scatterRowsDims N E C wf).start (ix2 e k) idx 0 + ((scatterRowsDims N E C wf).window (ix2 e k) 0 : Nat) < (N : Int)
        rw [scatterRows_start0, scatterRows_window0, hv]
        have := d.isLt
        omega
      | ⟨1, _⟩ =>
        show 0 ≤ (scatterRowsDims N E C wf).start (ix2 e k) idx 1 + ((scatterRowsDims N E C wf).window (ix2 e k) 1 : Nat)
          ∧ (scatterRowsDims N E C wf).start (ix2 e k) idx 1 + ((scatterRowsDims N E C wf).window (ix2 e k) 1 : Nat) < (C : Int)
        rw [scatterRows_start1, scatterRows_window1]
        have := k.isLt
        omega
    rw [dif_pos hb]
    refine congrArg some (funext fun a => Fin.ext ?_)
    match a with
    | ⟨0, _⟩ =>
      show ((scatterRowsDims N E C wf).start (ix2 e k) idx 0 + ((scatterRowsDims N E C wf).window (ix2 e k) 0 : Nat)).toNat = d.val
      rw [scatterRows_start0, scatterRows_window0, hv]
      omega
    | ⟨1, _⟩ =>
      show ((scatterRowsDims N E C wf).start (ix2 e k) idx 1 + ((scatterRowsDims N E C wf).window (ix2 e k) 1 : Nat)).toNat = k.val
      rw [scatterRows_start1, scatterRows_window1]
      omega

/-- A `segment_sum` into `[N, C]`, read at `(d, k)`: what was there plus the messages, at column `k`, of the edges sent to
    row `d`. -/
theorem scatterAddRows_apply (x : (⟨2, ![N, C]⟩ : Shape).Idx → EReal) (upd : (⟨2, ![E, C]⟩ : Shape).Idx → EReal) (d : Fin N) :
    Ideal.hostScatterAdd (scatterRowsDims N E C wf) x idx upd (ix2 d k) = x (ix2 d k) + ∑ e ∈ edgesInto idx d, upd (ix2 e k) := by
  unfold Ideal.hostScatterAdd
  congr 1
  have key : ∀ j : (⟨2, ![E, C]⟩ : Shape).Idx, (scatterRowsDims N E C wf).resultIdx? j idx = some (ix2 d k) →
      (idx (ix2 (j 0) (0 : Fin 1))).toInt = (d.val : Int) ∧ j = ix2 (j 0) k := by
    intro j hj
    have h := (scatterRows_resultIdx_iff wf idx (j 0) (j 1) d k).mp
      ((congrArg (fun q => (scatterRowsDims N E C wf).resultIdx? q idx) (eq_ix2 j)).symm.trans hj)
    exact ⟨h.1, (eq_ix2 j).trans (congrArg (fun q : Fin C => (ix2 (j 0) q : (⟨2, ![E, C]⟩ : Shape).Idx)) h.2)⟩
  refine Finset.sum_bij' (fun j _ => j 0) (fun e _ => ix2 e k) ?_ ?_ ?_ ?_ ?_
  · intro j hj
    exact (mem_edgesInto idx d (j 0)).mpr (key j (Finset.mem_filter.mp hj).2).1
  · intro e he
    exact Finset.mem_filter.mpr ⟨Finset.mem_univ _,
      (scatterRows_resultIdx_iff wf idx e k d k).mpr ⟨(mem_edgesInto idx d e).mp he, rfl⟩⟩
  · intro j hj
    exact (key j (Finset.mem_filter.mp hj).2).2.symm
  · intro e _
    rfl
  · intro j hj
    exact congrArg upd (key j (Finset.mem_filter.mp hj).2).2

end ScatterRows

/-- The dimension numbers of a `segment_sum` of elements `[E]` into `[N]` at row numbers `[E, 1]`. -/
abbrev scatterEltsDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section ScatterElts
variable {N E w : Nat} (wf : ScatterDims.WF ⟨1, ![N]⟩ ⟨2, ![E, 1]⟩ ⟨1, ![E]⟩ [] [0] [0] 1)
  (idx : IVec ⟨2, ![E, 1]⟩ w) (e : Fin E)

theorem scatterElts_start0 : (scatterEltsDims N E wf).start (ix1 e) idx 0 = (idx (ix2 e (0 : Fin 1))).toInt := by
  unfold ScatterDims.start
  rw [dif_pos (show (0 : Fin 1) ∈ (scatterEltsDims N E wf).scatterDimsToOperandDims from List.mem_singleton.mpr rfl)]
  have hsi : (scatterEltsDims N E wf).siIdx (ix1 e) ⟨List.idxOf (0 : Fin 1) (scatterEltsDims N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem scatterElts_window0 : (scatterEltsDims N E wf).window (ix1 e) 0 = 0 := by
  unfold ScatterDims.window
  rw [dif_neg (fun h => ((mem_kept _ _).mp h) (List.mem_singleton.mpr rfl))]

/-- Update `e` lands on element `d` exactly when edge `e`'s row number, read signed, is `d`. -/
theorem scatterElts_resultIdx_iff (d : Fin N) :
    (scatterEltsDims N E wf).resultIdx? (ix1 e) idx = some (ix1 d) ↔ (idx (ix2 e (0 : Fin 1))).toInt = (d.val : Int) := by
  unfold ScatterDims.resultIdx?
  constructor
  · intro h
    by_cases hb : ∀ a, 0 ≤ (scatterEltsDims N E wf).start (ix1 e) idx a + (scatterEltsDims N E wf).window (ix1 e) a
        ∧ (scatterEltsDims N E wf).start (ix1 e) idx a + (scatterEltsDims N E wf).window (ix1 e) a < (⟨1, ![N]⟩ : Shape).size a
    · rw [dif_pos hb] at h
      have hf := Option.some.inj h
      have h0 : ((scatterEltsDims N E wf).start (ix1 e) idx 0 + ((scatterEltsDims N E wf).window (ix1 e) 0 : Nat)).toNat = d.val :=
        congrArg Fin.val (congrFun hf 0)
      have hb0 := (hb 0).1
      rw [scatterElts_start0, scatterElts_window0] at h0 hb0
      omega
    · rw [dif_neg hb] at h
      exact absurd h (by simp)
  · intro hv
    have hb : ∀ a, 0 ≤ (scatterEltsDims N E wf).start (ix1 e) idx a + (scatterEltsDims N E wf).window (ix1 e) a
        ∧ (scatterEltsDims N E wf).start (ix1 e) idx a + (scatterEltsDims N E wf).window (ix1 e) a < (⟨1, ![N]⟩ : Shape).size a := by
      intro a
      match a with
      | ⟨0, _⟩ =>
        show 0 ≤ (scatterEltsDims N E wf).start (ix1 e) idx 0 + ((scatterEltsDims N E wf).window (ix1 e) 0 : Nat)
          ∧ (scatterEltsDims N E wf).start (ix1 e) idx 0 + ((scatterEltsDims N E wf).window (ix1 e) 0 : Nat) < (N : Int)
        rw [scatterElts_start0, scatterElts_window0, hv]
        have := d.isLt
        omega
    rw [dif_pos hb]
    refine congrArg some (funext fun a => Fin.ext ?_)
    match a with
    | ⟨0, _⟩ =>
      show ((scatterEltsDims N E wf).start (ix1 e) idx 0 + ((scatterEltsDims N E wf).window (ix1 e) 0 : Nat)).toNat = d.val
      rw [scatterElts_start0, scatterElts_window0, hv]
      omega

/-- A `segment_sum` into `[N]`, read at `d`: what was there plus the messages of the edges sent to row `d`. -/
theorem scatterAddElts_apply (x : (⟨1, ![N]⟩ : Shape).Idx → EReal) (upd : (⟨1, ![E]⟩ : Shape).Idx → EReal) (d : Fin N) :
    Ideal.hostScatterAdd (scatterEltsDims N E wf) x idx upd (ix1 d) = x (ix1 d) + ∑ e ∈ edgesInto idx d, upd (ix1 e) := by
  unfold Ideal.hostScatterAdd
  congr 1
  refine Finset.sum_bij' (fun j _ => j 0) (fun e _ => ix1 e) ?_ ?_ ?_ ?_ ?_
  · intro j hj
    exact (mem_edgesInto idx d (j 0)).mpr ((scatterElts_resultIdx_iff wf idx (j 0) d).mp
      ((congrArg (fun q => (scatterEltsDims N E wf).resultIdx? q idx) (eq_ix1 j)).symm.trans (Finset.mem_filter.mp hj).2))
  · intro e he
    exact Finset.mem_filter.mpr ⟨Finset.mem_univ _, (scatterElts_resultIdx_iff wf idx e d).mpr ((mem_edgesInto idx d e).mp he)⟩
  · intro j _
    exact (eq_ix1 j).symm
  · intro e _
    rfl
  · intro j _
    exact congrArg upd (eq_ix1 j)

end ScatterElts

/-! ## Row numbers made nonnegative

`x[idx]` first turns a negative row number `v` into `v + N` (python's indexing from the end) and then gathers. For an edge
whose number, read signed, is a row `d` of the table, nothing changes. -/

/-- A row number that is a row of the table is not negative, so the python-style wrap leaves it alone. -/
theorem wrap_of_toInt (v c : BitVec 32) (d : Nat) (h : v.toInt = (d : Int)) :
    Scalar.select (IntOp.cmpi .slt v 0#32) (IntOp.addi v c) v = v := by
  have h0 : IntOp.cmpi .slt v 0#32 = 0#1 := by
    have hlt : ¬ v.toInt < 0 := by rw [h]; omega
    simp [IntOp.cmpi, BitVec.slt, hlt]
  rw [h0]
  exact if_neg (by decide)

end Cert.Lib.Rows

end
-- ==== Proof.ChebDefs.lean ====
/-
  The vocabulary of the value claim, free of both programs: a two-layer Chebyshev graph convolution of order 3 over
  N = 100000 nodes with 32 features and E = 1600000 directed edges given as 32-bit row and column numbers.

  An edge's column number, wrapped python-style when negative and clamped into [0, N), names the row a gather reads
  (`srcOf`); its row number, read signed and NOT clamped, names the row a segment sum adds into, and an edge whose row
  number is outside the table is dropped (`Cert.Lib.Rows.edgesInto`).

  The kernel's program diverts self-loops (row number = column number) to an extra row N of an (N+1)-row table that
  is sliced away (`rdW`), counts degrees by summing ones, and propagates by scaling rows with D^{-1/2} before the gather
  and with −D^{-1/2} after the sum (`propK`). The reference masks self-loops with a 0/1 factor (`maskR`), and propagates with
  per-edge weights −mask · D^{-1/2}[row] · D^{-1/2}[col] (`wR`, `propR`). The dense combines differ by the recurrence
  T₂ = 2·P − x folded into the weights (`combK`) or applied to the rows (`combR`).
-/
import Idealize.ShloMosaic.PureOps.Ideal
import Idealize.ShloMosaic.Lib.ValueIdx
import proofs.«146355_j53403623358893_2_alg».proof.Proof.LibRows

noncomputable section

namespace Cert.Cheb

open Idealize.ShloMosaic Idealize.ShloMosaic.ValueIdx Cert.Lib.Rows

/-- A node table as a function of the node and the feature. -/
abbrev Tab : Type := Fin 100000 → Fin 32 → EReal

/-- A [100000,32] array as a node table, and back. -/
def tab (A : (⟨2, ![100000, 32]⟩ : Shape).Idx → EReal) : Tab := fun i k => A (ix2 i k)
def untab (T : Tab) : (⟨2, ![100000, 32]⟩ : Shape).Idx → EReal := fun i => T ⟨(i 0).val, (i 0).isLt⟩ ⟨(i 1).val, (i 1).isLt⟩

theorem untab_ix2 (T : Tab) (i : Fin 100000) (k : Fin 32) : untab T (ix2 i k) = T i k := rfl
theorem tab_untab (T : Tab) : tab (untab T) = T := rfl
theorem untab_tab (A : (⟨2, ![100000, 32]⟩ : Shape).Idx → EReal) : untab (tab A) = A := by
  funext i
  show A (ix2 _ _) = A i
  congr 1
  funext a
  match a with
  | ⟨0, _⟩ => rfl
  | ⟨1, _⟩ => rfl

/-! ## Edges -/

/-- Edge `e`'s row number and column number (rows 0 and 1 of the [2,E] index array). -/
def rowW (ei : IVec ⟨2, ![2, 1600000]⟩ 32) (e : Fin 1600000) : BitVec 32 := ei (ix2 (0 : Fin 2) e)
def colW (ei : IVec ⟨2, ![2, 1600000]⟩ 32) (e : Fin 1600000) : BitVec 32 := ei (ix2 (1 : Fin 2) e)

/-- A per-edge word as an [E,1] index column. -/
def col1 (f : Fin 1600000 → BitVec 32) : IVec ⟨2, ![1600000, 1]⟩ 32 := fun j => f ⟨(j 0).val, (j 0).isLt⟩

theorem col1_ix2 (f : Fin 1600000 → BitVec 32) (e : Fin 1600000) : col1 f (ix2 e (0 : Fin 1)) = f e := rfl

/-- Python-style wrap of a negative number by N = 100000. -/
def wrapN (v : BitVec 32) : BitVec 32 := Scalar.select (IntOp.cmpi .slt v 0#32) (IntOp.addi v 100000#32) v

/-- The row a gather at edge `e`'s column number (resp. row number) reads. -/
def srcOf (ei : IVec ⟨2, ![2, 1600000]⟩ 32) (e : Fin 1600000) : Fin 100000 := rowOf 100000 (by decide) (wrapN (colW ei e))
def rsrcOf (ei : IVec ⟨2, ![2, 1600000]⟩ 32) (e : Fin 1600000) : Fin 100000 := rowOf 100000 (by decide) (wrapN (rowW ei e))

/-- The kernel's segment number: self-loops go to the extra row 100000. -/
def rdW (ei : IVec ⟨2, ![2, 1600000]⟩ 32) (e : Fin 1600000) : BitVec 32 := if rowW ei e = colW ei e then 100000#32 else rowW ei e

/-- The reference's self-loop mask: 1 off the diagonal, 0 on it. -/
def maskR (ei : IVec ⟨2, ![2, 1600000]⟩ 32) (e : Fin 1600000) : EReal := if rowW ei e ≠ colW ei e then 1 else 0

/-- Node `d` as a row of the (N+1)-row table. -/
def ext (d : Fin 100000) : Fin 100001 := ⟨d.val, Nat.lt_succ_of_lt d.isLt⟩

/-! ## Degrees and D^{-1/2} -/

def degK (ei : IVec ⟨2, ![2, 1600000]⟩ 32) (d : Fin 100000) : EReal := ∑ _e ∈ edgesInto (col1 (rdW ei)) (ext d), (1 : EReal)
def degR (ei : IVec ⟨2, ![2, 1600000]⟩ 32) (d : Fin 100000) : EReal := ∑ e ∈ edgesInto (col1 (rowW ei)) d, maskR ei e

/-- `where(deg > 0, 1 / sqrt(max(deg, 1)), 0)`. -/
def dinvOf (deg : EReal) : EReal := if 0 < deg then Ideal.div 1 (Ideal.sqrt (max deg 1)) else 0

/-! ## Propagation -/

/-- The kernel's: scale by `dinv`, gather, sum into the diverted segment numbers, scale by `−dinv`. -/
def propK (ei : IVec ⟨2, ![2, 1600000]⟩ 32) (dinv : Fin 100000 → EReal) (v : Tab) : Tab := fun d k =>
  (-(dinv d)) * ∑ e ∈ edgesInto (col1 (rdW ei)) (ext d), dinv (srcOf ei e) * v (srcOf ei e) k

/-- The reference's edge weight and propagation. -/
def wR (ei : IVec ⟨2, ![2, 1600000]⟩ 32) (dinv : Fin 100000 → EReal) (e : Fin 1600000) : EReal :=
  ((-(maskR ei e)) * dinv (rsrcOf ei e)) * dinv (srcOf ei e)
def propR (ei : IVec ⟨2, ![2, 1600000]⟩ 32) (dinv : Fin 100000 → EReal) (v : Tab) : Tab := fun d k =>
  ∑ e ∈ edgesInto (col1 (rowW ei)) d, wR ei dinv e * v (srcOf ei e) k

/-! ## The dense combine -/

/-- Three products with a weight stack and a bias row, as both pallas_calls compute them. -/
def comb3 (v T P : Tab) (Wm : (⟨3, ![3, 32, 32]⟩ : Shape).Idx → EReal) (b : Fin 32 → EReal) : Tab := fun i j =>
  (((∑ k : Fin 32, v i k * Wm (ix3 (0 : Fin 3) k j)) + ∑ k : Fin 32, T i k * Wm (ix3 (1 : Fin 3) k j))
    + ∑ k : Fin 32, P i k * Wm (ix3 (2 : Fin 3) k j)) + b j

/-- The kernel's combine over the ORIGINAL weights: W₀ − W₂, W₁, 2·W₂. -/
def combK (v T P : Tab) (W : (⟨3, ![3, 32, 32]⟩ : Shape).Idx → EReal) (b : Fin 32 → EReal) : Tab := fun i j =>
  (((∑ k : Fin 32, v i k * (W (ix3 (0 : Fin 3) k j) - W (ix3 (2 : Fin 3) k j))) + ∑ k : Fin 32, T i k * W (ix3 (1 : Fin 3) k j))
    + ∑ k : Fin 32, P i k * (2 * W (ix3 (2 : Fin 3) k j))) + b j

/-- The reference's combine: the recurrence T₂ = 2·P − v applied to the rows. -/
def combR (v T P : Tab) (W : (⟨3, ![3, 32, 32]⟩ : Shape).Idx → EReal) (b : Fin 32 → EReal) : Tab := fun i j =>
  (((∑ k : Fin 32, v i k * W (ix3 (0 : Fin 3) k j)) + ∑ k : Fin 32, T i k * W (ix3 (1 : Fin 3) k j))
    + ∑ k : Fin 32, (2 * P i k - v i k) * W (ix3 (2 : Fin 3) k j)) + b j

/-! ## The two programs' results -/

def layerK (ei : IVec ⟨2, ![2, 1600000]⟩ 32) (dinv : Fin 100000 → EReal) (v : Tab)
    (W : (⟨3, ![3, 32, 32]⟩ : Shape).Idx → EReal) (b : Fin 32 → EReal) : Tab :=
  combK v (propK ei dinv v) (propK ei dinv (propK ei dinv v)) W b

def layerR (ei : IVec ⟨2, ![2, 1600000]⟩ 32) (dinv : Fin 100000 → EReal) (v : Tab)
    (W : (⟨3, ![3, 32, 32]⟩ : Shape).Idx → EReal) (b : Fin 32 → EReal) : Tab :=
  combR v (propR ei dinv v) (propR ei dinv (propR ei dinv v)) W b

def outK (ei : IVec ⟨2, ![2, 1600000]⟩ 32) (x : Tab) (W1 : (⟨3, ![3, 32, 32]⟩ : Shape).Idx → EReal) (b1 : Fin 32 → EReal)
    (W2 : (⟨3, ![3, 32, 32]⟩ : Shape).Idx → EReal) (b2 : Fin 32 → EReal) : Tab := fun i j =>
  layerK ei (fun d => dinvOf (degK ei d)) (fun i j => max (layerK ei (fun d => dinvOf (degK ei d)) x W1 b1 i j) 0) W2 b2 i j + x i j

def outR (ei : IVec ⟨2, ![2, 1600000]⟩ 32) (x : Tab) (W1 : (⟨3, ![3, 32, 32]⟩ : Shape).Idx → EReal) (b1 : Fin 32 → EReal)
    (W2 : (⟨3, ![3, 32, 32]⟩ : Shape).Idx → EReal) (b2 : Fin 32 → EReal) : Tab := fun i j =>
  layerR ei (fun d => dinvOf (degR ei d)) (fun i j => max (layerR ei (fun d => dinvOf (degR ei d)) x W1 b1 i j) 0) W2 b2 i j + x i j

end Cert.Cheb

end
-- ==== Proof.KIArgs.lean ====
/-
  The idealized kernel program's six argument arrays on a core, as the value claim's vocabulary takes them: the node
  features as a node table, the edge numbers, the two weight stacks, the two bias vectors as functions of the feature;
  D^{-1/2} from the kernel's degree count; and the rectified first layer.
-/
import proofs.«146355_j53403623358893_2_alg».proof.KernelIdeal
import proofs.«146355_j53403623358893_2_alg».proof.Proof.ChebDefs
import Idealize.ShloMosaic.Lib.ValueIdx

noncomputable section

namespace Cert.KernelIdeal.Hand

open Cert.KernelIdeal Cert.Cheb
open Idealize.ShloMosaic Idealize.ShloMosaic.TcCoe Idealize.ShloMosaic.ValueIdx Idealize.SL.Sem

variable (m : (ℓ : Loc nD τ sig) → Buf (Elt Ideal) ℓ) (c : Dev nD)

abbrev aX : Tab := tab (m ((c.tc : Thread nD τ).loc main_arg0))
abbrev aE : IVec ⟨2, ![2, 1600000]⟩ 32 := m ((c.tc : Thread nD τ).loc main_arg1)
abbrev aW1 : (⟨3, ![3, 32, 32]⟩ : Shape).Idx → EReal := m ((c.tc : Thread nD τ).loc main_arg2)
abbrev aB1 : Fin 32 → EReal := fun j => (m ((c.tc : Thread nD τ).loc main_arg3) : (⟨1, ![32]⟩ : Shape).Idx → EReal) (ix1 j)
abbrev aW2 : (⟨3, ![3, 32, 32]⟩ : Shape).Idx → EReal := m ((c.tc : Thread nD τ).loc main_arg4)
abbrev aB2 : Fin 32 → EReal := fun j => (m ((c.tc : Thread nD τ).loc main_arg5) : (⟨1, ![32]⟩ : Shape).Idx → EReal) (ix1 j)
/-- D^{-1/2}, from the kernel's degree count. -/
abbrev aD : Fin 100000 → EReal := fun d => dinvOf (degK (aE m c) d)
/-- The rectified first layer. -/
abbrev aH : Tab := fun i j => max (layerK (aE m c) (aD m c) (aX m c) (aW1 m c) (aB1 m c) i j) 0

end Cert.KernelIdeal.Hand

end
-- ==== Proof.LibMatmulPlain.lean ====
/-
  A rows-by-columns matrix product into a zero accumulator, read at an index on the extended reals.

  For `A : [M, K]` and `B : [K, N]` contracted on `A`'s last and `B`'s first axis, the product accumulated into the
  zero splat is, at `(i, j)`, the finite sum `∑ k, A (i, k) * B (k, j)`: no rounding and no chunk order is left at the
  exact values, and the contraction index with its one axis is the coordinate `k`.
-/
import Idealize.ShloMosaic.PureOps.Ideal
import Idealize.ShloMosaic.PureOps.Ideal.Laws
import Idealize.ShloMosaic.Lib.ValueIdx

noncomputable section

namespace Cert.LibMatmulPlain

open Idealize.ShloMosaic Idealize.ShloMosaic.ValueIdx

/-- The plain product `[M, K] × [K, N]` into the zero accumulator at `(i, j)` is `∑ k, A (i, k) * B (k, j)`. -/
theorem matmul_zero_apply {M K N : ℕ} {φ₁ φ₂ : FTy} (prec : Option ContractPrecision)
    (A : FVec Ideal ⟨2, ![M, K]⟩ φ₁) (B : FVec Ideal ⟨2, ![K, N]⟩ φ₂) (i : Fin M) (j : Fin N) :
    FloatOps.matmul (DotDims.plain M K N) prec A B (constant ⟨2, ![M, N]⟩ .f32 0x00000000#32) (ix2 i j)
      = ∑ k : Fin K, A (ix2 i k) * B (ix2 k j) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => rfl
      | ⟨1, _⟩ => exact ((DotDims.plain M K N).lhsIdx_val_of_single rfl _ _).trans hk)
  have er : (DotDims.plain M K N).rhsIdx (ix2 i j) ((contrEquiv1 (DotDims.plain M K N) K rfl rfl).symm k) = ix2 k j :=
    funext fun a => Fin.ext (by
      match a with
      | ⟨0, _⟩ => exact ((DotDims.plain M K N).rhsIdx_val_of_single rfl _ _).trans hk
      | ⟨1, _⟩ => rfl)
  rw [el, er]

end Cert.LibMatmulPlain

end
-- ==== Proof.LibWords.lean ====
/-
  The five 32-bit patterns the two programs spell, as the extended reals they denote: +0.0 is 0, 2.0 is the
  real 2, the all-ones exponent with a zero significand is +∞, 32768.0 = 2¹⁵ is the real 32768, and 1.0 is 1.
  A normal pattern with exponent field E and significand field T denotes (2²³ + T) · 2^(E − 127 − 23).
-/
import Idealize.ShloMosaic.PureOps.Ideal

noncomputable section

namespace Cert.Chamfer.Words

open Idealize.ShloMosaic

/-- +0.0 denotes 0. -/
theorem ofBits_zero : Ideal.ofBits .f32 0x00000000#32 = 0 := by
  simp [Ideal.ofBits, Ideal.ieee]

/-- 2.0: exponent field 128, significand field 0, so 2²³ · 2^(128 − 150) = 2. -/
theorem ofBits_two : Ideal.ofBits .f32 0x40000000#32 = ((2 : ℝ) : EReal) := by
  simp [Ideal.ofBits, Ideal.ieee, -EReal.coe_mul]; norm_num

/-- The all-ones exponent with a zero significand and a clear sign bit denotes +∞. -/
theorem ofBits_top : Ideal.ofBits .f32 0x7F800000#32 = ⊤ := by
  simp [Ideal.ofBits, Ideal.ieee]

/-- 32768.0: exponent field 142, significand field 0, so 2²³ · 2^(142 − 150) = 2¹⁵. -/
theorem ofBits_32768 : Ideal.ofBits .f32 0x47000000#32 = ((32768 : ℝ) : EReal) := by
  simp [Ideal.ofBits, Ideal.ieee, -EReal.coe_mul]; norm_num

/-- 1.0: exponent field 127, significand field 0, so 2²³ · 2^(127 − 150) = 1. -/
theorem ofBits_one : Ideal.ofBits .f32 0x3F800000#32 = 1 := by
  simp [Ideal.ofBits, Ideal.ieee, -EReal.coe_mul]; norm_num

end Cert.Chamfer.Words

end
-- ==== Proof.KIFinal0.lean ====
/-
  The first pallas_call's output array after its pipeline, as one function of the arrays the call finds.

  The call tiles the 100000 rows of three node arrays and of its output into 20 blocks of 5000 rows; the [3,32,32] weight
  stack and the [1,32] bias row are one block each. At a point the body stores, over the whole output block, the three
  products of the row blocks with the three matrices of the stack, summed, plus the bias row, cut off below at zero.
  Read at a row and a column this is the combine `comb3` of the three arrays at row 5000·t + r, because row r of block t
  of an array is that row of the array and the weight and bias blocks are the arrays themselves. The 20 blocks tile the
  output (row i lies in block i / 5000), so the array ends holding the combine everywhere.
-/
import proofs.«146355_j53403623358893_2_alg».proof.Proof.KIBody0
import proofs.«146355_j53403623358893_2_alg».proof.Proof.ChebDefs
import proofs.«146355_j53403623358893_2_alg».proof.Proof.LibMatmulPlain
import proofs.«146355_j53403623358893_2_alg».proof.Proof.LibWords
import Idealize.ShloMosaic.Lib.Pipeline.Value
import Idealize.ShloMosaic.Lib.ValueLayout

noncomputable section

namespace Cert.KernelIdeal.Hand

open Cert.KernelIdeal Cert.KernelIdeal.Gen Cert.Cheb Idealize.ShloMosaic Idealize.ShloMosaic.ValueIdx
open Idealize.ShloMosaic.TcCoe
open Idealize.ShloMosaic.Pipeline (Dat)

namespace Final0

theorem dot_plain : dot_S5000x32_S32x32_S5000x32_1_0_0_1_n_n = DotDims.plain 5000 32 32 := rfl

/-- Dropping the leading unit axis of a [1,32,32] block. -/
theorem cast_w (w : Vec Ideal S1x32x32 .f32) (k j : Fin 32) :
    shapeCast S32x32 w shapeCasts_S1x32x32_S32x32 (ix2 k j) = w (ix3 (0 : Fin 1) k j) := by
  refine shapeCast_apply w shapeCasts_S1x32x32_S32x32 (ix2 k j) (ix3 (0 : Fin 1) k j) ?_
  rw [Shape.rowMajor_val_two, Shape.rowMajor_val_three]
  show ((0 : Nat) * 32 + k.val) * 32 + j.val = k.val * 32 + j.val
  omega

set_option maxHeartbeats 400000 in
theorem mm_apply (x : Vec Ideal S5000x32 .f32) (w : Vec Ideal S1x32x32 .f32) (r : Fin 5000) (j : Fin 32) :
    matmul (F := Ideal) dot_S5000x32_S32x32_S5000x32_1_0_0_1_n_n none (truncf .bf16 x bitsLt_bf16_f32)
        (truncf .bf16 (shapeCast S32x32 w shapeCasts_S1x32x32_S32x32) bitsLt_bf16_f32) (constant S5000x32 .f32 0x00000000#32) (ix2 r j)
      = ∑ k : Fin 32, x (ix2 r k) * w (ix3 (0 : Fin 1) k j) := by
  rw [dot_plain]
  refine (Cert.LibMatmulPlain.matmul_zero_apply none _ _ r j).trans ?_
  refine Finset.sum_congr rfl fun k _ => ?_
  rw [truncf_apply, truncf_apply, cast_w]

/-- The bias row broadcast down the rows. -/
theorem bias_apply (b : Vec Ideal S1x32 .f32) (r : Fin 5000) (j : Fin 32) :
    broadcastTo S5000x32 (shapeCast S1x32 b shapeCasts_S1x32_S1x32) broadcasts_S1x32_S5000x32 (ix2 r j) = b (ix2 (0 : Fin 1) j) := by
  rw [shapeCast_self]
  refine broadcastTo_apply b broadcasts_S1x32_S5000x32 (ix2 r j) (ix2 (0 : Fin 1) j) ?_
  intro a
  match a with
  | ⟨0, _⟩ => rfl
  | ⟨1, _⟩ => rfl

set_option maxHeartbeats 400000 in
theorem pay0_apply (x0 x1 x2 : Vec Ideal S5000x32 .f32) (w0 w1 w2 : Vec Ideal S1x32x32 .f32) (b : Vec Ideal S1x32 .f32) (r : Fin 5000) (j : Fin 32) :
    k0_pay1 x0 x1 x2 w0 w1 w2 b (ix2 r j)
      = max ((((∑ k : Fin 32, x0 (ix2 r k) * w0 (ix3 (0 : Fin 1) k j)) + ∑ k : Fin 32, x1 (ix2 r k) * w1 (ix3 (0 : Fin 1) k j))
          + ∑ k : Fin 32, x2 (ix2 r k) * w2 (ix3 (0 : Fin 1) k j)) + b (ix2 (0 : Fin 1) j)) 0 := by
  unfold k0_pay1
  rw [maximumf_apply, addf_apply, addf_apply, addf_apply, broadcast_apply, shapeCast_self, shapeCast_self,
    mm_apply, mm_apply, mm_apply, bias_apply]
  show max _ (Ideal.ofBits .f32 0x00000000#32) = _
  rw [Cert.Chamfer.Words.ofBits_zero]

/-! ## Reading a slice of the weight stack -/

theorem ldW0 (x3 : Vec Ideal S3x32x32 .f32) (k j : Fin 32) :
    View.ld x3 rW0_0 (ix3 (0 : Fin 1) k j) = x3 (ix3 (0 : Fin 3) k j) := by
  show x3 _ = x3 _
  congr 1
  funext a; apply Fin.ext
  match a with
  | ⟨0, _⟩ => rfl
  | ⟨1, _⟩ => show 0 + 1 * k.val = k.val; omega
  | ⟨2, _⟩ => show 0 + 1 * j.val = j.val; omega
theorem ldW1 (x3 : Vec Ideal S3x32x32 .f32) (k j : Fin 32) :
    View.ld x3 rW0_1 (ix3 (0 : Fin 1) k j) = x3 (ix3 (1 : Fin 3) k j) := by
  show x3 _ = x3 _
  congr 1
  funext a; apply Fin.ext
  match a with
  | ⟨0, _⟩ => rfl
  | ⟨1, _⟩ => show 0 + 1 * k.val = k.val; omega
  | ⟨2, _⟩ => show 0 + 1 * j.val = j.val; omega
theorem ldW2 (x3 : Vec Ideal S3x32x32 .f32) (k j : Fin 32) :
    View.ld x3 rW0_2 (ix3 (0 : Fin 1) k j) = x3 (ix3 (2 : Fin 3) k j) := by
  show x3 _ = x3 _
  congr 1
  funext a; apply Fin.ext
  match a with
  | ⟨0, _⟩ => rfl
  | ⟨1, _⟩ => show 0 + 1 * k.val = k.val; omega
  | ⟨2, _⟩ => show 0 + 1 * j.val = j.val; omega

/-! ## The blocks of the first call -/

theorem hz2 : (![0, 0] : Fin 2 → Nat) = fun _ => 0 := funext fun a => by fin_cases a <;> rfl

/-- The printed index maps, decided over the grid: a row window's block index is (t, 0); the weight stack and the bias
    row are block 0 at every point. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 3) = 0 ∧ win0_3.index t (1 : Fin 3) = 0 ∧ win0_3.index t (2 : Fin 3) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `r` of block `t` is row `5000 t + r` of the array. -/
def rowAt0 (t : Fin cfg0.N) (r : Fin 5000) : Fin 100000 :=
  ⟨t.val * 5000 + r.val, by have h1 := t.isLt; have h2 : cfg0.N = 20 := N_0; have h3 := r.isLt; omega⟩

theorem emb0_0 (t : Fin cfg0.N) (r : Fin 5000) (k : Fin 32) : ((cfg0.win 0).blk t).view.emb (ix2 r k) = ix2 (rowAt0 t r) k := by
  obtain ⟨e0, e1, -⟩ := idx_facts0 t
  funext a; apply Fin.ext
  match a with
  | ⟨0, _⟩ => show win0_0.index t (0 : Fin 2) * 5000 + 1 * r.val = t.val * 5000 + r.val; rw [e0]; omega
  | ⟨1, _⟩ => show win0_0.index t (1 : Fin 2) * 32 + 1 * k.val = k.val; rw [e1]; omega

theorem emb0_1 (t : Fin cfg0.N) (r : Fin 5000) (k : Fin 32) : ((cfg0.win 1).blk t).view.emb (ix2 r k) = ix2 (rowAt0 t r) k := by
  obtain ⟨-, -, e0, e1, -⟩ := idx_facts0 t
  funext a; apply Fin.ext
  match a with
  | ⟨0, _⟩ => show win0_1.index t (0 : Fin 2) * 5000 + 1 * r.val = t.val * 5000 + r.val; rw [e0]; omega
  | ⟨1, _⟩ => show win0_1.index t (1 : Fin 2) * 32 + 1 * k.val = k.val; rw [e1]; omega
theorem emb0_2 (t : Fin cfg0.N) (r : Fin 5000) (k : Fin 32) : ((cfg0.win 2).blk t).view.emb (ix2 r k) = ix2 (rowAt0 t r) k := by
  obtain ⟨-, -, -, -, e0, e1, -⟩ := idx_facts0 t
  funext a; apply Fin.ext
  match a with
  | ⟨0, _⟩ => show win0_2.index t (0 : Fin 2) * 5000 + 1 * r.val = t.val * 5000 + r.val; rw [e0]; omega
  | ⟨1, _⟩ => show win0_2.index t (1 : Fin 2) * 32 + 1 * k.val = k.val; rw [e1]; omega
theorem emb0_3 (t : Fin cfg0.N) (y : S3x32x32.Idx) : ((cfg0.win 3).blk t).view.emb y = y := by
  obtain ⟨-, -, -, -, -, -, e0, e1, e2, -⟩ := idx_facts0 t
  funext a; apply Fin.ext
  match a with
  | ⟨0, _⟩ => show win0_3.index t (0 : Fin 3) * 3 + 1 * (y 0).val = (y 0).val; rw [e0]; omega
  | ⟨1, _⟩ => show win0_3.index t (1 : Fin 3) * 32 + 1 * (y 1).val = (y 1).val; rw [e1]; omega
  | ⟨2, _⟩ => show win0_3.index t (2 : Fin 3) * 32 + 1 * (y 2).val = (y 2).val; rw [e2]; omega
theorem emb0_4 (t : Fin cfg0.N) (y : S1x32.Idx) : ((cfg0.win 4).blk t).view.emb y = y := by
  obtain ⟨-, -, -, -, -, -, -, -, -, e0, e1, -⟩ := idx_facts0 t
  funext a; apply Fin.ext
  match a with
  | ⟨0, _⟩ => show win0_4.index t (0 : Fin 2) * 1 + 1 * (y 0).val = (y 0).val; rw [e0]; omega
  | ⟨1, _⟩ => show win0_4.index t (1 : Fin 2) * 32 + 1 * (y 1).val = (y 1).val; rw [e1]; omega
theorem emb0_5 (t : Fin cfg0.N) (r : Fin 5000) (k : Fin 32) : ((cfg0.win 5).blk t).view.emb (ix2 r k) = ix2 (rowAt0 t r) k := by
  obtain ⟨-, -, -, -, -, -, -, -, -, -, -, e0, e1⟩ := idx_facts0 t
  funext a; apply Fin.ext
  match a with
  | ⟨0, _⟩ => show win0_5.index t (0 : Fin 2) * 5000 + 1 * r.val = t.val * 5000 + r.val; rw [e0]; omega
  | ⟨1, _⟩ => show win0_5.index t (1 : Fin 2) * 32 + 1 * k.val = k.val; rw [e1]; omega

section Blocks0

variable (V : (c : Dev nD) → (b : Ref sig .tc) → Buf (Elt Ideal) ((c : Thread nD τ).loc b)) (c : Dev nD) (t : Fin cfg0.N)

/-- A row block at point `t` holds rows `5000 t …` of its array; the weight stack's and the bias row's are the arrays. -/
theorem blk0_0 (r : Fin 5000) (k : Fin 32) : iblk0 V c 0 t (ix2 r k) = V c main_arg0 (ix2 (rowAt0 t r) k) := by
  show V c main_arg0 (((cfg0.win 0).blk t).view.emb (ix2 r k)) = _
  rw [emb0_0]
theorem blk0_1 (r : Fin 5000) (k : Fin 32) : iblk0 V c 1 t (ix2 r k) = V c main_v36 (ix2 (rowAt0 t r) k) := by
  show V c main_v36 (((cfg0.win 1).blk t).view.emb (ix2 r k)) = _
  rw [emb0_1]
theorem blk0_2 (r : Fin 5000) (k : Fin 32) : iblk0 V c 2 t (ix2 r k) = V c main_v54 (ix2 (rowAt0 t r) k) := by
  show V c main_v54 (((cfg0.win 2).blk t).view.emb (ix2 r k)) = _
  rw [emb0_2]
theorem blk0_3 (y : S3x32x32.Idx) : iblk0 V c 3 t y = V c main_v69 y := by
  show V c main_v69 (((cfg0.win 3).blk t).view.emb y) = _
  rw [emb0_3]
theorem blk0_4 (y : S1x32.Idx) : iblk0 V c 4 t y = V c main_v70 y := by
  show V c main_v70 (((cfg0.win 4).blk t).view.emb y) = _
  rw [emb0_4]

end Blocks0

/-! ## The output block at a point, and the array -/

/-- Two [5000,32] blocks that agree at every (row, column) are equal. -/
theorem ext_rows0 (f g : S5000x32.Idx → EReal) (h : ∀ (r : Fin 5000) (j : Fin 32), f (ix2 r j) = g (ix2 r j)) : f = g :=
  funext fun y => by rw [eq_ix2 y]; exact h _ _

/-- The three products and the bias at a row of a block are the combine at the row of the arrays the block's rows come from. -/
theorem comb_pt0 (A0 A1 A2 : S100000x32.Idx → EReal) (W : S3x32x32.Idx → EReal) (B : S1x32.Idx → EReal)
    (x0 x1 x2 : S5000x32.Idx → EReal) (w0 w1 w2 : S1x32x32.Idx → EReal) (b : S1x32.Idx → EReal)
    (i : Fin 100000) (r : Fin 5000) (j : Fin 32)
    (h0 : ∀ k : Fin 32, x0 (ix2 r k) = A0 (ix2 i k)) (h1 : ∀ k : Fin 32, x1 (ix2 r k) = A1 (ix2 i k))
    (h2 : ∀ k : Fin 32, x2 (ix2 r k) = A2 (ix2 i k))
    (g0 : ∀ k : Fin 32, w0 (ix3 (0 : Fin 1) k j) = W (ix3 (0 : Fin 3) k j))
    (g1 : ∀ k : Fin 32, w1 (ix3 (0 : Fin 1) k j) = W (ix3 (1 : Fin 3) k j))
    (g2 : ∀ k : Fin 32, w2 (ix3 (0 : Fin 1) k j) = W (ix3 (2 : Fin 3) k j))
    (hb : b (ix2 (0 : Fin 1) j) = B (ix2 (0 : Fin 1) j)) :
    (((∑ k : Fin 32, x0 (ix2 r k) * w0 (ix3 (0 : Fin 1) k j)) + ∑ k : Fin 32, x1 (ix2 r k) * w1 (ix3 (0 : Fin 1) k j))
          + ∑ k : Fin 32, x2 (ix2 r k) * w2 (ix3 (0 : Fin 1) k j)) + b (ix2 (0 : Fin 1) j)
      = comb3 (tab A0) (tab A1) (tab A2) W (fun j => B (ix2 (0 : Fin 1) j)) i j := by
  unfold comb3 tab
  simp only [h0, h1, h2, g0, g1, g2, hb]

section Point0

variable (V : (c : Dev nD) → (b : Ref sig .tc) → Buf (Elt Ideal) ((c : Thread nD τ).loc b)) (c : Dev nD)

/-- What the first call's output array ends holding: the combine of the three node arrays with the weight stack and the
    bias row, cut off below at zero. -/
abbrev G0 : S100000x32.Idx → EReal :=
  untab (fun i j => max (comb3 (tab (V c main_arg0)) (tab (V c main_v36)) (tab (V c main_v54)) (V c main_v69)
    (fun j => V c main_v70 (ix2 (0 : Fin 1) j)) i j) 0)

set_option maxHeartbeats 400000 in
/-- What point `t` writes back is block `t` of `G0`. -/
theorem flushed0_eq (t : Fin cfg0.N) :
    (dat0 (F := Ideal) V c).flushed 5 t = ((cfg0.win 5).blk t).view.read (Elt Ideal) (G0 V c) := by
  show (cfg0.win 5).cut (grid0.coords t) ((dat0 V c).after 5 t) = _
  rw [after0_5]
  unfold out0_5
  rw [View.canon_unit_zero hz2]
  simp only [View.ld_unit_zero (S := S5000x32) hz2, View.ld_unit_zero (S := S1x32) hz2]
  refine ext_rows0 _ _ fun r j => ?_
  show k0_pay1 (iblk0 V c 0 t) (iblk0 V c 1 t) (iblk0 V c 2 t) (View.ld (iblk0 V c 3 t) rW0_0) (View.ld (iblk0 V c 3 t) rW0_1)
      (View.ld (iblk0 V c 3 t) rW0_2) (iblk0 V c 4 t) (ix2 r j) = G0 V c (((cfg0.win 5).blk t).view.emb (ix2 r j))
  rw [emb0_5]
  refine (pay0_apply _ _ _ _ _ _ _ r j).trans ?_
  show max _ 0 = max _ 0
  refine congrArg (fun z => max z 0) ?_
  exact comb_pt0 (V c main_arg0) (V c main_v36) (V c main_v54) (V c main_v69) (V c main_v70) _ _ _ _ _ _ _ (rowAt0 t r) r j
    (blk0_0 V c t r) (blk0_1 V c t r) (blk0_2 V c t r)
    (fun k => (ldW0 _ k j).trans (blk0_3 V c t _)) (fun k => (ldW1 _ k j).trans (blk0_3 V c t _))
    (fun k => (ldW2 _ k j).trans (blk0_3 V c t _)) (blk0_4 V c t _)

/-- An index of the array is in point `t`'s block iff each coordinate is in the block's range on its axis. -/
theorem mem_blk0 (t : Fin cfg0.N) (i : S100000x32.Idx) :
    i ∈ ((cfg0.win 5).blk t).view.set ↔ ∀ a : Fin 2, win0_5.index t a * S5000x32.size a ≤ (i a).val ∧ (i a).val < win0_5.index t a * S5000x32.size a + S5000x32.size a := by
  show i ∈ ((View.whole main_v71).slice (win0_5.rect t)).set ↔ _
  rw [View.set_slice_whole, Rect.mem_set_unit]
  exact Iff.rfl

/-- Row `i` is in the block of point `i / 5000`. -/
theorem cover0 (i : S100000x32.Idx) : ∃ t : Fin cfg0.N, (cfg0.win 5).flush t = true ∧ i ∈ ((cfg0.win 5).blk t).view.set := by
  have hi0 : (i 0).val < 100000 := (i 0).isLt
  have hi1 : (i 1).val < 32 := (i 1).isLt
  have hN : cfg0.N = 20 := N_0
  obtain ⟨t, ht⟩ : ∃ t : Fin cfg0.N, t.val = (i 0).val / 5000 := ⟨⟨(i 0).val / 5000, by omega⟩, rfl⟩
  obtain ⟨-, -, -, -, -, -, -, -, -, -, -, e0, e1⟩ := idx_facts0 t
  refine ⟨t, flush0_5 t, ?_⟩
  rw [mem_blk0]
  intro a
  match a with
  | ⟨0, _⟩ =>
    show win0_5.index t (0 : Fin 2) * 5000 ≤ (i 0).val ∧ (i 0).val < win0_5.index t (0 : Fin 2) * 5000 + 5000
    rw [e0]; omega
  | ⟨1, _⟩ =>
    show win0_5.index t (1 : Fin 2) * 32 ≤ (i 1).val ∧ (i 1).val < win0_5.index t (1 : Fin 2) * 32 + 32
    rw [e1]; omega

end Point0

end Final0

/-- The first call's output array after its pipeline: the combine of the arrays the call finds, cut off below at zero. -/
theorem final0 (V : (c : Dev nD) → (b : Ref sig .tc) → Buf (Elt Ideal) ((c : Thread nD τ).loc b)) (c : Dev nD) :
    (dat0 (F := Ideal) V c).arrAt 5 cfg0.N
      = untab (fun i j => max (comb3 (tab (V c main_arg0)) (tab (V c main_v36)) (tab (V c main_v54)) (V c main_v69)
          (fun j => V c main_v70 (ix2 (0 : Fin 1) j)) i j) 0) :=
  (dat0 V c).arrAt_eq_of_cover 5 (Final0.G0 V c) (fun t _ => Final0.flushed0_eq V c t) (Final0.cover0)

end Cert.KernelIdeal.Hand
end
-- ==== Proof.KIFinal1.lean ====
/-
  The second pallas_call's output array after its pipeline, as one function of the arrays the call finds.

  The call tiles the 100000 rows of four node arrays (three operands of the combine and the residual) and of its output
  into 20 blocks of 5000 rows; the [3,32,32] weight stack and the [1,32] bias row are one block each. At a point the body
  stores, over the whole output block, the three products of the row blocks with the three matrices of the stack, summed,
  plus the bias row, plus the residual block. Read at a row and a column this is the combine `comb3` of the three arrays
  at row 5000·t + r plus the residual array there. The 20 blocks tile the output (row i lies in block i / 5000), so the
  array ends holding that sum everywhere.
-/
import proofs.«146355_j53403623358893_2_alg».proof.Proof.KIBody1
import proofs.«146355_j53403623358893_2_alg».proof.Proof.ChebDefs
import proofs.«146355_j53403623358893_2_alg».proof.Proof.LibMatmulPlain
import proofs.«146355_j53403623358893_2_alg».proof.Proof.LibWords
import Idealize.ShloMosaic.Lib.Pipeline.Value
import Idealize.ShloMosaic.Lib.ValueLayout

noncomputable section

namespace Cert.KernelIdeal.Hand

open Cert.KernelIdeal Cert.KernelIdeal.Gen Cert.Cheb Idealize.ShloMosaic Idealize.ShloMosaic.ValueIdx
open Idealize.ShloMosaic.TcCoe
open Idealize.ShloMosaic.Pipeline (Dat)

namespace Final1

theorem dot_plain1 : dot_S5000x32_S32x32_S5000x32_1_0_0_1_n_n = DotDims.plain 5000 32 32 := rfl

/-- Dropping the leading unit axis of a [1,32,32] block. -/
theorem cast_w1 (w : Vec Ideal S1x32x32 .f32) (k j : Fin 32) :
    shapeCast S32x32 w shapeCasts_S1x32x32_S32x32 (ix2 k j) = w (ix3 (0 : Fin 1) k j) := by
  refine shapeCast_apply w shapeCasts_S1x32x32_S32x32 (ix2 k j) (ix3 (0 : Fin 1) k j) ?_
  rw [Shape.rowMajor_val_two, Shape.rowMajor_val_three]
  show ((0 : Nat) * 32 + k.val) * 32 + j.val = k.val * 32 + j.val
  omega

set_option maxHeartbeats 400000 in
/-- A product of a row block with one matrix of the stack, at a row and a column. -/
theorem mm_apply1 (x : Vec Ideal S5000x32 .f32) (w : Vec Ideal S1x32x32 .f32) (r : Fin 5000) (j : Fin 32) :
    matmul (F := Ideal) dot_S5000x32_S32x32_S5000x32_1_0_0_1_n_n none (truncf .bf16 x bitsLt_bf16_f32)
        (truncf .bf16 (shapeCast S32x32 w shapeCasts_S1x32x32_S32x32) bitsLt_bf16_f32) (constant S5000x32 .f32 0x00000000#32) (ix2 r j)
      = ∑ k : Fin 32, x (ix2 r k) * w (ix3 (0 : Fin 1) k j) := by
  rw [dot_plain1]
  refine (Cert.LibMatmulPlain.matmul_zero_apply none _ _ r j).trans ?_
  refine Finset.sum_congr rfl fun k _ => ?_
  rw [truncf_apply, truncf_apply, cast_w1]

/-- The bias row broadcast down the rows. -/
theorem bias_apply1 (b : Vec Ideal S1x32 .f32) (r : Fin 5000) (j : Fin 32) :
    broadcastTo S5000x32 (shapeCast S1x32 b shapeCasts_S1x32_S1x32) broadcasts_S1x32_S5000x32 (ix2 r j) = b (ix2 (0 : Fin 1) j) := by
  rw [shapeCast_self]
  refine broadcastTo_apply b broadcasts_S1x32_S5000x32 (ix2 r j) (ix2 (0 : Fin 1) j) ?_
  intro a
  match a with
  | ⟨0, _⟩ => rfl
  | ⟨1, _⟩ => rfl

set_option maxHeartbeats 400000 in
/-- The body's payload at a row and a column: three products summed, the bias, and the residual block. -/
theorem pay1_apply (x0 x1 x2 : Vec Ideal S5000x32 .f32) (w0 w1 w2 : Vec Ideal S1x32x32 .f32) (b : Vec Ideal S1x32 .f32)
    (x5 : Vec Ideal S5000x32 .f32) (r : Fin 5000) (j : Fin 32) :
    k1_pay1 x0 x1 x2 w0 w1 w2 b x5 (ix2 r j)
      = ((((∑ k : Fin 32, x0 (ix2 r k) * w0 (ix3 (0 : Fin 1) k j)) + ∑ k : Fin 32, x1 (ix2 r k) * w1 (ix3 (0 : Fin 1) k j))
          + ∑ k : Fin 32, x2 (ix2 r k) * w2 (ix3 (0 : Fin 1) k j)) + b (ix2 (0 : Fin 1) j)) + x5 (ix2 r j) := by
  unfold k1_pay1
  rw [addf_apply, addf_apply, addf_apply, addf_apply, shapeCast_self, shapeCast_self, shapeCast_self,
    mm_apply1, mm_apply1, mm_apply1, bias_apply1]

/-! ## Reading a slice of the weight stack -/

theorem ldW1_0 (x3 : Vec Ideal S3x32x32 .f32) (k j : Fin 32) :
    View.ld x3 rW1_0 (ix3 (0 : Fin 1) k j) = x3 (ix3 (0 : Fin 3) k j) := by
  show x3 _ = x3 _
  congr 1
  funext a; apply Fin.ext
  match a with
  | ⟨0, _⟩ => rfl
  | ⟨1, _⟩ => show 0 + 1 * k.val = k.val; omega
  | ⟨2, _⟩ => show 0 + 1 * j.val = j.val; omega
theorem ldW1_1 (x3 : Vec Ideal S3x32x32 .f32) (k j : Fin 32) :
    View.ld x3 rW1_1 (ix3 (0 : Fin 1) k j) = x3 (ix3 (1 : Fin 3) k j) := by
  show x3 _ = x3 _
  congr 1
  funext a; apply Fin.ext
  match a with
  | ⟨0, _⟩ => rfl
  | ⟨1, _⟩ => show 0 + 1 * k.val = k.val; omega
  | ⟨2, _⟩ => show 0 + 1 * j.val = j.val; omega
theorem ldW1_2 (x3 : Vec Ideal S3x32x32 .f32) (k j : Fin 32) :
    View.ld x3 rW1_2 (ix3 (0 : Fin 1) k j) = x3 (ix3 (2 : Fin 3) k j) := by
  show x3 _ = x3 _
  congr 1
  funext a; apply Fin.ext
  match a with
  | ⟨0, _⟩ => rfl
  | ⟨1, _⟩ => show 0 + 1 * k.val = k.val; omega
  | ⟨2, _⟩ => show 0 + 1 * j.val = j.val; omega

/-! ## The blocks of the second call -/

theorem hz2_1 : (![0, 0] : Fin 2 → Nat) = fun _ => 0 := funext fun a => by fin_cases a <;> rfl

/-- The printed index maps, decided over the grid: a row window's block index is (t, 0); the weight stack and the bias
    row are block 0 at every point. -/
theorem idx1_0 : ∀ t : Fin cfg1.N, win1_0.index t (0 : Fin 2) = t.val ∧ win1_0.index t (1 : Fin 2) = 0 :=
  (by decide +kernel : ∀ t : Fin grid1.N, _)
theorem idx1_1 : ∀ t : Fin cfg1.N, win1_1.index t (0 : Fin 2) = t.val ∧ win1_1.index t (1 : Fin 2) = 0 :=
  (by decide +kernel : ∀ t : Fin grid1.N, _)
theorem idx1_2 : ∀ t : Fin cfg1.N, win1_2.index t (0 : Fin 2) = t.val ∧ win1_2.index t (1 : Fin 2) = 0 :=
  (by decide +kernel : ∀ t : Fin grid1.N, _)
theorem idx1_3 : ∀ t : Fin cfg1.N, win1_3.index t (0 : Fin 3) = 0 ∧ win1_3.index t (1 : Fin 3) = 0 ∧ win1_3.index t (2 : Fin 3) = 0 :=
  (by decide +kernel : ∀ t : Fin grid1.N, _)
theorem idx1_4 : ∀ t : Fin cfg1.N, win1_4.index t (0 : Fin 2) = 0 ∧ win1_4.index t (1 : Fin 2) = 0 :=
  (by decide +kernel : ∀ t : Fin grid1.N, _)
theorem idx1_5 : ∀ t : Fin cfg1.N, win1_5.index t (0 : Fin 2) = t.val ∧ win1_5.index t (1 : Fin 2) = 0 :=
  (by decide +kernel : ∀ t : Fin grid1.N, _)
theorem idx1_6 : ∀ t : Fin cfg1.N, win1_6.index t (0 : Fin 2) = t.val ∧ win1_6.index t (1 : Fin 2) = 0 :=
  (by decide +kernel : ∀ t : Fin grid1.N, _)

/-- Row `r` of block `t` is row `5000 t + r` of the array. -/
def rowAt1 (t : Fin cfg1.N) (r : Fin 5000) : Fin 100000 :=
  ⟨t.val * 5000 + r.val, by have h1 := t.isLt; have h2 : cfg1.N = 20 := N_1; have h3 := r.isLt; omega⟩

theorem emb1_0 (t : Fin cfg1.N) (r : Fin 5000) (k : Fin 32) : ((cfg1.win 0).blk t).view.emb (ix2 r k) = ix2 (rowAt1 t r) k := by
  obtain ⟨e0, e1⟩ := idx1_0 t
  funext a; apply Fin.ext
  match a with
  | ⟨0, _⟩ => show win1_0.index t (0 : Fin 2) * 5000 + 1 * r.val = t.val * 5000 + r.val; rw [e0]; omega
  | ⟨1, _⟩ => show win1_0.index t (1 : Fin 2) * 32 + 1 * k.val = k.val; rw [e1]; omega
theorem emb1_1 (t : Fin cfg1.N) (r : Fin 5000) (k : Fin 32) : ((cfg1.win 1).blk t).view.emb (ix2 r k) = ix2 (rowAt1 t r) k := by
  obtain ⟨e0, e1⟩ := idx1_1 t
  funext a; apply Fin.ext
  match a with
  | ⟨0, _⟩ => show win1_1.index t (0 : Fin 2) * 5000 + 1 * r.val = t.val * 5000 + r.val; rw [e0]; omega
  | ⟨1, _⟩ => show win1_1.index t (1 : Fin 2) * 32 + 1 * k.val = k.val; rw [e1]; omega
theorem emb1_2 (t : Fin cfg1.N) (r : Fin 5000) (k : Fin 32) : ((cfg1.win 2).blk t).view.emb (ix2 r k) = ix2 (rowAt1 t r) k := by
  obtain ⟨e0, e1⟩ := idx1_2 t
  funext a; apply Fin.ext
  match a with
  | ⟨0, _⟩ => show win1_2.index t (0 : Fin 2) * 5000 + 1 * r.val = t.val * 5000 + r.val; rw [e0]; omega
  | ⟨1, _⟩ => show win1_2.index t (1 : Fin 2) * 32 + 1 * k.val = k.val; rw [e1]; omega
theorem emb1_3 (t : Fin cfg1.N) (y : S3x32x32.Idx) : ((cfg1.win 3).blk t).view.emb y = y := by
  obtain ⟨e0, e1, e2⟩ := idx1_3 t
  funext a; apply Fin.ext
  match a with
  | ⟨0, _⟩ => show win1_3.index t (0 : Fin 3) * 3 + 1 * (y 0).val = (y 0).val; rw [e0]; omega
  | ⟨1, _⟩ => show win1_3.index t (1 : Fin 3) * 32 + 1 * (y 1).val = (y 1).val; rw [e1]; omega
  | ⟨2, _⟩ => show win1_3.index t (2 : Fin 3) * 32 + 1 * (y 2).val = (y 2).val; rw [e2]; omega
theorem emb1_4 (t : Fin cfg1.N) (y : S1x32.Idx) : ((cfg1.win 4).blk t).view.emb y = y := by
  obtain ⟨e0, e1⟩ := idx1_4 t
  funext a; apply Fin.ext
  match a with
  | ⟨0, _⟩ => show win1_4.index t (0 : Fin 2) * 1 + 1 * (y 0).val = (y 0).val; rw [e0]; omega
  | ⟨1, _⟩ => show win1_4.index t (1 : Fin 2) * 32 + 1 * (y 1).val = (y 1).val; rw [e1]; omega
theorem emb1_5 (t : Fin cfg1.N) (r : Fin 5000) (k : Fin 32) : ((cfg1.win 5).blk t).view.emb (ix2 r k) = ix2 (rowAt1 t r) k := by
  obtain ⟨e0, e1⟩ := idx1_5 t
  funext a; apply Fin.ext
  match a with
  | ⟨0, _⟩ => show win1_5.index t (0 : Fin 2) * 5000 + 1 * r.val = t.val * 5000 + r.val; rw [e0]; omega
  | ⟨1, _⟩ => show win1_5.index t (1 : Fin 2) * 32 + 1 * k.val = k.val; rw [e1]; omega
theorem emb1_6 (t : Fin cfg1.N) (r : Fin 5000) (k : Fin 32) : ((cfg1.win 6).blk t).view.emb (ix2 r k) = ix2 (rowAt1 t r) k := by
  obtain ⟨e0, e1⟩ := idx1_6 t
  funext a; apply Fin.ext
  match a with
  | ⟨0, _⟩ => show win1_6.index t (0 : Fin 2) * 5000 + 1 * r.val = t.val * 5000 + r.val; rw [e0]; omega
  | ⟨1, _⟩ => show win1_6.index t (1 : Fin 2) * 32 + 1 * k.val = k.val; rw [e1]; omega

section Blocks1

variable (V : (c : Dev nD) → (b : Ref sig .tc) → Buf (Elt Ideal) ((c : Thread nD τ).loc b)) (c : Dev nD) (t : Fin cfg1.N)

/-- A row block at point `t` holds rows `5000 t …` of its array; the weight stack's and the bias row's are the arrays. -/
theorem blk1_0 (r : Fin 5000) (k : Fin 32) : iblk1 V c 0 t (ix2 r k) = V c main_v71 (ix2 (rowAt1 t r) k) := by
  show V c main_v71 (((cfg1.win 0).blk t).view.emb (ix2 r k)) = _
  rw [emb1_0]
theorem blk1_1 (r : Fin 5000) (k : Fin 32) : iblk1 V c 1 t (ix2 r k) = V c main_v89 (ix2 (rowAt1 t r) k) := by
  show V c main_v89 (((cfg1.win 1).blk t).view.emb (ix2 r k)) = _
  rw [emb1_1]
theorem blk1_2 (r : Fin 5000) (k : Fin 32) : iblk1 V c 2 t (ix2 r k) = V c main_v107 (ix2 (rowAt1 t r) k) := by
  show V c main_v107 (((cfg1.win 2).blk t).view.emb (ix2 r k)) = _
  rw [emb1_2]
theorem blk1_3 (y : S3x32x32.Idx) : iblk1 V c 3 t y = V c main_v122 y := by
  show V c main_v122 (((cfg1.win 3).blk t).view.emb y) = _
  rw [emb1_3]
theorem blk1_4 (y : S1x32.Idx) : iblk1 V c 4 t y = V c main_v123 y := by
  show V c main_v123 (((cfg1.win 4).blk t).view.emb y) = _
  rw [emb1_4]
theorem blk1_5 (r : Fin 5000) (k : Fin 32) : iblk1 V c 5 t (ix2 r k) = V c main_arg0 (ix2 (rowAt1 t r) k) := by
  show V c main_arg0 (((cfg1.win 5).blk t).view.emb (ix2 r k)) = _
  rw [emb1_5]

end Blocks1

/-! ## The output block at a point, and the array -/

/-- Two [5000,32] blocks that agree at every (row, column) are equal. -/
theorem ext_rows1 (f g : S5000x32.Idx → EReal) (h : ∀ (r : Fin 5000) (j : Fin 32), f (ix2 r j) = g (ix2 r j)) : f = g :=
  funext fun y => by rw [eq_ix2 y]; exact h _ _

/-- The three products and the bias at a row of a block are the combine at the row of the arrays the block's rows come from. -/
theorem comb_pt1 (A0 A1 A2 : S100000x32.Idx → EReal) (W : S3x32x32.Idx → EReal) (B : S1x32.Idx → EReal)
    (x0 x1 x2 : S5000x32.Idx → EReal) (w0 w1 w2 : S1x32x32.Idx → EReal) (b : S1x32.Idx → EReal)
    (i : Fin 100000) (r : Fin 5000) (j : Fin 32)
    (h0 : ∀ k : Fin 32, x0 (ix2 r k) = A0 (ix2 i k)) (h1 : ∀ k : Fin 32, x1 (ix2 r k) = A1 (ix2 i k))
    (h2 : ∀ k : Fin 32, x2 (ix2 r k) = A2 (ix2 i k))
    (g0 : ∀ k : Fin 32, w0 (ix3 (0 : Fin 1) k j) = W (ix3 (0 : Fin 3) k j))
    (g1 : ∀ k : Fin 32, w1 (ix3 (0 : Fin 1) k j) = W (ix3 (1 : Fin 3) k j))
    (g2 : ∀ k : Fin 32, w2 (ix3 (0 : Fin 1) k j) = W (ix3 (2 : Fin 3) k j))
    (hb : b (ix2 (0 : Fin 1) j) = B (ix2 (0 : Fin 1) j)) :
    (((∑ k : Fin 32, x0 (ix2 r k) * w0 (ix3 (0 : Fin 1) k j)) + ∑ k : Fin 32, x1 (ix2 r k) * w1 (ix3 (0 : Fin 1) k j))
          + ∑ k : Fin 32, x2 (ix2 r k) * w2 (ix3 (0 : Fin 1) k j)) + b (ix2 (0 : Fin 1) j)
      = comb3 (tab A0) (tab A1) (tab A2) W (fun j => B (ix2 (0 : Fin 1) j)) i j := by
  unfold comb3 tab
  simp only [h0, h1, h2, g0, g1, g2, hb]

section Point1

variable (V : (c : Dev nD) → (b : Ref sig .tc) → Buf (Elt Ideal) ((c : Thread nD τ).loc b)) (c : Dev nD)

/-- What the second call's output array ends holding: the combine of the three node arrays with the weight stack and the
    bias row, plus the residual array. -/
abbrev G1 : S100000x32.Idx → EReal :=
  untab (fun i j => comb3 (tab (V c main_v71)) (tab (V c main_v89)) (tab (V c main_v107)) (V c main_v122)
    (fun j => V c main_v123 (ix2 (0 : Fin 1) j)) i j + tab (V c main_arg0) i j)

set_option maxHeartbeats 400000 in
/-- What point `t` writes back is block `t` of `G1`. -/
theorem flushed1_eq (t : Fin cfg1.N) :
    (dat1 (F := Ideal) V c).flushed 6 t = ((cfg1.win 6).blk t).view.read (Elt Ideal) (G1 V c) := by
  show (cfg1.win 6).cut (grid1.coords t) ((dat1 V c).after 6 t) = _
  rw [after1_6]
  unfold out1_6
  rw [View.canon_unit_zero hz2_1]
  simp only [View.ld_unit_zero (S := S5000x32) hz2_1, View.ld_unit_zero (S := S1x32) hz2_1]
  refine ext_rows1 _ _ fun r j => ?_
  show k1_pay1 (iblk1 V c 0 t) (iblk1 V c 1 t) (iblk1 V c 2 t) (View.ld (iblk1 V c 3 t) rW1_0) (View.ld (iblk1 V c 3 t) rW1_1)
      (View.ld (iblk1 V c 3 t) rW1_2) (iblk1 V c 4 t) (iblk1 V c 5 t) (ix2 r j) = G1 V c (((cfg1.win 6).blk t).view.emb (ix2 r j))
  rw [emb1_6]
  refine (pay1_apply _ _ _ _ _ _ _ _ r j).trans ?_
  show _ + _ = _ + tab (V c main_arg0) (rowAt1 t r) j
  refine congr (congrArg HAdd.hAdd ?_) (blk1_5 V c t r j)
  exact comb_pt1 (V c main_v71) (V c main_v89) (V c main_v107) (V c main_v122) (V c main_v123) _ _ _ _ _ _ _ (rowAt1 t r) r j
    (blk1_0 V c t r) (blk1_1 V c t r) (blk1_2 V c t r)
    (fun k => (ldW1_0 _ k j).trans (blk1_3 V c t _)) (fun k => (ldW1_1 _ k j).trans (blk1_3 V c t _))
    (fun k => (ldW1_2 _ k j).trans (blk1_3 V c t _)) (blk1_4 V c t _)

/-- An index of the array is in point `t`'s block iff each coordinate is in the block's range on its axis. -/
theorem mem_blk1 (t : Fin cfg1.N) (i : S100000x32.Idx) :
    i ∈ ((cfg1.win 6).blk t).view.set ↔ ∀ a : Fin 2, win1_6.index t a * S5000x32.size a ≤ (i a).val ∧ (i a).val < win1_6.index t a * S5000x32.size a + S5000x32.size a := by
  show i ∈ ((View.whole main_v124).slice (win1_6.rect t)).set ↔ _
  rw [View.set_slice_whole, Rect.mem_set_unit]
  exact Iff.rfl

/-- Row `i` is in the block of point `i / 5000`. -/
theorem cover1 (i : S100000x32.Idx) : ∃ t : Fin cfg1.N, (cfg1.win 6).flush t = true ∧ i ∈ ((cfg1.win 6).blk t).view.set := by
  have hi0 : (i 0).val < 100000 := (i 0).isLt
  have hi1 : (i 1).val < 32 := (i 1).isLt
  have hN : cfg1.N = 20 := N_1
  obtain ⟨t, ht⟩ : ∃ t : Fin cfg1.N, t.val = (i 0).val / 5000 := ⟨⟨(i 0).val / 5000, by omega⟩, rfl⟩
  obtain ⟨e0, e1⟩ := idx1_6 t
  refine ⟨t, flush1_6 t, ?_⟩
  rw [mem_blk1]
  intro a
  match a with
  | ⟨0, _⟩ =>
    show win1_6.index t (0 : Fin 2) * 5000 ≤ (i 0).val ∧ (i 0).val < win1_6.index t (0 : Fin 2) * 5000 + 5000
    rw [e0]; omega
  | ⟨1, _⟩ =>
    show win1_6.index t (1 : Fin 2) * 32 ≤ (i 1).val ∧ (i 1).val < win1_6.index t (1 : Fin 2) * 32 + 32
    rw [e1]; omega

end Point1

end Final1

/-- The second call's output array after its pipeline: the combine of the arrays the call finds plus the residual array. -/
theorem final1 (V : (c : Dev nD) → (b : Ref sig .tc) → Buf (Elt Ideal) ((c : Thread nD τ).loc b)) (c : Dev nD) :
    (dat1 (F := Ideal) V c).arrAt 6 cfg1.N
      = untab (fun i j => comb3 (tab (V c main_v71)) (tab (V c main_v89)) (tab (V c main_v107)) (V c main_v122)
          (fun j => V c main_v123 (ix2 (0 : Fin 1) j)) i j + tab (V c main_arg0) i j) :=
  (dat1 V c).arrAt_eq_of_cover 6 (Final1.G1 V c) (fun t _ => Final1.flushed1_eq V c t) (Final1.cover1)

end Cert.KernelIdeal.Hand
end
-- ==== Proof.KIHostA.lean ====
/-
  The host side of the kernel program, operation kinds read at an index, over VARIABLES.

  The host program prepares the two calls' arrays by the same few moves: a per-node factor spread along a row
  ([N] → [N,1] → [N,32]), a per-edge number set as a column ([E] → [E,1]), a row gather at wrapped column numbers,
  a sum of the gathered rows into the (N+1)-row table at the diverted row numbers, and the slice of its first N rows.
  This module reads the layout moves among them at an index.
-/
import proofs.«146355_j53403623358893_2_alg».proof.Proof.Gen.KernelIdeal.Launch
import proofs.«146355_j53403623358893_2_alg».proof.Proof.ChebDefs
import proofs.«146355_j53403623358893_2_alg».proof.Proof.LibRows
import proofs.«146355_j53403623358893_2_alg».proof.Proof.LibWords
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen Cert.Cheb Cert.Lib.Rows
open Idealize.ShloMosaic Idealize.ShloMosaic.ValueIdx

/-! ## Layout moves at an index -/

section Layout
variable {α : Type}

/-- A per-node vector as an [N,1] column, at `(d, 0)`. -/
theorem nodeCol_apply (w : S100000.Idx → α) (d : Fin 100000) (u : Fin 1) :
    broadcastInDim S100000x1 ![0] bcast_S100000_S100000x1_0 w (ix2 d u) = w (ix1 d) :=
  broadcastInDim_apply _ bcast_S100000_S100000x1_0 w (ix2 d u) (ix1 d) (fun a => match a with
    | ⟨0, _⟩ => by show d.val = if (100000 : Nat) = 1 then 0 else d.val; rw [if_neg (by decide)])

/-- An [N,1] column spread along the 32 features, at `(d, k)`. -/
theorem nodeRow_apply (w : S100000x1.Idx → α) (d : Fin 100000) (k : Fin 32) :
    broadcastInDim S100000x32 ![0, 1] bcast_S100000x1_S100000x32_0_1 w (ix2 d k) = w (ix2 d (0 : Fin 1)) :=
  broadcastInDim_apply _ bcast_S100000x1_S100000x32_0_1 w (ix2 d k) (ix2 d (0 : Fin 1)) (fun a => match a with
    | ⟨0, _⟩ => by show d.val = if (100000 : Nat) = 1 then 0 else d.val; rw [if_neg (by decide)]
    | ⟨1, _⟩ => by show (0 : Nat) = if (1 : Nat) = 1 then 0 else k.val; rw [if_pos rfl])

/-- A per-edge vector as an [E,1] column is `col1` of its entries. -/
theorem edgeCol_eq (v : S1600000.Idx → BitVec 32) (f : Fin 1600000 → BitVec 32) (hv : ∀ e, v (ix1 e) = f e) :
    broadcastInDim S1600000x1 ![0] bcast_S1600000_S1600000x1_0 v = col1 f := by
  funext j
  refine (broadcastInDim_apply _ bcast_S1600000_S1600000x1_0 v j (ix1 ⟨(j 0).val, (j 0).isLt⟩) (fun a => match a with
    | ⟨0, _⟩ => by show (j 0).val = if (1600000 : Nat) = 1 then 0 else (j 0).val; rw [if_neg (by decide)])).trans ?_
  exact hv _

/-- The first N rows of an (N+1)-row table, at `(d, k)`. -/
theorem firstRows_apply (X : S100001x32.Idx → α) (d : Fin 100000) (k : Fin 32) :
    extractStridedSlice S100000x32 ![0, 0] X slices_S100001x32_S100000x32_0_0 (ix2 d k) = X (ix2 (ext d) k) :=
  slice2_axis0_apply 0 X slices_S100001x32_S100000x32_0_0 d k (ext d) (by show d.val = 0 + d.val; omega)

/-- The first N entries of an (N+1)-entry vector, at `d`. -/
theorem firstElts_apply (X : S100001.Idx → α) (d : Fin 100000) :
    extractStridedSlice S100000 ![0] X slices_S100001_S100000_0 (ix1 d) = X (ix1 (ext d)) :=
  extractStridedSlice_apply _ X slices_S100001_S100000_0 (ix1 d) (ix1 (ext d)) (fun a => match a with
    | ⟨0, _⟩ => by show d.val = 0 + d.val; omega)

end Layout

end Cert.KernelIdeal.Hand

end
-- ==== Proof.KIHostB.lean ====
/-
  The host side of the kernel program over VARIABLES: one propagation (scale the rows by D^{-1/2}, gather them at the
  wrapped column numbers, sum them into the (N+1)-row table at the diverted row numbers, keep the first N rows, scale by
  −D^{-1/2}) read as `propK`; the edge array's two rows, the diverted row numbers, the degree count and D^{-1/2} read as
  `rowW`, `colW`, `rdW`, `degK`, `dinvOf`; the weight stack W₀ − W₂, W₁, 2·W₂ and the bias row read at an index.
-/
import proofs.«146355_j53403623358893_2_alg».proof.Proof.KIHostA

set_option maxRecDepth 16384

noncomputable section

namespace Cert.KernelIdeal.Hand

open Cert.KernelIdeal Cert.KernelIdeal.Gen Cert.Cheb Cert.Lib.Rows
open Idealize.ShloMosaic Idealize.ShloMosaic.ValueIdx

/-! ## One propagation -/

/-- Column numbers wrapped python-style, as the host program spells it. -/
def wrapVec (col : S1600000.Idx → BitVec 32) : S1600000.Idx → BitVec 32 :=
  select (cmpi .slt col (broadcastInDim S1600000 ![] bcast_S_S1600000 (constantI S_ 32 0#32)))
    (addi col (broadcastInDim S1600000 ![] bcast_S_S1600000 (constantI S_ 32 100000#32))) col

theorem wrapVec_apply (col : S1600000.Idx → BitVec 32) (e : Fin 1600000) : wrapVec col (ix1 e) = wrapN (col (ix1 e)) := rfl

/-- One propagation as the host program spells it: scale the rows by `dinv`, gather them at the wrapped column
    numbers, sum them into the (N+1)-row table at the diverted row numbers, keep the first N rows, scale by `−dinv`. -/
def propStep (dinv : S100000.Idx → EReal) (col rd : S1600000.Idx → BitVec 32) (v : S100000x32.Idx → EReal) :
    S100000x32.Idx → EReal :=
  mulf (F := Ideal) (φ := .f32)
    (broadcastInDim S100000x32 ![0, 1] bcast_S100000x1_S100000x32_0_1
      (Host.negf (F := Ideal) (φ := .f32) (broadcastInDim S100000x1 ![0] bcast_S100000_S100000x1_0 dinv)))
    (extractStridedSlice S100000x32 ![0, 0]
      (Host.scatterAdd (F := Ideal) (φ := .f32) scatter_S100001x32_S1600000x1_S1600000x32_1_0_0_1
        (broadcastInDim S100001x32 ![] bcast_S_S100001x32 (constant (F := Ideal) S_ .f32 0x00000000#32))
        (broadcastInDim S1600000x1 ![0] bcast_S1600000_S1600000x1_0 rd)
        (Host.gather gather_S100000x32_S1600000x1_S1600000x32_1_0_n_n_0_1_132
          (mulf (F := Ideal) (φ := .f32)
            (broadcastInDim S100000x32 ![0, 1] bcast_S100000x1_S100000x32_0_1
              (broadcastInDim S100000x1 ![0] bcast_S100000_S100000x1_0 dinv)) v)
          (broadcastInDim S1600000x1 ![0] bcast_S1600000_S1600000x1_0 (wrapVec col))))
      slices_S100001x32_S100000x32_0_0)

theorem hostNegf_apply {s : Shape} {φ : FTy} (w : FVec Ideal s φ) (i : s.Idx) : Host.negf w i = -(w i) := rfl

/-- A per-node factor spread over the rows, at `(d, k)`. -/
theorem posRow_apply (dinv : S100000.Idx → EReal) (d : Fin 100000) (k : Fin 32) :
    broadcastInDim S100000x32 ![0, 1] bcast_S100000x1_S100000x32_0_1
      (broadcastInDim S100000x1 ![0] bcast_S100000_S100000x1_0 dinv) (ix2 d k) = dinv (ix1 d) := by
  rw [nodeRow_apply, nodeCol_apply]

/-- Its negation spread over the rows, at `(d, k)`. -/
theorem negRow_apply (dinv : S100000.Idx → EReal) (d : Fin 100000) (k : Fin 32) :
    broadcastInDim S100000x32 ![0, 1] bcast_S100000x1_S100000x32_0_1
      (Host.negf (F := Ideal) (φ := .f32) (broadcastInDim S100000x1 ![0] bcast_S100000_S100000x1_0 dinv)) (ix2 d k)
      = -(dinv (ix1 d)) := by
  rw [nodeRow_apply, hostNegf_apply, nodeCol_apply]

/-- The program's row-sum record is the library's. -/
theorem scatterRows_eq (x : S100001x32.Idx → EReal) (idx : IVec S1600000x1 32) (upd : S1600000x32.Idx → EReal) :
    Host.scatterAdd (F := Ideal) (φ := .f32) scatter_S100001x32_S1600000x1_S1600000x32_1_0_0_1 x idx upd
      = Ideal.hostScatterAdd (scatterRowsDims 100001 1600000 32 scatter_S100001x32_S1600000x1_S1600000x32_1_0_0_1_wf) x idx upd := rfl

set_option maxHeartbeats 400000 in
/-- The sum of per-edge rows into the (N+1)-row zero table at the row numbers `rd`, its first N rows kept, at `(d, k)`. -/
theorem sumRows_apply (rd : S1600000.Idx → BitVec 32) (f : Fin 1600000 → BitVec 32) (hr : ∀ e, rd (ix1 e) = f e)
    (upd : S1600000x32.Idx → EReal) (d : Fin 100000) (k : Fin 32) :
    extractStridedSlice S100000x32 ![0, 0]
      (Host.scatterAdd (F := Ideal) (φ := .f32) scatter_S100001x32_S1600000x1_S1600000x32_1_0_0_1
        (broadcastInDim S100001x32 ![] bcast_S_S100001x32 (constant (F := Ideal) S_ .f32 0x00000000#32))
        (broadcastInDim S1600000x1 ![0] bcast_S1600000_S1600000x1_0 rd) upd)
      slices_S100001x32_S100000x32_0_0 (ix2 d k) = ∑ e ∈ edgesInto (col1 f) (ext d), upd (ix2 e k) := by
  rw [firstRows_apply, edgeCol_eq rd f hr, scatterRows_eq, scatterAddRows_apply]
  have hz : broadcastInDim S100001x32 ![] bcast_S_S100001x32 (constant (F := Ideal) S_ .f32 0x00000000#32) (ix2 (ext d) k) = 0 :=
    Cert.Chamfer.Words.ofBits_zero
  rw [hz, zero_add]

/-- The program's row-gather record is the library's. -/
theorem gatherRows_eq (x : S100000x32.Idx → EReal) (idx : IVec S1600000x1 32) :
    Host.gather gather_S100000x32_S1600000x1_S1600000x32_1_0_n_n_0_1_132 x idx
      = Host.gather (gatherRowsDims 100000 1600000 32 gather_S100000x32_S1600000x1_S1600000x32_1_0_n_n_0_1_132_wf) x idx := rfl

set_option maxHeartbeats 400000 in
/-- A row gather at the column of per-edge numbers `iv`, at `(e, k)`. -/
theorem gatherRows_at (x : S100000x32.Idx → EReal) (iv : S1600000.Idx → BitVec 32) (e : Fin 1600000) (k : Fin 32) :
    Host.gather gather_S100000x32_S1600000x1_S1600000x32_1_0_n_n_0_1_132 x
      (broadcastInDim S1600000x1 ![0] bcast_S1600000_S1600000x1_0 iv) (ix2 e k)
      = x (ix2 (rowOf 100000 (by decide) (iv (ix1 e))) k) := by
  rw [gatherRows_eq, edgeCol_eq iv (fun e => iv (ix1 e)) (fun _ => rfl)]
  exact gatherRows_apply (by decide) _ x _ e k

set_option maxHeartbeats 400000 in
/-- A propagation of a table is `propK` of it, given what the three vectors hold. -/
theorem propStep_apply (ei : IVec ⟨2, ![2, 1600000]⟩ 32) (dK : Fin 100000 → EReal)
    (dinv : S100000.Idx → EReal) (col rd : S1600000.Idx → BitVec 32) (v : S100000x32.Idx → EReal)
    (hd : ∀ d, dinv (ix1 d) = dK d) (hc : ∀ e, col (ix1 e) = colW ei e) (hr : ∀ e, rd (ix1 e) = rdW ei e) :
    tab (propStep dinv col rd v) = propK ei dK (tab v) := by
  funext d k
  unfold tab propStep propK
  rw [mulf_apply, negRow_apply, hd, sumRows_apply rd (rdW ei) hr]
  refine congrArg (fun t => -dK d * t) (Finset.sum_congr rfl fun e _ => ?_)
  rw [gatherRows_at, mulf_apply, posRow_apply, wrapVec_apply, hc, hd]
  rfl

/-! ## The edge numbers, the diverted row numbers, the degrees, D^{-1/2} -/

/-- Rows 0 and 1 of the [2,E] edge array as vectors, as the host program spells them. -/
def edgeRow0 (ei : S2x1600000.Idx → BitVec 32) : S1600000.Idx → BitVec 32 :=
  shapeCast S1600000 (extractStridedSlice S1x1600000 ![0, 0] ei slices_S2x1600000_S1x1600000_0_0) shapeCasts_S1x1600000_S1600000
def edgeRow1 (ei : S2x1600000.Idx → BitVec 32) : S1600000.Idx → BitVec 32 :=
  shapeCast S1600000 (extractStridedSlice S1x1600000 ![1, 0] ei slices_S2x1600000_S1x1600000_1_0) shapeCasts_S1x1600000_S1600000

theorem edgeRow0_apply (ei : S2x1600000.Idx → BitVec 32) (e : Fin 1600000) : edgeRow0 ei (ix1 e) = rowW ei e := by
  unfold edgeRow0 rowW
  rw [shapeCast_1a_a_apply]
  exact slice2_axis0_apply 0 ei slices_S2x1600000_S1x1600000_0_0 (0 : Fin 1) e (0 : Fin 2) rfl

theorem edgeRow1_apply (ei : S2x1600000.Idx → BitVec 32) (e : Fin 1600000) : edgeRow1 ei (ix1 e) = colW ei e := by
  unfold edgeRow1 colW
  rw [shapeCast_1a_a_apply]
  exact slice2_axis0_apply 1 ei slices_S2x1600000_S1x1600000_1_0 (0 : Fin 1) e (1 : Fin 2) rfl

/-- The diverted row numbers: N where the row number equals the column number. -/
def rdVec (row col : S1600000.Idx → BitVec 32) : S1600000.Idx → BitVec 32 :=
  select (cmpi .eq row col) (broadcastInDim S1600000 ![] bcast_S_S1600000 (constantI S_ 32 100000#32)) row

theorem rdVec_apply (ei : IVec ⟨2, ![2, 1600000]⟩ 32) (row col : S1600000.Idx → BitVec 32)
    (hr : ∀ e, row (ix1 e) = rowW ei e) (hc : ∀ e, col (ix1 e) = colW ei e) (e : Fin 1600000) :
    rdVec row col (ix1 e) = rdW ei e := by
  show Scalar.select (IntOp.cmpi .eq (row (ix1 e)) (col (ix1 e))) 100000#32 (row (ix1 e)) = _
  rw [hr, hc]
  unfold rdW Scalar.select IntOp.cmpi
  by_cases h : rowW ei e = colW ei e
  · simp [h]
  · have hb : (rowW ei e == colW ei e) = false := beq_eq_false_iff_ne.mpr h
    simp [h, hb]

/-- The program's element-sum record is the library's. -/
theorem scatterElts_eq (x : S100001.Idx → EReal) (idx : IVec S1600000x1 32) (upd : S1600000.Idx → EReal) :
    Host.scatterAdd (F := Ideal) (φ := .f32) scatter_S100001_S1600000x1_S1600000_n_0_0_1 x idx upd
      = Ideal.hostScatterAdd (scatterEltsDims 100001 1600000 scatter_S100001_S1600000x1_S1600000_n_0_0_1_wf) x idx upd := rfl

/-- The degree count: ones summed into the (N+1)-entry zero vector at the diverted row numbers, the first N kept. -/
def degVec (rd : S1600000.Idx → BitVec 32) : S100000.Idx → EReal :=
  extractStridedSlice S100000 ![0]
    (Host.scatterAdd (F := Ideal) (φ := .f32) scatter_S100001_S1600000x1_S1600000_n_0_0_1
      (broadcastInDim S100001 ![] bcast_S_S100001 (constant (F := Ideal) S_ .f32 0x00000000#32))
      (broadcastInDim S1600000x1 ![0] bcast_S1600000_S1600000x1_0 rd)
      (broadcastInDim S1600000 ![] bcast_S_S1600000 (constant (F := Ideal) S_ .f32 0x3F800000#32)))
    slices_S100001_S100000_0

set_option maxHeartbeats 400000 in
theorem degVec_apply (ei : IVec ⟨2, ![2, 1600000]⟩ 32) (rd : S1600000.Idx → BitVec 32)
    (hr : ∀ e, rd (ix1 e) = rdW ei e) (d : Fin 100000) : degVec rd (ix1 d) = degK ei d := by
  unfold degVec degK
  rw [firstElts_apply, edgeCol_eq rd (rdW ei) hr, scatterElts_eq, scatterAddElts_apply]
  have hz : broadcastInDim S100001 ![] bcast_S_S100001 (constant (F := Ideal) S_ .f32 0x00000000#32) (ix1 (ext d)) = 0 :=
    Cert.Chamfer.Words.ofBits_zero
  rw [hz, zero_add]
  exact Finset.sum_congr rfl fun e _ => Cert.Chamfer.Words.ofBits_one

/-- D^{-1/2} from the degrees: `where(deg > 0, 1 / sqrt(max(deg, 1)), 0)`. -/
def dinvVec (deg : S100000.Idx → EReal) : S100000.Idx → EReal :=
  select (cmpf (F := Ideal) (φ := .f32) .ogt deg (broadcastInDim S100000 ![] bcast_S_S100000 (constant (F := Ideal) S_ .f32 0x00000000#32)))
    (Host.divf (F := Ideal) (φ := .f32) (broadcastInDim S100000 ![] bcast_S_S100000 (constant (F := Ideal) S_ .f32 0x3F800000#32))
      (Host.sqrt (F := Ideal) (φ := .f32)
        (maximumf (F := Ideal) (φ := .f32) deg (broadcastInDim S100000 ![] bcast_S_S100000 (constant (F := Ideal) S_ .f32 0x3F800000#32)))))
    (broadcastInDim S100000 ![] bcast_S_S100000 (constant (F := Ideal) S_ .f32 0x00000000#32))

theorem dinvVec_apply (deg : S100000.Idx → EReal) (d : Fin 100000) : dinvVec deg (ix1 d) = dinvOf (deg (ix1 d)) := by
  show Scalar.select (Ideal.cmp .ogt (deg (ix1 d)) (Ideal.ofBits .f32 0x00000000#32))
    (Ideal.div (Ideal.ofBits .f32 0x3F800000#32) (Ideal.sqrt (max (deg (ix1 d)) (Ideal.ofBits .f32 0x3F800000#32))))
    (Ideal.ofBits .f32 0x00000000#32) = _
  rw [Cert.Chamfer.Words.ofBits_zero, Cert.Chamfer.Words.ofBits_one]
  unfold dinvOf Scalar.select Ideal.cmp
  by_cases h : 0 < deg (ix1 d)
  · simp [h]
  · simp [h]

/-! ## The weight stack and the bias row -/

section Weights
variable {α : Type}

/-- A matrix as a one-matrix stack, at `(u, k, j)`. -/
theorem oneStack_apply (X : S32x32.Idx → α) (u : Fin 1) (k j : Fin 32) :
    broadcastInDim S1x32x32 ![1, 2] bcast_S32x32_S1x32x32_1_2 X (ix3 u k j) = X (ix2 k j) :=
  broadcastInDim_apply _ bcast_S32x32_S1x32x32_1_2 X (ix3 u k j) (ix2 k j) (fun a => match a with
    | ⟨0, _⟩ => by show k.val = if (32 : Nat) = 1 then 0 else k.val; rw [if_neg (by decide)]
    | ⟨1, _⟩ => by show j.val = if (32 : Nat) = 1 then 0 else j.val; rw [if_neg (by decide)])

/-- Three one-matrix stacks laid end to end, at matrix 0, 1, 2. -/
theorem stack3_apply0 (A B C : S1x32x32.Idx → α) (k j : Fin 32) :
    concatenate S3x32x32 0 [⟨S1x32x32, A⟩, ⟨S1x32x32, B⟩, ⟨S1x32x32, C⟩]
      concatenates_S1x32x32_S1x32x32_S1x32x32_S3x32x32_d0 (ix3 (0 : Fin 3) k j) = A (ix3 (0 : Fin 1) k j) :=
  concatenate_apply_piece 0 _ _ (ix3 (0 : Fin 3) k j) 0 (by show (0 : Nat) < 3; omega) S1x32x32 A rfl rfl 0 rfl (ix3 (0 : Fin 1) k j)
    (fun b hb => match b, hb with
      | ⟨0, _⟩, hb => absurd rfl hb
      | ⟨1, _⟩, _ => rfl
      | ⟨2, _⟩, _ => rfl) rfl
theorem stack3_apply1 (A B C : S1x32x32.Idx → α) (k j : Fin 32) :
    concatenate S3x32x32 0 [⟨S1x32x32, A⟩, ⟨S1x32x32, B⟩, ⟨S1x32x32, C⟩]
      concatenates_S1x32x32_S1x32x32_S1x32x32_S3x32x32_d0 (ix3 (1 : Fin 3) k j) = B (ix3 (0 : Fin 1) k j) :=
  concatenate_apply_piece 0 _ _ (ix3 (1 : Fin 3) k j) 1 (by show (1 : Nat) < 3; omega) S1x32x32 B rfl rfl 1 rfl (ix3 (0 : Fin 1) k j)
    (fun b hb => match b, hb with
      | ⟨0, _⟩, hb => absurd rfl hb
      | ⟨1, _⟩, _ => rfl
      | ⟨2, _⟩, _ => rfl) rfl
theorem stack3_apply2 (A B C : S1x32x32.Idx → α) (k j : Fin 32) :
    concatenate S3x32x32 0 [⟨S1x32x32, A⟩, ⟨S1x32x32, B⟩, ⟨S1x32x32, C⟩]
      concatenates_S1x32x32_S1x32x32_S1x32x32_S3x32x32_d0 (ix3 (2 : Fin 3) k j) = C (ix3 (0 : Fin 1) k j) :=
  concatenate_apply_piece 0 _ _ (ix3 (2 : Fin 3) k j) 2 (by show (2 : Nat) < 3; omega) S1x32x32 C rfl rfl 2 rfl (ix3 (0 : Fin 1) k j)
    (fun b hb => match b, hb with
      | ⟨0, _⟩, hb => absurd rfl hb
      | ⟨1, _⟩, _ => rfl
      | ⟨2, _⟩, _ => rfl) rfl

end Weights

/-- Matrix 0, 1, 2 of a [3,32,32] stack, as the host program spells it: a one-matrix slice with the unit axis dropped. -/
def wMat0 (W : S3x32x32.Idx → EReal) : S32x32.Idx → EReal :=
  shapeCast S32x32 (extractStridedSlice S1x32x32 ![0, 0, 0] W slices_S3x32x32_S1x32x32_0_0_0) shapeCasts_S1x32x32_S32x32
def wMat1 (W : S3x32x32.Idx → EReal) : S32x32.Idx → EReal :=
  shapeCast S32x32 (extractStridedSlice S1x32x32 ![1, 0, 0] W slices_S3x32x32_S1x32x32_1_0_0) shapeCasts_S1x32x32_S32x32
def wMat2 (W : S3x32x32.Idx → EReal) : S32x32.Idx → EReal :=
  shapeCast S32x32 (extractStridedSlice S1x32x32 ![2, 0, 0] W slices_S3x32x32_S1x32x32_2_0_0) shapeCasts_S1x32x32_S32x32

theorem wMat0_apply (W : S3x32x32.Idx → EReal) (k j : Fin 32) : wMat0 W (ix2 k j) = W (ix3 (0 : Fin 3) k j) := by
  unfold wMat0
  rw [shapeCast_1ab_ab_apply]
  exact extractStridedSlice_apply _ W slices_S3x32x32_S1x32x32_0_0_0 (ix3 (0 : Fin 1) k j) (ix3 (0 : Fin 3) k j) (fun a => match a with
    | ⟨0, _⟩ => rfl
    | ⟨1, _⟩ => by show k.val = 0 + k.val; omega
    | ⟨2, _⟩ => by show j.val = 0 + j.val; omega)
theorem wMat1_apply (W : S3x32x32.Idx → EReal) (k j : Fin 32) : wMat1 W (ix2 k j) = W (ix3 (1 : Fin 3) k j) := by
  unfold wMat1
  rw [shapeCast_1ab_ab_apply]
  exact extractStridedSlice_apply _ W slices_S3x32x32_S1x32x32_1_0_0 (ix3 (0 : Fin 1) k j) (ix3 (1 : Fin 3) k j) (fun a => match a with
    | ⟨0, _⟩ => rfl
    | ⟨1, _⟩ => by show k.val = 0 + k.val; omega
    | ⟨2, _⟩ => by show j.val = 0 + j.val; omega)
theorem wMat2_apply (W : S3x32x32.Idx → EReal) (k j : Fin 32) : wMat2 W (ix2 k j) = W (ix3 (2 : Fin 3) k j) := by
  unfold wMat2
  rw [shapeCast_1ab_ab_apply]
  exact extractStridedSlice_apply _ W slices_S3x32x32_S1x32x32_2_0_0 (ix3 (0 : Fin 1) k j) (ix3 (2 : Fin 3) k j) (fun a => match a with
    | ⟨0, _⟩ => rfl
    | ⟨1, _⟩ => by show k.val = 0 + k.val; omega
    | ⟨2, _⟩ => by show j.val = 0 + j.val; omega)

/-- The literal 2.0 spread over a matrix. -/
theorem twoMat_apply (i : S32x32.Idx) :
    broadcastInDim S32x32 ![] bcast_S_S32x32 (constant (F := Ideal) S_ .f32 0x40000000#32) i = 2 := by
  show Ideal.ofBits .f32 0x40000000#32 = 2
  rw [Cert.Chamfer.Words.ofBits_two]
  first | exact EReal.coe_ofNat 2 | norm_cast | simp

/-- The stack the first products are taken with: W₀ − W₂, W₁, 2·W₂. -/
def wStack (W : S3x32x32.Idx → EReal) : S3x32x32.Idx → EReal :=
  concatenate S3x32x32 0
    [⟨S1x32x32, broadcastInDim S1x32x32 ![1, 2] bcast_S32x32_S1x32x32_1_2 (subf (F := Ideal) (φ := .f32) (wMat0 W) (wMat2 W))⟩,
     ⟨S1x32x32, broadcastInDim S1x32x32 ![1, 2] bcast_S32x32_S1x32x32_1_2 (wMat1 W)⟩,
     ⟨S1x32x32, broadcastInDim S1x32x32 ![1, 2] bcast_S32x32_S1x32x32_1_2
        (mulf (F := Ideal) (φ := .f32) (broadcastInDim S32x32 ![] bcast_S_S32x32 (constant (F := Ideal) S_ .f32 0x40000000#32)) (wMat2 W))⟩]
    concatenates_S1x32x32_S1x32x32_S1x32x32_S3x32x32_d0

theorem wStack_apply0 (W : S3x32x32.Idx → EReal) (k j : Fin 32) :
    wStack W (ix3 (0 : Fin 3) k j) = W (ix3 (0 : Fin 3) k j) - W (ix3 (2 : Fin 3) k j) := by
  unfold wStack
  rw [stack3_apply0, oneStack_apply, subf_apply, wMat0_apply, wMat2_apply]
theorem wStack_apply1 (W : S3x32x32.Idx → EReal) (k j : Fin 32) :
    wStack W (ix3 (1 : Fin 3) k j) = W (ix3 (1 : Fin 3) k j) := by
  unfold wStack
  rw [stack3_apply1, oneStack_apply, wMat1_apply]
theorem wStack_apply2 (W : S3x32x32.Idx → EReal) (k j : Fin 32) :
    wStack W (ix3 (2 : Fin 3) k j) = 2 * W (ix3 (2 : Fin 3) k j) := by
  unfold wStack
  rw [stack3_apply2, oneStack_apply, mulf_apply, twoMat_apply, wMat2_apply]

/-- A bias vector as a [1,32] row, at `(u, j)`. -/
theorem biasRow_apply (b : S32.Idx → EReal) (u : Fin 1) (j : Fin 32) :
    shapeCast S1x32 b shapeCasts_S32_S1x32 (ix2 u j) = b (ix1 j) :=
  shapeCast_a_1a_apply b shapeCasts_S32_S1x32 u j

end Cert.KernelIdeal.Hand

end
-- ==== Proof.KIHost.lean ====
/-
  What the idealized kernel program's host operations hand the two calls, as closed functions of the arguments.

  Before the first call: the column numbers and the diverted row numbers off the edge array, the degree count and
  D^{-1/2}, then one and two propagations of the node features (the call's second and third node arrays), the weight
  stack W₀ − W₂, W₁, 2·W₂ and the bias row. Between the calls the same chain runs on the first call's output with the
  second layer's weights and bias. Each array is first read off its stretch of operations as a term over the buffers the
  stretch found, then at an index through the variable-level readings.
-/
import proofs.«146355_j53403623358893_2_alg».proof.Proof.KIRun
import proofs.«146355_j53403623358893_2_alg».proof.Proof.KIArgs
import proofs.«146355_j53403623358893_2_alg».proof.Proof.KIHostB
import Idealize.ShloMosaic.Lib.StableHlo.Run

set_option maxRecDepth 16384

noncomputable section

namespace Cert.KernelIdeal.Hand

open Cert.KernelIdeal Cert.KernelIdeal.Gen Cert.Cheb Cert.Lib.Rows
open Idealize.ShloMosaic Idealize.ShloMosaic.TcCoe Idealize.ShloMosaic.ValueIdx Idealize.ShloMosaic.StableHlo Idealize.SL.Sem

variable (m : (ℓ : Loc nD τ sig) → Buf (Elt Ideal) ℓ) (c : Dev nD)

/-! ## Three operands laid end to end: the operation's result with each operand at its own reference -/

/-- An operation over a literal family of three references, read at its result: each operand's contents at its own
    reference, so that the operands' own results can be read in turn. -/
theorem nary3_result {Val : EltTy → Type} {x a b y : Ref sig .tc}
    (f : ((k : Fin 3) → ((![x, a, b] : Fin 3 → Ref sig .tc) k).ty.Contents Val) → y.ty.Contents Val) (hxs hy)
    (F : Valuation τ sig Val) :
    (StableHlo.nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [StableHlo.nary_result]; congr 1; funext k; fin_cases k <;> rfl

/-! ## The first five stretches -/

/-- The column numbers: row 1 of the edge array. -/
theorem V1_v3 : (V1 (F := Ideal) m c main_v3 : S1600000.Idx → BitVec 32) = edgeRow1 (aE m c) := by
  show StableHlo.after hostOps0 (V0 (F := Ideal) m c) (Proc.devRef .tc main_v3) = _
  after_results_simp
  rfl

/-- The diverted row numbers. -/
theorem V2_v5 : (V2 (F := Ideal) m c main_v5 : S1600000.Idx → BitVec 32) = rdVec (edgeRow0 (aE m c)) (edgeRow1 (aE m c)) := by
  show StableHlo.after hostOps0_1 (StableHlo.after hostOps0 (V0 (F := Ideal) m c)) (Proc.devRef .tc main_v5) = _
  after_results_simp
  rfl

/-- The degree count's three readings after the third stretch. -/
theorem V3_v12 : (V3 (F := Ideal) m c main_v12 : S100000.Idx → BitVec 1)
    = cmpf (F := Ideal) (φ := .f32) .ogt (degVec (V2 (F := Ideal) m c main_v5))
        (broadcastInDim S100000 ![] bcast_S_S100000 (constant (F := Ideal) S_ .f32 0x00000000#32)) := by
  show StableHlo.after hostOps0_2 (V2 (F := Ideal) m c) (Proc.devRef .tc main_v12) = _
  generalize V2 (F := Ideal) m c = G
  after_results_simp
  rfl
theorem V3_v17 : (V3 (F := Ideal) m c main_v17 : S100000.Idx → EReal)
    = Host.divf (F := Ideal) (φ := .f32) (broadcastInDim S100000 ![] bcast_S_S100000 (constant (F := Ideal) S_ .f32 0x3F800000#32))
        (Host.sqrt (F := Ideal) (φ := .f32) (maximumf (F := Ideal) (φ := .f32) (degVec (V2 (F := Ideal) m c main_v5))
          (broadcastInDim S100000 ![] bcast_S_S100000 (constant (F := Ideal) S_ .f32 0x3F800000#32)))) := by
  show StableHlo.after hostOps0_2 (V2 (F := Ideal) m c) (Proc.devRef .tc main_v17) = _
  generalize V2 (F := Ideal) m c = G
  after_results_simp
  rfl
theorem V3_cst4 : (V3 (F := Ideal) m c main_cst_4 : S_.Idx → EReal) = constant (F := Ideal) S_ .f32 0x00000000#32 := by
  show StableHlo.after hostOps0_2 (V2 (F := Ideal) m c) (Proc.devRef .tc main_cst_4) = _
  generalize V2 (F := Ideal) m c = G
  after_results_simp

/-- D^{-1/2} from the degree count over the diverted row numbers. -/
theorem V4_v18 : (V4 (F := Ideal) m c main_v18 : S100000.Idx → EReal) = dinvVec (degVec (V2 (F := Ideal) m c main_v5)) := by
  have h : (V4 (F := Ideal) m c main_v18 : S100000.Idx → EReal)
      = select (V3 (F := Ideal) m c main_v12 : S100000.Idx → BitVec 1) (V3 (F := Ideal) m c main_v17 : S100000.Idx → EReal)
          (broadcastInDim S100000 ![] bcast_S_S100000 (V3 (F := Ideal) m c main_cst_4 : S_.Idx → EReal)) := by
    show StableHlo.after hostOps0_3 (V3 (F := Ideal) m c) (Proc.devRef .tc main_v18) = _
    generalize V3 (F := Ideal) m c = G
    after_results
    rfl
  rw [h, V3_v12, V3_v17, V3_cst4]
  rfl

theorem V4_v3 : (V4 (F := Ideal) m c main_v3 : S1600000.Idx → BitVec 32) = edgeRow1 (aE m c) :=
  (V4_of m c main_v3 (by decide)).trans <| (V3_of m c main_v3 (by decide)).trans <| (V2_of m c main_v3 (by decide)).trans (V1_v3 m c)
theorem V4_v5 : (V4 (F := Ideal) m c main_v5 : S1600000.Idx → BitVec 32) = rdVec (edgeRow0 (aE m c)) (edgeRow1 (aE m c)) :=
  (V4_of m c main_v5 (by decide)).trans <| (V3_of m c main_v5 (by decide)).trans (V2_v5 m c)

/-- What the three vectors hold, entry by entry. -/
theorem V4_col (e : Fin 1600000) : (V4 (F := Ideal) m c main_v3 : S1600000.Idx → BitVec 32) (ix1 e) = colW (aE m c) e := by
  rw [V4_v3]; exact edgeRow1_apply _ e
theorem V4_rd (e : Fin 1600000) : (V4 (F := Ideal) m c main_v5 : S1600000.Idx → BitVec 32) (ix1 e) = rdW (aE m c) e := by
  rw [V4_v5]; exact rdVec_apply (aE m c) _ _ (edgeRow0_apply _) (edgeRow1_apply _) e
theorem V4_dinv (d : Fin 100000) : (V4 (F := Ideal) m c main_v18 : S100000.Idx → EReal) (ix1 d) = aD m c d := by
  rw [V4_v18, dinvVec_apply, degVec_apply (aE m c) _ (fun e => by rw [V2_v5]; exact rdVec_apply (aE m c) _ _ (edgeRow0_apply _) (edgeRow1_apply _) e)]

/-! ## The fifth stretch: what the first call is handed -/

theorem nary3_result' {Val : EltTy → Type} {x a b y : Ref sig .tc}
    (f : ((k : Fin 3) → ((![x, a, b] : Fin 3 → Ref sig .tc) k).ty.Contents Val) → y.ty.Contents Val) (hxs hy)
    (F : Valuation τ sig Val) :
    (StableHlo.nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

/-- The operations' results read off a literal list in one pass, a three-operand operation with each operand at its own
    reference. -/
macro "host_results" : tactic =>
  `(tactic| (simp (disch := decide) only [after_cons, after_nil,
      nullary_result', unary_result', binary_result', ternary_result', quaternary_result', reshape_result', nary3_result',
      nullary_result_ne', unary_result_ne', binary_result_ne', ternary_result_ne', quaternary_result_ne', reshape_result_ne',
      nary_result_ne']))

set_option maxHeartbeats 4000000 in
theorem V5_v36r :
    (V5 (F := Ideal) m c main_v36 : S100000x32.Idx → EReal)
      = propStep (V4 (F := Ideal) m c main_v18) (V4 (F := Ideal) m c main_v3) (V4 (F := Ideal) m c main_v5) (V4 (F := Ideal) m c main_arg0) := by
  show StableHlo.after hostOps0_4 (V4 (F := Ideal) m c) (Proc.devRef .tc main_v36) = _
  generalize V4 (F := Ideal) m c = G
  host_results
  rfl

set_option maxHeartbeats 4000000 in
theorem V5_v54r :
    (V5 (F := Ideal) m c main_v54 : S100000x32.Idx → EReal)
      = propStep (V4 (F := Ideal) m c main_v18) (V4 (F := Ideal) m c main_v3) (V4 (F := Ideal) m c main_v5)
          (propStep (V4 (F := Ideal) m c main_v18) (V4 (F := Ideal) m c main_v3) (V4 (F := Ideal) m c main_v5) (V4 (F := Ideal) m c main_arg0)) := by
  show StableHlo.after hostOps0_4 (V4 (F := Ideal) m c) (Proc.devRef .tc main_v54) = _
  generalize V4 (F := Ideal) m c = G
  host_results
  rfl

set_option maxHeartbeats 4000000 in
theorem V5_v69r :
    (V5 (F := Ideal) m c main_v69 : S3x32x32.Idx → EReal) = wStack (V4 (F := Ideal) m c main_arg2) := by
  show StableHlo.after hostOps0_4 (V4 (F := Ideal) m c) (Proc.devRef .tc main_v69) = _
  generalize V4 (F := Ideal) m c = G
  host_results
  rfl

set_option maxHeartbeats 4000000 in
theorem V5_v70r :
    (V5 (F := Ideal) m c main_v70 : S1x32.Idx → EReal) = shapeCast S1x32 (V4 (F := Ideal) m c main_arg3 : S32.Idx → EReal) shapeCasts_S32_S1x32 := by
  show StableHlo.after hostOps0_4 (V4 (F := Ideal) m c) (Proc.devRef .tc main_v70) = _
  generalize V4 (F := Ideal) m c = G
  host_results
  rfl

/-! ## The targets of the first five stretches -/

theorem V4_arg0 : (V4 (F := Ideal) m c main_arg0 : S100000x32.Idx → EReal) = m ((c.tc : Thread nD τ).loc main_arg0) :=
  (V4_of m c main_arg0 (by decide)).trans <| (V3_of m c main_arg0 (by decide)).trans <| (V2_of m c main_arg0 (by decide)).trans <|
    (V1_of m c main_arg0 (by decide)).trans rfl
theorem V4_arg2 : (V4 (F := Ideal) m c main_arg2 : S3x32x32.Idx → EReal) = aW1 m c :=
  (V4_of m c main_arg2 (by decide)).trans <| (V3_of m c main_arg2 (by decide)).trans <| (V2_of m c main_arg2 (by decide)).trans <|
    (V1_of m c main_arg2 (by decide)).trans rfl
theorem V4_arg3 : (V4 (F := Ideal) m c main_arg3 : S32.Idx → EReal) = m ((c.tc : Thread nD τ).loc main_arg3) :=
  (V4_of m c main_arg3 (by decide)).trans <| (V3_of m c main_arg3 (by decide)).trans <| (V2_of m c main_arg3 (by decide)).trans <|
    (V1_of m c main_arg3 (by decide)).trans rfl

/-- The first call's second node array: one propagation of the node features. -/
theorem V5_v36 : tab (V5 (F := Ideal) m c main_v36) = propK (aE m c) (aD m c) (aX m c) :=
  (congrArg tab (V5_v36r m c)).trans <|
    (propStep_apply (aE m c) (aD m c) _ _ _ _ (V4_dinv m c) (V4_col m c) (V4_rd m c)).trans
      (congrArg (fun x => propK (aE m c) (aD m c) (tab x)) (V4_arg0 m c))

/-- The first call's third node array: two propagations of the node features. -/
theorem V5_v54 : tab (V5 (F := Ideal) m c main_v54) = propK (aE m c) (aD m c) (propK (aE m c) (aD m c) (aX m c)) :=
  (congrArg tab (V5_v54r m c)).trans <|
    (propStep_apply (aE m c) (aD m c) _ _ _ _ (V4_dinv m c) (V4_col m c) (V4_rd m c)).trans <|
      congrArg (propK (aE m c) (aD m c)) <|
        (propStep_apply (aE m c) (aD m c) _ _ _ _ (V4_dinv m c) (V4_col m c) (V4_rd m c)).trans
          (congrArg (fun x => propK (aE m c) (aD m c) (tab x)) (V4_arg0 m c))

/-- The first call's weight stack: W₀ − W₂, W₁, 2·W₂ of the first layer's weights. -/
theorem V5_v69_0 (k j : Fin 32) :
    V5 (F := Ideal) m c main_v69 (ix3 (0 : Fin 3) k j) = aW1 m c (ix3 (0 : Fin 3) k j) - aW1 m c (ix3 (2 : Fin 3) k j) :=
  (congrFun (V5_v69r m c) _).trans <|
    (congrArg (fun W => wStack W (ix3 (0 : Fin 3) k j)) (V4_arg2 m c)).trans (wStack_apply0 (aW1 m c) k j)
theorem V5_v69_1 (k j : Fin 32) :
    V5 (F := Ideal) m c main_v69 (ix3 (1 : Fin 3) k j) = aW1 m c (ix3 (1 : Fin 3) k j) :=
  (congrFun (V5_v69r m c) _).trans <|
    (congrArg (fun W => wStack W (ix3 (1 : Fin 3) k j)) (V4_arg2 m c)).trans (wStack_apply1 (aW1 m c) k j)
theorem V5_v69_2 (k j : Fin 32) :
    V5 (F := Ideal) m c main_v69 (ix3 (2 : Fin 3) k j) = 2 * aW1 m c (ix3 (2 : Fin 3) k j) :=
  (congrFun (V5_v69r m c) _).trans <|
    (congrArg (fun W => wStack W (ix3 (2 : Fin 3) k j)) (V4_arg2 m c)).trans (wStack_apply2 (aW1 m c) k j)

/-- The first call's bias row. -/
theorem V5_v70 (j : Fin 32) : V5 (F := Ideal) m c main_v70 (ix2 (0 : Fin 1) j) = aB1 m c j :=
  (congrFun (V5_v70r m c) _).trans <|
    (biasRow_apply _ (0 : Fin 1) j).trans (congrFun (V4_arg3 m c) (ix1 j))

/-! ## The sixth stretch: what the second call is handed -/

/-- The first call leaves the integer and D^{-1/2} vectors, and the arguments, as it found them. -/
theorem W6_v18 : (W6 (F := Ideal) m c main_v18 : S100000.Idx → EReal) = V4 (F := Ideal) m c main_v18 :=
  (W6_of_ne m c main_v18 (by decide)).trans (V5_of m c main_v18 (by decide))
theorem W6_v3 : (W6 (F := Ideal) m c main_v3 : S1600000.Idx → BitVec 32) = V4 (F := Ideal) m c main_v3 :=
  (W6_of_ne m c main_v3 (by decide)).trans (V5_of m c main_v3 (by decide))
theorem W6_v5 : (W6 (F := Ideal) m c main_v5 : S1600000.Idx → BitVec 32) = V4 (F := Ideal) m c main_v5 :=
  (W6_of_ne m c main_v5 (by decide)).trans (V5_of m c main_v5 (by decide))
theorem W6_arg4 : (W6 (F := Ideal) m c main_arg4 : S3x32x32.Idx → EReal) = aW2 m c :=
  (W6_of_ne m c main_arg4 (by decide)).trans (V5_arg m c main_arg4 (by decide) (by decide) (by decide) (by decide) (by decide))
theorem W6_arg5 : (W6 (F := Ideal) m c main_arg5 : S32.Idx → EReal) = m ((c.tc : Thread nD τ).loc main_arg5) :=
  (W6_of_ne m c main_arg5 (by decide)).trans (V5_arg m c main_arg5 (by decide) (by decide) (by decide) (by decide) (by decide))

theorem W6_dinv (d : Fin 100000) : (W6 (F := Ideal) m c main_v18 : S100000.Idx → EReal) (ix1 d) = aD m c d :=
  (congrFun (W6_v18 m c) _).trans (V4_dinv m c d)
theorem W6_col (e : Fin 1600000) : (W6 (F := Ideal) m c main_v3 : S1600000.Idx → BitVec 32) (ix1 e) = colW (aE m c) e :=
  (congrFun (W6_v3 m c) _).trans (V4_col m c e)
theorem W6_rd (e : Fin 1600000) : (W6 (F := Ideal) m c main_v5 : S1600000.Idx → BitVec 32) (ix1 e) = rdW (aE m c) e :=
  (congrFun (W6_v5 m c) _).trans (V4_rd m c e)

set_option maxHeartbeats 4000000 in
theorem W7_v89r :
    (W7 (F := Ideal) m c main_v89 : S100000x32.Idx → EReal)
      = propStep (W6 (F := Ideal) m c main_v18) (W6 (F := Ideal) m c main_v3) (W6 (F := Ideal) m c main_v5) (W6 (F := Ideal) m c main_v71) := by
  show StableHlo.after hostOps1 (W6 (F := Ideal) m c) (Proc.devRef .tc main_v89) = _
  generalize W6 (F := Ideal) m c = G
  host_results
  rfl

set_option maxHeartbeats 4000000 in
theorem W7_v107r :
    (W7 (F := Ideal) m c main_v107 : S100000x32.Idx → EReal)
      = propStep (W6 (F := Ideal) m c main_v18) (W6 (F := Ideal) m c main_v3) (W6 (F := Ideal) m c main_v5)
          (propStep (W6 (F := Ideal) m c main_v18) (W6 (F := Ideal) m c main_v3) (W6 (F := Ideal) m c main_v5) (W6 (F := Ideal) m c main_v71)) := by
  show StableHlo.after hostOps1 (W6 (F := Ideal) m c) (Proc.devRef .tc main_v107) = _
  generalize W6 (F := Ideal) m c = G
  host_results
  rfl

set_option maxHeartbeats 4000000 in
theorem W7_v122r :
    (W7 (F := Ideal) m c main_v122 : S3x32x32.Idx → EReal) = wStack (W6 (F := Ideal) m c main_arg4) := by
  show StableHlo.after hostOps1 (W6 (F := Ideal) m c) (Proc.devRef .tc main_v122) = _
  generalize W6 (F := Ideal) m c = G
  host_results
  rfl

set_option maxHeartbeats 4000000 in
theorem W7_v123r :
    (W7 (F := Ideal) m c main_v123 : S1x32.Idx → EReal) = shapeCast S1x32 (W6 (F := Ideal) m c main_arg5 : S32.Idx → EReal) shapeCasts_S32_S1x32 := by
  show StableHlo.after hostOps1 (W6 (F := Ideal) m c) (Proc.devRef .tc main_v123) = _
  generalize W6 (F := Ideal) m c = G
  host_results
  rfl

/-- The second call's second node array: one propagation of the first call's output. -/
theorem W7_v89 : tab (W7 (F := Ideal) m c main_v89)
    = propK (aE m c) (aD m c) (tab (W6 (F := Ideal) m c (Proc.devRef .tc main_v71))) :=
  (congrArg tab (W7_v89r m c)).trans
    (propStep_apply (aE m c) (aD m c) _ _ _ _ (W6_dinv m c) (W6_col m c) (W6_rd m c))

/-- The second call's third node array: two propagations of the first call's output. -/
theorem W7_v107 : tab (W7 (F := Ideal) m c main_v107)
    = propK (aE m c) (aD m c) (propK (aE m c) (aD m c) (tab (W6 (F := Ideal) m c (Proc.devRef .tc main_v71)))) :=
  (congrArg tab (W7_v107r m c)).trans <|
    (propStep_apply (aE m c) (aD m c) _ _ _ _ (W6_dinv m c) (W6_col m c) (W6_rd m c)).trans <|
      congrArg (propK (aE m c) (aD m c))
        (propStep_apply (aE m c) (aD m c) _ _ _ _ (W6_dinv m c) (W6_col m c) (W6_rd m c))

/-- The second call's weight stack: W₀ − W₂, W₁, 2·W₂ of the second layer's weights. -/
theorem W7_v122_0 (k j : Fin 32) :
    W7 (F := Ideal) m c main_v122 (ix3 (0 : Fin 3) k j) = aW2 m c (ix3 (0 : Fin 3) k j) - aW2 m c (ix3 (2 : Fin 3) k j) :=
  (congrFun (W7_v122r m c) _).trans <|
    (congrArg (fun W => wStack W (ix3 (0 : Fin 3) k j)) (W6_arg4 m c)).trans (wStack_apply0 (aW2 m c) k j)
theorem W7_v122_1 (k j : Fin 32) :
    W7 (F := Ideal) m c main_v122 (ix3 (1 : Fin 3) k j) = aW2 m c (ix3 (1 : Fin 3) k j) :=
  (congrFun (W7_v122r m c) _).trans <|
    (congrArg (fun W => wStack W (ix3 (1 : Fin 3) k j)) (W6_arg4 m c)).trans (wStack_apply1 (aW2 m c) k j)
theorem W7_v122_2 (k j : Fin 32) :
    W7 (F := Ideal) m c main_v122 (ix3 (2 : Fin 3) k j) = 2 * aW2 m c (ix3 (2 : Fin 3) k j) :=
  (congrFun (W7_v122r m c) _).trans <|
    (congrArg (fun W => wStack W (ix3 (2 : Fin 3) k j)) (W6_arg4 m c)).trans (wStack_apply2 (aW2 m c) k j)

/-- The second call's bias row. -/
theorem W7_v123 (j : Fin 32) : W7 (F := Ideal) m c main_v123 (ix2 (0 : Fin 1) j) = aB2 m c j :=
  (congrFun (W7_v123r m c) _).trans <|
    (biasRow_apply _ (0 : Fin 1) j).trans (congrFun (W6_arg5 m c) (ix1 j))

end Cert.KernelIdeal.Hand

end
-- ==== Proof.KIValue.lean ====
/-
  The idealized kernel program's result array after the run, as the vocabulary's closed form of the arguments.

  The result is the second call's output array: its combine of the rectified first layer h, the two propagations of h
  that the host stretch between the calls computes, the modified second weight stack and the second bias row, plus the
  node features as residual. The first call's output array h is its combine of the node features, their two
  propagations, the modified first weight stack and the first bias row, rectified. A call's combine over the modified
  stack (W₀ − W₂, W₁, 2·W₂) is the kernel's combine over the original weights.
-/
import proofs.«146355_j53403623358893_2_alg».proof.Proof.KIRun
import proofs.«146355_j53403623358893_2_alg».proof.Proof.KIArgs
import proofs.«146355_j53403623358893_2_alg».proof.Proof.KIFinal0
import proofs.«146355_j53403623358893_2_alg».proof.Proof.KIFinal1
import proofs.«146355_j53403623358893_2_alg».proof.Proof.KIHost
import proofs.«146355_j53403623358893_2_alg».proof.Proof.ChebDefs
import Idealize.ShloMosaic.Lib.ValueIdx

set_option maxRecDepth 16384

noncomputable section

namespace Cert.Cheb

open Idealize.ShloMosaic Idealize.ShloMosaic.ValueIdx

/-- The call's combine over the modified weight stack is the kernel's combine over the original weights. -/
theorem comb3_eq_combK (v T P : Tab) (Wm W : (⟨3, ![3, 32, 32]⟩ : Shape).Idx → EReal) (b : Fin 32 → EReal)
    (h0 : ∀ k j : Fin 32, Wm (ix3 (0 : Fin 3) k j) = W (ix3 (0 : Fin 3) k j) - W (ix3 (2 : Fin 3) k j))
    (h1 : ∀ k j : Fin 32, Wm (ix3 (1 : Fin 3) k j) = W (ix3 (1 : Fin 3) k j))
    (h2 : ∀ k j : Fin 32, Wm (ix3 (2 : Fin 3) k j) = 2 * W (ix3 (2 : Fin 3) k j)) :
    comb3 v T P Wm b = combK v T P W b := by
  funext i j
  unfold comb3 combK
  simp only [h0, h1, h2]

end Cert.Cheb

namespace Cert.KernelIdeal.Hand

open Cert.KernelIdeal Cert.KernelIdeal.Gen Cert.Cheb
open Idealize.ShloMosaic Idealize.ShloMosaic.TcCoe Idealize.ShloMosaic.ValueIdx Idealize.SL.Sem

variable (m : (ℓ : Loc nD τ sig) → Buf (Elt Ideal) ℓ) (c : Dev nD)

/-- The node features reach the second call as launched. -/
theorem W7_main_arg0 : W7 (F := Ideal) m c (Proc.devRef .tc main_arg0) = m ((c : Thread nD τ).loc main_arg0) :=
  (W7_of m c main_arg0 (by decide)).trans <|
    ((W6_arr m c 0).trans (((dat0 (U5 m) c).arrAt_in 0 rfl _).trans (A_eq0 (U5 m) c 0))).trans
      (V5_arg m c main_arg0 (by decide) (by decide) (by decide) (by decide) (by decide))

set_option maxHeartbeats 400000 in
/-- The first call's output array is the rectified first layer. -/
theorem hidden_eq : tab (W6 (F := Ideal) m c (Proc.devRef .tc main_v71)) = aH m c := by
  have e1 : W6 (F := Ideal) m c (Proc.devRef .tc main_v71) = (dat0 (F := Ideal) (U5 m) c).arrAt 5 cfg0.N := W6_arr m c 5
  have e2 := final0 (U5 m) c
  rw [e1, e2, tab_untab]
  have ea : tab (U5 (F := Ideal) m c main_arg0) = aX m c :=
    congrArg tab (V5_arg m c main_arg0 (by decide) (by decide) (by decide) (by decide) (by decide))
  have eb : (fun j : Fin 32 => U5 (F := Ideal) m c main_v70 (ix2 (0 : Fin 1) j)) = aB1 m c :=
    funext fun j => V5_v70 m c j
  have e36 : tab (U5 (F := Ideal) m c main_v36) = propK (aE m c) (aD m c) (aX m c) := V5_v36 m c
  have e54 : tab (U5 (F := Ideal) m c main_v54) = propK (aE m c) (aD m c) (propK (aE m c) (aD m c) (aX m c)) := V5_v54 m c
  rw [ea, eb, e36, e54, comb3_eq_combK _ _ _ _ (aW1 m c) _ (V5_v69_0 m c) (V5_v69_1 m c) (V5_v69_2 m c)]
  rfl

set_option maxHeartbeats 400000 in
/-- THE KERNEL'S RESULT ARRAY after the run, as the vocabulary's closed form of the arguments. -/
theorem result_eq :
    W8 (F := Ideal) m c (Proc.devRef .tc main_v124) = untab (outK (aE m c) (aX m c) (aW1 m c) (aB1 m c) (aW2 m c) (aB2 m c)) := by
  have e1 : W8 (F := Ideal) m c (Proc.devRef .tc main_v124) = (dat1 (F := Ideal) (U7 m) c).arrAt 6 cfg1.N := W8_arr m c 6
  have e2 := final1 (U7 m) c
  rw [e1, e2]
  have e71 : tab (U7 (F := Ideal) m c main_v71) = aH m c :=
    (congrArg tab (W7_of m c main_v71 (by decide))).trans (hidden_eq m c)
  have e89 : tab (U7 (F := Ideal) m c main_v89) = propK (aE m c) (aD m c) (aH m c) :=
    (W7_v89 m c).trans (by rw [hidden_eq])
  have e107 : tab (U7 (F := Ideal) m c main_v107) = propK (aE m c) (aD m c) (propK (aE m c) (aD m c) (aH m c)) :=
    (W7_v107 m c).trans (by rw [hidden_eq])
  have ea : tab (U7 (F := Ideal) m c main_arg0) = aX m c := congrArg tab (W7_main_arg0 m c)
  have eb : (fun j : Fin 32 => U7 (F := Ideal) m c main_v123 (ix2 (0 : Fin 1) j)) = aB2 m c :=
    funext fun j => W7_v123 m c j
  rw [e71, e89, e107, ea, eb, comb3_eq_combK _ _ _ _ (aW2 m c) _ (W7_v122_0 m c) (W7_v122_1 m c) (W7_v122_2 m c)]
  rfl

end Cert.KernelIdeal.Hand

end
-- ==== Proof.RefClosedA.lean ====
/-
  The reference program's tables that depend on the edge list alone: row and column numbers, the self-loop mask,
  degrees, D^{-1/2}, the wrapped gather numbers and the per-edge weights, each read at an index in the vocabulary of
  ChebDefs, and one propagation step over an arbitrary node table.
-/
import proofs.«146355_j53403623358893_2_alg».proof.Proof.RefRead
import proofs.«146355_j53403623358893_2_alg».proof.Proof.ChebDefs
import proofs.«146355_j53403623358893_2_alg».proof.Proof.LibWords

noncomputable section

namespace Cert.ReferenceIdeal.Closed

open Cert.ReferenceIdeal Cert.ReferenceIdeal.Gen Cert.ReferenceIdeal.ReadP Cert.Cheb Cert.Lib.Rows Idealize.ShloMosaic Idealize.ShloMosaic.ValueIdx

/-! ## The edge list -/

/-- Edge `e`'s row number. -/
theorem v1_apply (x1 : IVec S2x1600000 32) (e : Fin 1600000) :
    val_main_v1 (F := Ideal) x1 (ix1 e) = rowW x1 e := by
  rw [val_main_v1_apply, val_main_v0_apply]
  unfold rowW
  congr 1
  funext a
  refine Fin.ext ?_
  match a with
  | ⟨0, _⟩ => rfl
  | ⟨1, _⟩ => exact Nat.mod_eq_of_lt e.isLt

/-- Edge `e`'s column number. -/
theorem v3_apply (x1 : IVec S2x1600000 32) (e : Fin 1600000) :
    val_main_v3 (F := Ideal) x1 (ix1 e) = colW x1 e := by
  rw [val_main_v3_apply, val_main_v2_apply]
  unfold colW
  congr 1
  funext a
  refine Fin.ext ?_
  match a with
  | ⟨0, _⟩ => rfl
  | ⟨1, _⟩ => exact Nat.mod_eq_of_lt e.isLt

theorem cmpi_ne_toNat (a b : BitVec 32) : (((IntOp.cmpi .ne a b).toNat : ℝ) : EReal) = if a ≠ b then 1 else 0 := by
  by_cases h : a = b
  · subst h
    rw [if_neg (not_not.mpr rfl)]
    simp [IntOp.cmpi]
  · rw [if_pos h]
    simp [IntOp.cmpi, h]

/-- The self-loop mask: 1 off the diagonal, 0 on it. -/
theorem v5_apply (x1 : IVec S2x1600000 32) (e : Fin 1600000) :
    val_main_v5 (F := Ideal) x1 (ix1 e) = maskR x1 e := by
  rw [val_main_v5_apply, val_main_v4_apply, v1_apply, v3_apply]
  exact cmpi_ne_toNat _ _

/-- A broadcast of the row numbers to an [E,1] column. -/
theorem rowcol_eq (x1 : IVec S2x1600000 32) (y : IVec S1600000x1 32)
    (hy : ∀ j : S1600000x1.Idx, y j = val_main_v1 (F := Ideal) x1 (ix1 ⟨(j 0).val, (j 0).isLt⟩)) : y = col1 (rowW x1) := by
  funext j
  exact (hy j).trans (v1_apply x1 _)

theorem v7_eq (x1 : IVec S2x1600000 32) : val_main_v7 (F := Ideal) x1 = col1 (rowW x1) :=
  rowcol_eq x1 _ fun j => (val_main_v7_apply x1 j).trans (congrArg _ (funext fun a => match a with | ⟨0, _⟩ => rfl))
theorem v48_eq (x1 : IVec S2x1600000 32) : val_main_v48 (F := Ideal) x1 = col1 (rowW x1) :=
  rowcol_eq x1 _ fun j => (val_main_v48_apply x1 j).trans (congrArg _ (funext fun a => match a with | ⟨0, _⟩ => rfl))
theorem v65_eq (x1 : IVec S2x1600000 32) : val_main_v65 (F := Ideal) x1 = col1 (rowW x1) :=
  rowcol_eq x1 _ fun j => (val_main_v65_apply x1 j).trans (congrArg _ (funext fun a => match a with | ⟨0, _⟩ => rfl))
theorem v92_eq (x1 : IVec S2x1600000 32) : val_main_v92 (F := Ideal) x1 = col1 (rowW x1) :=
  rowcol_eq x1 _ fun j => (val_main_v92_apply x1 j).trans (congrArg _ (funext fun a => match a with | ⟨0, _⟩ => rfl))
theorem v109_eq (x1 : IVec S2x1600000 32) : val_main_v109 (F := Ideal) x1 = col1 (rowW x1) :=
  rowcol_eq x1 _ fun j => (val_main_v109_apply x1 j).trans (congrArg _ (funext fun a => match a with | ⟨0, _⟩ => rfl))

/-! ## Gathers and segment sums over variable operands -/

/-- A segment sum into a zero [N] table. -/
theorem deg_step (z : S100000.Idx → EReal) (hz : ∀ i, z i = 0) (idx : IVec S1600000x1 32) (upd : S1600000.Idx → EReal)
    (d : Fin 100000) :
    Ideal.hostScatterAdd scatter_S100000_S1600000x1_S1600000_n_0_0_1 z idx upd (ix1 d) = ∑ e ∈ edgesInto idx d, upd (ix1 e) := by
  refine (scatterAddElts_apply (N := 100000) (E := 1600000) Facts₀.scatter_S100000_S1600000x1_S1600000_n_0_0_1_wf
    idx z upd d).trans ?_
  rw [hz, zero_add]

/-- An element of an [N] table taken at a row number. -/
theorem take_step (tbl : S100000.Idx → EReal) (idx : IVec S1600000x1 32) (e : Fin 1600000) :
    Host.gather gather_S100000_S1600000x1_S1600000_n_0_n_n_0_1_1 tbl idx (ix1 e)
      = tbl (ix1 (rowOf 100000 (by decide) (idx (ix2 e (0 : Fin 1))))) :=
  gatherElts_apply (N := 100000) (E := 1600000) (by decide) Facts₀.gather_S100000_S1600000x1_S1600000_n_0_n_n_0_1_1_wf tbl idx e

/-- One propagation step over variable operands: gather rows, scale each by its edge's factor, sum into a zero table. -/
theorem prop_step (z : S100000x32.Idx → EReal) (hz : ∀ i, z i = 0)
    (idxS idxG : IVec S1600000x1 32) (wB : S1600000x32.Idx → EReal) (tbl : S100000x32.Idx → EReal)
    (d : Fin 100000) (k : Fin 32) :
    Ideal.hostScatterAdd scatter_S100000x32_S1600000x1_S1600000x32_1_0_0_1 z idxS
      (fun j => wB j * Host.gather gather_S100000x32_S1600000x1_S1600000x32_1_0_n_n_0_1_132 tbl idxG j) (ix2 d k)
    = ∑ e ∈ edgesInto idxS d, wB (ix2 e k) * tbl (ix2 (rowOf 100000 (by decide) (idxG (ix2 e (0 : Fin 1)))) k) := by
  refine (scatterAddRows_apply (N := 100000) (E := 1600000) (C := 32)
    Facts₀.scatter_S100000x32_S1600000x1_S1600000x32_1_0_0_1_wf idxS k z _ d).trans ?_
  rw [hz, zero_add]
  refine Finset.sum_congr rfl fun e _ => ?_
  exact congrArg (wB (ix2 e k) * ·) (gatherRows_apply (N := 100000) (E := 1600000) (C := 32) (by decide)
    Facts₀.gather_S100000x32_S1600000x1_S1600000x32_1_0_n_n_0_1_132_wf tbl idxG e k)

/-! ## Degrees and D^{-1/2} -/

theorem v8_def (x1 : IVec S2x1600000 32) :
    val_main_v8 (F := Ideal) x1 = Ideal.hostScatterAdd scatter_S100000_S1600000x1_S1600000_n_0_0_1
      (val_main_v6 (F := Ideal)) (val_main_v7 (F := Ideal) x1) (val_main_v5 (F := Ideal) x1) := rfl

theorem v6_zero (i : S100000.Idx) : val_main_v6 (F := Ideal) i = 0 := by
  rw [val_main_v6_apply, val_main_cst_apply]
  exact Cert.Chamfer.Words.ofBits_zero

/-- The degree of node `d`: the masks of the edges whose row number is `d`, summed. -/
theorem v8_apply (x1 : IVec S2x1600000 32) (d : Fin 100000) :
    val_main_v8 (F := Ideal) x1 (ix1 d) = degR x1 d := by
  refine (congrFun (v8_def x1) (ix1 d)).trans ?_
  refine (deg_step (val_main_v6 (F := Ideal)) v6_zero (val_main_v7 (F := Ideal) x1) (val_main_v5 (F := Ideal) x1) d).trans ?_
  rw [v7_eq]
  exact Finset.sum_congr rfl fun e _ => v5_apply x1 e

/-- D^{-1/2} of node `d`. -/
abbrev dinvR (x1 : IVec S2x1600000 32) : Fin 100000 → EReal := fun d => dinvOf (degR x1 d)

theorem dinv_scalar (deg : EReal) :
    Scalar.select (Ideal.cmp .ogt deg 0) (Ideal.div 1 (Ideal.sqrt (max deg 1))) (0 : EReal) = dinvOf deg := by
  unfold dinvOf
  by_cases h : 0 < deg
  · rw [if_pos h]
    have : Ideal.cmp .ogt deg 0 = 1#1 := by simp [Ideal.cmp, h]
    rw [this]
    exact if_pos rfl
  · rw [if_neg h]
    have : Ideal.cmp .ogt deg 0 = 0#1 := by simp [Ideal.cmp, h]
    rw [this]
    exact if_neg (by decide)

theorem v16_apply (x1 : IVec S2x1600000 32) (d : Fin 100000) :
    val_main_v16 (F := Ideal) x1 (ix1 d) = dinvR x1 d := by
  rw [val_main_v16_apply, val_main_v10_apply, val_main_v15_apply, val_main_v13_apply, val_main_v12_apply,
    val_main_v9_apply, val_main_v11_apply, val_main_v14_apply, val_main_call0_v1_apply, val_main_call0_v0_apply,
    val_main_cst_0_apply, val_main_cst_1_apply, val_main_cst_2_apply, val_main_cst_3_apply, v8_apply]
  simp only [Ideal.ofBits_def, Cert.Chamfer.Words.ofBits_zero, Cert.Chamfer.Words.ofBits_one, Ideal.cmpf_def, Ideal.hostDivf_def,
    Ideal.hostUnary_sqrt_def, Ideal.maximumf_def]
  exact dinv_scalar (degR x1 d)

end Cert.ReferenceIdeal.Closed

end
-- ==== Proof.RefClosedB.lean ====
/-
  The reference program's wrapped gather numbers, per-edge weights and one propagation over an arbitrary node table.
-/
import proofs.«146355_j53403623358893_2_alg».proof.Proof.RefClosedA

noncomputable section

namespace Cert.ReferenceIdeal.Closed

open Cert.ReferenceIdeal Cert.ReferenceIdeal.Gen Cert.ReferenceIdeal.ReadP Cert.Cheb Cert.Lib.Rows Idealize.ShloMosaic Idealize.ShloMosaic.ValueIdx

/-! ## Wrapped row numbers and the per-edge weights -/

theorem v22_apply (x1 : IVec S2x1600000 32) (e : Fin 1600000) :
    val_main_v22 (F := Ideal) x1 (ix1 e) = wrapN (rowW x1 e) := by
  rw [val_main_v22_apply, val_main_v19_apply, val_main_v21_apply, val_main_v18_apply, val_main_v20_apply,
    val_main_c_apply, val_main_c_4_apply, v1_apply]
  rfl

theorem v30_apply (x1 : IVec S2x1600000 32) (e : Fin 1600000) :
    val_main_v30 (F := Ideal) x1 (ix1 e) = wrapN (colW x1 e) := by
  rw [val_main_v30_apply, val_main_v27_apply, val_main_v29_apply, val_main_v26_apply, val_main_v28_apply,
    val_main_c_5_apply, val_main_c_6_apply, v3_apply]
  rfl

theorem v42_apply (x1 : IVec S2x1600000 32) (e : Fin 1600000) :
    val_main_v42 (F := Ideal) x1 (ix1 e) = wrapN (colW x1 e) := by
  rw [val_main_v42_apply, val_main_v39_apply, val_main_v41_apply, val_main_v38_apply, val_main_v40_apply,
    val_main_c_7_apply, val_main_c_8_apply, v3_apply]
  rfl

theorem v23_at (x1 : IVec S2x1600000 32) (e : Fin 1600000) :
    val_main_v23 (F := Ideal) x1 (ix2 e (0 : Fin 1)) = wrapN (rowW x1 e) :=
  (val_main_v23_apply x1 _).trans ((congrArg _ (funext fun a => match a with | ⟨0, _⟩ => rfl)).trans (v22_apply x1 e))

theorem v31_at (x1 : IVec S2x1600000 32) (e : Fin 1600000) :
    val_main_v31 (F := Ideal) x1 (ix2 e (0 : Fin 1)) = wrapN (colW x1 e) :=
  (val_main_v31_apply x1 _).trans ((congrArg _ (funext fun a => match a with | ⟨0, _⟩ => rfl)).trans (v30_apply x1 e))

theorem v43_at (x1 : IVec S2x1600000 32) (e : Fin 1600000) :
    val_main_v43 (F := Ideal) x1 (ix2 e (0 : Fin 1)) = wrapN (colW x1 e) :=
  (val_main_v43_apply x1 _).trans ((congrArg _ (funext fun a => match a with | ⟨0, _⟩ => rfl)).trans (v42_apply x1 e))

theorem v24_def (x1 : IVec S2x1600000 32) :
    val_main_v24 (F := Ideal) x1 = Host.gather gather_S100000_S1600000x1_S1600000_n_0_n_n_0_1_1
      (val_main_v16 (F := Ideal) x1) (val_main_v23 (F := Ideal) x1) := rfl

theorem v32_def (x1 : IVec S2x1600000 32) :
    val_main_v32 (F := Ideal) x1 = Host.gather gather_S100000_S1600000x1_S1600000_n_0_n_n_0_1_1
      (val_main_v16 (F := Ideal) x1) (val_main_v31 (F := Ideal) x1) := rfl

/-- D^{-1/2} at the node edge `e`'s row number names. -/
theorem v24_apply (x1 : IVec S2x1600000 32) (e : Fin 1600000) :
    val_main_v24 (F := Ideal) x1 (ix1 e) = dinvR x1 (rsrcOf x1 e) := by
  refine (congrFun (v24_def x1) (ix1 e)).trans ?_
  refine (take_step (val_main_v16 (F := Ideal) x1) (val_main_v23 (F := Ideal) x1) e).trans ?_
  rw [v23_at, v16_apply]
  rfl

/-- D^{-1/2} at the node edge `e`'s column number names. -/
theorem v32_apply (x1 : IVec S2x1600000 32) (e : Fin 1600000) :
    val_main_v32 (F := Ideal) x1 (ix1 e) = dinvR x1 (srcOf x1 e) := by
  refine (congrFun (v32_def x1) (ix1 e)).trans ?_
  refine (take_step (val_main_v16 (F := Ideal) x1) (val_main_v31 (F := Ideal) x1) e).trans ?_
  rw [v31_at, v16_apply]
  rfl

/-- The weight of edge `e`. -/
theorem v33_apply (x1 : IVec S2x1600000 32) (e : Fin 1600000) :
    val_main_v33 (F := Ideal) x1 (ix1 e) = wR x1 (dinvR x1) e := by
  rw [val_main_v33_apply, val_main_v25_apply, val_main_v17_apply, v5_apply, v24_apply, v32_apply]
  rfl

/-- The weight of edge `e`, broadcast along the features. -/
theorem v45_at (x1 : IVec S2x1600000 32) (e : Fin 1600000) (k : Fin 32) :
    val_main_v45 (F := Ideal) x1 (ix2 e k) = wR x1 (dinvR x1) e :=
  (val_main_v45_apply x1 _).trans ((val_main_v37_apply x1 _).trans
    ((congrArg _ (funext fun a => match a with | ⟨0, _⟩ => rfl)).trans (v33_apply x1 e)))

/-! ## One propagation -/

theorem v47_zero (i : S100000x32.Idx) : val_main_v47 (F := Ideal) i = 0 := by
  rw [val_main_v47_apply, val_main_cst_9_apply]
  exact Cert.Chamfer.Words.ofBits_zero

theorem v44_def (x0 : S100000x32.Idx → EReal) (x1 : IVec S2x1600000 32) :
    val_main_v44 (F := Ideal) x0 x1
      = Host.gather gather_S100000x32_S1600000x1_S1600000x32_1_0_n_n_0_1_132 x0 (val_main_v43 (F := Ideal) x1) := rfl

theorem v46_def (x0 : S100000x32.Idx → EReal) (x1 : IVec S2x1600000 32) :
    val_main_v46 (F := Ideal) x0 x1 = fun j => val_main_v45 (F := Ideal) x1 j * val_main_v44 (F := Ideal) x0 x1 j := rfl

theorem v49_def (x0 : S100000x32.Idx → EReal) (x1 : IVec S2x1600000 32) :
    val_main_v49 (F := Ideal) x0 x1 = Ideal.hostScatterAdd scatter_S100000x32_S1600000x1_S1600000x32_1_0_0_1
      (val_main_v47 (F := Ideal)) (val_main_v48 (F := Ideal) x1) (val_main_v46 (F := Ideal) x0 x1) := rfl

theorem tab_apply (A : S100000x32.Idx → EReal) (i : Fin 100000) (k : Fin 32) : tab A i k = A (ix2 i k) := rfl

/-- The propagated table, for ANY node table `x0`. -/
theorem v49_tab (x0 : S100000x32.Idx → EReal) (x1 : IVec S2x1600000 32) :
    tab (val_main_v49 (F := Ideal) x0 x1) = propR x1 (dinvR x1) (tab x0) := by
  funext d k
  refine (tab_apply (val_main_v49 (F := Ideal) x0 x1) d k).trans ?_
  refine (congrFun (v49_def x0 x1) (ix2 d k)).trans ?_
  rw [v46_def, v44_def]
  refine (prop_step (val_main_v47 (F := Ideal)) v47_zero (val_main_v48 (F := Ideal) x1) (val_main_v43 (F := Ideal) x1)
    (val_main_v45 (F := Ideal) x1) x0 d k).trans ?_
  rw [v48_eq]
  refine Finset.sum_congr rfl fun e _ => ?_
  rw [v45_at, v43_at]
  rfl

end Cert.ReferenceIdeal.Closed

end
-- ==== Proof.RefClosedC.lean ====
/-
  The reference program's result as one closed function of its arguments: the dense combine of one layer over an
  arbitrary node table, the second layer as the first layer's functions at other arguments, and the assembly.
-/
import proofs.«146355_j53403623358893_2_alg».proof.Proof.RefClosedB

noncomputable section

namespace Cert.ReferenceIdeal.Closed

open Cert.ReferenceIdeal Cert.ReferenceIdeal.Gen Cert.ReferenceIdeal.ReadP Cert.Cheb Cert.Lib.Rows Idealize.ShloMosaic Idealize.ShloMosaic.ValueIdx

/-! ## The weight slices and the bias row -/

theorem v35_at (x2 : S3x32x32.Idx → EReal) (k j : Fin 32) :
    val_main_v35 (F := Ideal) x2 (ix2 k j) = x2 (ix3 (0 : Fin 3) k j) := by
  rw [val_main_v35_apply, val_main_v34_apply]
  congr 1
  funext a
  refine Fin.ext ?_
  match a with
  | ⟨0, _⟩ => rfl
  | ⟨1, _⟩ =>
    show (k.val * 32 + j.val) / 32 % 32 = k.val
    have := k.isLt; have := j.isLt; omega
  | ⟨2, _⟩ =>
    show (k.val * 32 + j.val) % 32 = j.val
    have := j.isLt; omega

theorem v51_at (x2 : S3x32x32.Idx → EReal) (k j : Fin 32) :
    val_main_v51 (F := Ideal) x2 (ix2 k j) = x2 (ix3 (1 : Fin 3) k j) := by
  rw [val_main_v51_apply, val_main_v50_apply]
  congr 1
  funext a
  refine Fin.ext ?_
  match a with
  | ⟨0, _⟩ => rfl
  | ⟨1, _⟩ =>
    show (k.val * 32 + j.val) / 32 % 32 = k.val
    have := k.isLt; have := j.isLt; omega
  | ⟨2, _⟩ =>
    show (k.val * 32 + j.val) % 32 = j.val
    have := j.isLt; omega

theorem v71_at (x2 : S3x32x32.Idx → EReal) (k j : Fin 32) :
    val_main_v71 (F := Ideal) x2 (ix2 k j) = x2 (ix3 (2 : Fin 3) k j) := by
  rw [val_main_v71_apply, val_main_v70_apply]
  congr 1
  funext a
  refine Fin.ext ?_
  match a with
  | ⟨0, _⟩ => rfl
  | ⟨1, _⟩ =>
    show (k.val * 32 + j.val) / 32 % 32 = k.val
    have := k.isLt; have := j.isLt; omega
  | ⟨2, _⟩ =>
    show (k.val * 32 + j.val) % 32 = j.val
    have := j.isLt; omega

theorem v75_at (x3 : S32.Idx → EReal) (i : Fin 100000) (j : Fin 32) :
    val_main_v75 (F := Ideal) x3 (ix2 i j) = x3 (ix1 j) := by
  rw [val_main_v75_apply, val_main_v74_apply]
  exact congrArg x3 (funext fun a => match a with | ⟨0, _⟩ => rfl)

/-! ## The three products of one layer -/

theorem lidx_eq (i : Fin 100000) (j k : Fin 32) :
    (fun a => match a with | ⟨0, _⟩ => ⟨((ix2 i j : S100000x32.Idx) 0).val, ((ix2 i j : S100000x32.Idx) 0).isLt⟩ | ⟨1, _⟩ => ⟨k.val, k.isLt⟩ : S100000x32.Idx)
      = ix2 i k :=
  funext fun a => match a with | ⟨0, _⟩ => rfl | ⟨1, _⟩ => rfl

theorem ridx_eq (i : Fin 100000) (j k : Fin 32) :
    (fun a => match a with | ⟨0, _⟩ => ⟨k.val, k.isLt⟩ | ⟨1, _⟩ => ⟨((ix2 i j : S100000x32.Idx) 1).val, ((ix2 i j : S100000x32.Idx) 1).isLt⟩ : S32x32.Idx)
      = ix2 k j :=
  funext fun a => match a with | ⟨0, _⟩ => rfl | ⟨1, _⟩ => rfl

theorem v36_at (x0 : S100000x32.Idx → EReal) (x2 : S3x32x32.Idx → EReal) (i : Fin 100000) (j : Fin 32) :
    val_main_v36 (F := Ideal) x0 x2 (ix2 i j) = ∑ k : Fin 32, tab x0 i k * x2 (ix3 (0 : Fin 3) k j) := by
  rw [val_main_v36_apply]
  refine Finset.sum_congr rfl fun k _ => ?_
  exact congrArg₂ (· * ·) (congrArg x0 (lidx_eq i j k)) ((congrArg _ (ridx_eq i j k)).trans (v35_at x2 k j))

theorem v52_at (x0 : S100000x32.Idx → EReal) (x1 : IVec S2x1600000 32) (x2 : S3x32x32.Idx → EReal) (i : Fin 100000) (j : Fin 32) :
    val_main_v52 (F := Ideal) x0 x1 x2 (ix2 i j)
      = ∑ k : Fin 32, propR x1 (dinvR x1) (tab x0) i k * x2 (ix3 (1 : Fin 3) k j) := by
  rw [val_main_v52_apply]
  refine Finset.sum_congr rfl fun k _ => ?_
  exact congrArg₂ (· * ·)
    ((congrArg (val_main_v49 (F := Ideal) x0 x1) (lidx_eq i j k)).trans
      ((tab_apply (val_main_v49 (F := Ideal) x0 x1) i k).symm.trans (congrFun (congrFun (v49_tab x0 x1) i) k)))
    ((congrArg _ (ridx_eq i j k)).trans (v51_at x2 k j))

/-- The second propagation is the first one's function at the propagated table. -/
theorem v66_eq (x0 : S100000x32.Idx → EReal) (x1 : IVec S2x1600000 32) :
    val_main_v66 (F := Ideal) x0 x1 = val_main_v49 (F := Ideal) (val_main_v49 (F := Ideal) x0 x1) x1 := rfl

theorem v66_tab (x0 : S100000x32.Idx → EReal) (x1 : IVec S2x1600000 32) :
    tab (val_main_v66 (F := Ideal) x0 x1) = propR x1 (dinvR x1) (propR x1 (dinvR x1) (tab x0)) := by
  rw [v66_eq, v49_tab, v49_tab]

/-- The recurrence T₂ = 2·P − v, at an index. -/
theorem v69_at (x0 : S100000x32.Idx → EReal) (x1 : IVec S2x1600000 32) (i : Fin 100000) (k : Fin 32) :
    val_main_v69 (F := Ideal) x0 x1 (ix2 i k)
      = 2 * propR x1 (dinvR x1) (propR x1 (dinvR x1) (tab x0)) i k - tab x0 i k := by
  rw [val_main_v69_apply, val_main_v68_apply, val_main_v67_apply, val_main_cst_13_apply]
  have h2 : FloatOps.ofBits (F := Ideal) .f32 0x40000000#32 = (2 : EReal) := Cert.Chamfer.Words.ofBits_two
  rw [h2, ← tab_apply (val_main_v66 (F := Ideal) x0 x1) i k, v66_tab]
  rfl

theorem v72_at (x0 : S100000x32.Idx → EReal) (x1 : IVec S2x1600000 32) (x2 : S3x32x32.Idx → EReal) (i : Fin 100000) (j : Fin 32) :
    val_main_v72 (F := Ideal) x0 x1 x2 (ix2 i j)
      = ∑ k : Fin 32, (2 * propR x1 (dinvR x1) (propR x1 (dinvR x1) (tab x0)) i k - tab x0 i k) * x2 (ix3 (2 : Fin 3) k j) := by
  rw [val_main_v72_apply]
  refine Finset.sum_congr rfl fun k _ => ?_
  exact congrArg₂ (· * ·)
    ((congrArg (val_main_v69 (F := Ideal) x0 x1) (lidx_eq i j k)).trans (v69_at x0 x1 i k))
    ((congrArg _ (ridx_eq i j k)).trans (v71_at x2 k j))

/-! ## One layer, for ANY node table -/

theorem v76_tab (x0 : S100000x32.Idx → EReal) (x1 : IVec S2x1600000 32) (x2 : S3x32x32.Idx → EReal) (x3 : S32.Idx → EReal) :
    tab (val_main_v76 (F := Ideal) x0 x1 x2 x3) = layerR x1 (dinvR x1) (tab x0) x2 (fun j => x3 (ix1 j)) := by
  funext i j
  refine (tab_apply _ i j).trans ?_
  rw [val_main_v76_apply, val_main_v73_apply, val_main_v53_apply, v36_at, v52_at, v72_at, v75_at]
  rfl

theorem call1_v0_zero (i : S100000x32.Idx) : val_main_call1_v0 (F := Ideal) i = 0 := by
  rw [val_main_call1_v0_apply, val_main_call1_cst_apply]
  exact Cert.Chamfer.Words.ofBits_zero

/-- The first layer with its rectifier. -/
theorem v77_tab (x0 : S100000x32.Idx → EReal) (x1 : IVec S2x1600000 32) (x2 : S3x32x32.Idx → EReal) (x3 : S32.Idx → EReal) :
    tab (val_main_v77 (F := Ideal) x0 x1 x2 x3)
      = fun i j => max (layerR x1 (dinvR x1) (tab x0) x2 (fun j => x3 (ix1 j)) i j) 0 := by
  funext i j
  refine (tab_apply _ i j).trans ?_
  rw [val_main_v77_apply, call1_v0_zero, ← tab_apply (val_main_v76 (F := Ideal) x0 x1 x2 x3) i j, v76_tab]
  rfl

/-! ## The second layer is the first layer's functions at the rectified table -/

theorem v120_eq (x0 : S100000x32.Idx → EReal) (x1 : IVec S2x1600000 32) (x2 : S3x32x32.Idx → EReal) (x3 : S32.Idx → EReal)
    (x4 : S3x32x32.Idx → EReal) (x5 : S32.Idx → EReal) :
    val_main_v120 (F := Ideal) x0 x1 x2 x3 x4 x5
      = val_main_v76 (F := Ideal) (val_main_v77 (F := Ideal) x0 x1 x2 x3) x1 x4 x5 := rfl

/-- The reference's result as a function of its six arguments. -/
theorem v121_eq (x0 : S100000x32.Idx → EReal) (x1 : IVec S2x1600000 32) (x2 : S3x32x32.Idx → EReal) (x3 : S32.Idx → EReal)
    (x4 : S3x32x32.Idx → EReal) (x5 : S32.Idx → EReal) :
    val_main_v121 (F := Ideal) x0 x1 x2 x3 x4 x5
      = untab (outR x1 (tab x0) x2 (fun j => x3 (ix1 j)) x4 (fun j => x5 (ix1 j))) := by
  funext i
  obtain ⟨a, b, rfl⟩ : ∃ (a : Fin 100000) (b : Fin 32), i = ix2 a b := ⟨i 0, i 1, eq_ix2 i⟩
  rw [untab_ix2, val_main_v121_apply, v120_eq,
    ← tab_apply (val_main_v76 (F := Ideal) (val_main_v77 (F := Ideal) x0 x1 x2 x3) x1 x4 x5) a b, v76_tab, v77_tab]
  rfl

end Cert.ReferenceIdeal.Closed

end
-- ==== Proof.RefClosed.lean ====
/-
  The reference program's result, as one closed index-level function of its arguments: the two-layer Chebyshev graph
  convolution `outR` of ChebDefs at the launch memory's six arguments.
-/
import proofs.«146355_j53403623358893_2_alg».proof.Proof.RefClosedC

noncomputable section

namespace Cert.ReferenceIdeal.Closed

open Cert.ReferenceIdeal Cert.ReferenceIdeal.Gen Cert.ReferenceIdeal.ReadP Cert.Cheb Cert.Lib.Rows Idealize.ShloMosaic Idealize.ShloMosaic.ValueIdx
open Idealize.ShloMosaic.TcCoe Idealize.SL.Sem Idealize.ShloMosaic.StableHlo

/-- The reference's result is `outR` of the edge list, the node table, and the two layers' weights and biases. -/
theorem res_eq (m : (ℓ : Loc nD τ sig) → Buf (Elt Ideal) ℓ) (c : Dev nD) :
    Cert.ReferenceIdeal.ValueP.res_main_v121 (F := Ideal) m c
      = untab (outR (m ((c.tc : Thread nD τ).loc main_arg1)) (tab (m ((c.tc : Thread nD τ).loc main_arg0)))
          (m ((c.tc : Thread nD τ).loc main_arg2)) (fun j => m ((c.tc : Thread nD τ).loc main_arg3) (ix1 j))
          (m ((c.tc : Thread nD τ).loc main_arg4)) (fun j => m ((c.tc : Thread nD τ).loc main_arg5) (ix1 j))) :=
  (val_main_v121_eq (F := Ideal) m c).trans
    (v121_eq (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5)))

end Cert.ReferenceIdeal.Closed

end
-- ==== Proof.LibRealMix.lean ====
/-
  Extended reals that are real numbers, and one law that holds for them: weighting before or after a sum over a set.

  `IsReal x` says the extended real `x` is a real number. Reals are closed under `+`, `·`, `max`, finite sums and real
  powers (`Ideal.pow`), and a finite sum of reals taken on the extended reals is the real sum (`coe_sum`).

  The law (`mix_ereal`): for a finite set `Es`, real entries `H e k` (`k` over a finite type), real weights `W k`, a real
  factor `d`, a real shift `b` and `z = 0`,

      (z + ∑ e ∈ Es, ∑ k, H e k · W k) · d + b = ∑ k, ((z + ∑ e ∈ Es, H e k) · d) · W k + b :

  a finite sum commutes with a finite sum and a real factor distributes over a finite sum of reals. On the extended reals
  proper neither holds (∞ − ∞), so the hypotheses are used.
-/
import Idealize.ShloMosaic.PureOps.Ideal

noncomputable section

namespace Cert.GraphConv

open Idealize.ShloMosaic

/-- An extended real that is a real number. -/
def IsReal (x : EReal) : Prop := ∃ r : ℝ, x = (r : EReal)

theorem isReal_zero : IsReal 0 := ⟨0, rfl⟩
theorem isReal_one : IsReal 1 := ⟨1, rfl⟩
theorem isReal_coe (r : ℝ) : IsReal (r : EReal) := ⟨r, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.max {x y : EReal} (hx : IsReal x) (hy : IsReal y) : IsReal (max x y) := by
  rcases max_choice x y with h | h <;> rw [h] <;> assumption

/-- A finite sum of reals, taken on the extended reals, is the real sum. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem isReal_sum {ι : Type} (s : Finset ι) (f : ι → EReal) (h : ∀ i ∈ s, IsReal (f i)) : IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- A real base to a real exponent is a real. -/
theorem IsReal.pow {x y : EReal} (hx : IsReal x) (hy : IsReal y) : IsReal (Ideal.pow x y) := by
  obtain ⟨a, rfl⟩ := hx; obtain ⟨b, rfl⟩ := hy; exact ⟨Real.rpow a b, rfl⟩

/-! ## The real law -/

/-- Multiplying by the weights after or before summing over the edges, over the reals. -/
theorem mix_real {ι κ : Type} [Fintype κ] (Es : Finset ι) (h : ι → κ → ℝ) (w : κ → ℝ) (d b : ℝ) :
    (0 + ∑ e ∈ Es, ∑ k, h e k * w k) * d + b = ∑ k, ((0 + ∑ e ∈ Es, h e k) * d) * w k + b := by
  simp only [zero_add]
  rw [Finset.sum_comm, Finset.sum_mul]
  congr 1
  refine Finset.sum_congr rfl fun k _ => ?_
  rw [← Finset.sum_mul]; ring

/-- The same on the extended reals, for real entries. -/
theorem mix_ereal {ι κ : Type} [Fintype κ] (Es : Finset ι) (H : ι → κ → EReal) (W : κ → EReal) (z d b : EReal)
    (hz : z = 0) (hH : ∀ e k, IsReal (H e k)) (hW : ∀ k, IsReal (W k)) (hd : IsReal d) (hb : IsReal b) :
    (z + ∑ e ∈ Es, ∑ k, H e k * W k) * d + b = ∑ k, ((z + ∑ e ∈ Es, H e k) * d) * W k + b := by
  choose h hh using hH
  choose w hw using hW
  obtain ⟨d', rfl⟩ := hd
  obtain ⟨b', rfl⟩ := hb
  subst hz
  have e1 : ∀ e, (∑ k, H e k * W k) = ((∑ k, h e k * w k : ℝ) : EReal) := fun e => by
    rw [coe_sum]; exact Finset.sum_congr rfl fun k _ => by rw [hh, hw, EReal.coe_mul]
  have e2 : ∀ k, (∑ e ∈ Es, H e k) = ((∑ e ∈ Es, h e k : ℝ) : EReal) := fun k => by
    rw [coe_sum]; exact Finset.sum_congr rfl fun e _ => hh e k
  have lhs : (0 + ∑ e ∈ Es, ∑ k, H e k * W k) * (d' : EReal) + (b' : EReal)
      = (((0 + ∑ e ∈ Es, ∑ k, h e k * w k) * d' + b' : ℝ) : EReal) := by
    rw [Finset.sum_congr rfl fun e _ => e1 e, ← coe_sum, EReal.coe_add, EReal.coe_mul, EReal.coe_add, EReal.coe_zero]
  have rhs : (∑ k, ((0 + ∑ e ∈ Es, H e k) * (d' : EReal)) * W k) + (b' : EReal)
      = ((∑ k, ((0 + ∑ e ∈ Es, h e k) * d') * w k + b' : ℝ) : EReal) := by
    rw [EReal.coe_add, coe_sum]
    congr 1
    refine Finset.sum_congr rfl fun k _ => ?_
    rw [e2 k, hw k, EReal.coe_mul, EReal.coe_mul, EReal.coe_add, EReal.coe_zero]
  rw [lhs, rhs, mix_real]

end Cert.GraphConv

end
-- ==== Proof.ChebMath.lean ====
/-
  The two propagations and the two dense combines agree on real entries.

  Degrees. Diverting self-loops to a dropped extra row and summing ones over the edges that land on node d counts the
  edges with row number d that are not self-loops; so does summing the 0/1 mask over the edges with row number d.

  Propagation. For an edge that lands on node d the reference's gather of D^{-1/2} at its row number reads node d itself,
  so its weight is −mask · D^{-1/2}[d] · D^{-1/2}[col], and the factor −D^{-1/2}[d] comes out of the sum over the
  non-self-loop edges: for REAL entries (on the extended reals a factor does not distribute over a sum with infinities).

  Combine. x(W₀ − W₂) + T W₁ + P(2W₂) = x W₀ + T W₁ + (2P − x) W₂, term by term under the sum over the 32 features, again
  for real entries.
-/
import proofs.«146355_j53403623358893_2_alg».proof.Proof.ChebDefs
import proofs.«146355_j53403623358893_2_alg».proof.Proof.LibRealMix

noncomputable section

namespace Cert.Cheb

open Idealize.ShloMosaic Idealize.ShloMosaic.ValueIdx Cert.Lib.Rows Cert.GraphConv

/-! ## Reals among the extended reals -/

theorem isReal_neg {x : EReal} (hx : IsReal x) : IsReal (-x) := by
  obtain ⟨a, rfl⟩ := hx; exact ⟨-a, (EReal.coe_neg a).symm⟩

theorem isReal_sub {x y : EReal} (hx : IsReal x) (hy : IsReal y) : IsReal (x - y) := by
  obtain ⟨a, rfl⟩ := hx; obtain ⟨b, rfl⟩ := hy; exact ⟨a - b, (EReal.coe_sub a b).symm⟩

theorem isReal_two : IsReal (2 : EReal) := ⟨2, by norm_cast⟩

/-- A node table of reals. -/
def RealTab (T : Tab) : Prop := ∀ i k, IsReal (T i k)

/-! ## Degrees -/

/-- The edges the kernel's diverted segment numbers send to node `d` are the non-self-loop edges with row number `d`. -/
theorem edges_rd (ei : IVec ⟨2, ![2, 1600000]⟩ 32) (d : Fin 100000) :
    edgesInto (col1 (rdW ei)) (ext d) = (edgesInto (col1 (rowW ei)) d).filter (fun e => rowW ei e ≠ colW ei e) := by
  ext e
  rw [Finset.mem_filter, mem_edgesInto, mem_edgesInto, col1_ix2, col1_ix2]
  unfold rdW
  have hd : ((ext d).val : Int) = (d.val : Int) := rfl
  by_cases h : rowW ei e = colW ei e
  · rw [if_pos h]
    have h1 : (100000#32 : BitVec 32).toInt = 100000 := by decide
    have hlt : d.val < 100000 := d.isLt
    constructor
    · intro h2; rw [h1, hd] at h2; omega
    · intro h2; exact absurd h h2.2
  · rw [if_neg h, hd]
    exact ⟨fun h2 => ⟨h2, h⟩, fun h2 => h2.1⟩

theorem degK_eq_degR (ei : IVec ⟨2, ![2, 1600000]⟩ 32) (d : Fin 100000) : degK ei d = degR ei d := by
  unfold degK degR maskR
  rw [edges_rd, Finset.sum_filter]

theorem isReal_maskR (ei : IVec ⟨2, ![2, 1600000]⟩ 32) (e : Fin 1600000) : IsReal (maskR ei e) := by
  unfold maskR; split_ifs
  · exact isReal_one
  · exact isReal_zero

theorem isReal_degR (ei : IVec ⟨2, ![2, 1600000]⟩ 32) (d : Fin 100000) : IsReal (degR ei d) :=
  isReal_sum _ _ fun e _ => isReal_maskR ei e

/-- `where(deg > 0, 1 / sqrt(max(deg, 1)), 0)` of a real is a real: the square root is of a number ≥ 1. -/
theorem isReal_dinvOf {deg : EReal} (h : IsReal deg) : IsReal (dinvOf deg) := by
  obtain ⟨r, rfl⟩ := h
  unfold dinvOf
  split_ifs with hpos
  · have hm : max ((r : ℝ) : EReal) 1 = ((max r 1 : ℝ) : EReal) := by
      rcases le_total r 1 with h | h
      · rw [max_eq_right h, max_eq_right (by exact_mod_cast h), EReal.coe_one]
      · rw [max_eq_left h, max_eq_left (by exact_mod_cast h)]
    have hge : (1 : ℝ) ≤ max r 1 := le_max_right _ _
    have hs : Ideal.sqrt ((max r 1 : ℝ) : EReal) = ((Real.sqrt (max r 1) : ℝ) : EReal) := by
      show (if max r 1 < 0 then (⊥ : EReal) else ((Real.sqrt (max r 1) : ℝ) : EReal)) = _
      rw [if_neg (by linarith)]
    have hq : (0 : ℝ) < Real.sqrt (max r 1) := Real.sqrt_pos.mpr (by linarith)
    rw [hm, hs]
    unfold Ideal.div
    rw [if_neg (by exact_mod_cast hq.ne')]
    refine ⟨1 * (Real.sqrt (max r 1))⁻¹, ?_⟩
    rw [EReal.coe_mul, EReal.coe_inv]; norm_cast
  · exact isReal_zero

/-! ## Propagation -/

/-- For an edge that lands on node `d`, the reference's gather at the edge's row number reads node `d`. -/
theorem rsrcOf_of_mem (ei : IVec ⟨2, ![2, 1600000]⟩ 32) (d : Fin 100000) (e : Fin 1600000)
    (he : e ∈ edgesInto (col1 (rowW ei)) d) : rsrcOf ei e = d := by
  rw [mem_edgesInto, col1_ix2] at he
  unfold rsrcOf wrapN
  rw [wrap_of_toInt (rowW ei e) 100000#32 d.val he]
  exact rowOf_of_toInt _ _ d he

theorem propK_real (ei : IVec ⟨2, ![2, 1600000]⟩ 32) (dinv : Fin 100000 → EReal) (hd : ∀ d, IsReal (dinv d)) (v : Tab) (hv : RealTab v) :
    RealTab (propK ei dinv v) := fun d k =>
  (isReal_neg (hd d)).mul (isReal_sum _ _ fun e _ => (hd _).mul (hv _ _))

theorem prop_eq (ei : IVec ⟨2, ![2, 1600000]⟩ 32) (dinv : Fin 100000 → EReal) (hd : ∀ d, IsReal (dinv d)) (v : Tab) (hv : RealTab v) :
    propK ei dinv v = propR ei dinv v := by
  funext d k
  unfold propK propR wR
  rw [edges_rd]
  choose a ha using hd
  choose u hu using hv
  -- the reference's side, edge by edge over the edges that land on d
  have hR : ∀ e ∈ edgesInto (col1 (rowW ei)) d,
      ((-(maskR ei e)) * dinv (rsrcOf ei e)) * dinv (srcOf ei e) * v (srcOf ei e) k
        = (((if rowW ei e ≠ colW ei e then (-(a d)) * (a (srcOf ei e) * u (srcOf ei e) k) else 0 : ℝ)) : EReal) := by
    intro e he
    rw [rsrcOf_of_mem ei d e he, ha, ha, hu]
    unfold maskR
    by_cases hp : rowW ei e ≠ colW ei e
    · rw [if_pos hp, if_pos hp]
      rw [show (-(1 : EReal)) = ((-1 : ℝ) : EReal) by rw [EReal.coe_neg, EReal.coe_one], ← EReal.coe_mul, ← EReal.coe_mul, ← EReal.coe_mul]
      congr 1; ring
    · rw [if_neg hp, if_neg hp]
      rw [show (-(0 : EReal)) = ((0 : ℝ) : EReal) by rw [neg_zero, EReal.coe_zero], ← EReal.coe_mul, ← EReal.coe_mul, ← EReal.coe_mul]
      congr 1; ring
  rw [Finset.sum_congr rfl hR, ← coe_sum, ← Finset.sum_filter]
  -- the kernel's side
  have hK : ∀ e ∈ (edgesInto (col1 (rowW ei)) d).filter (fun e => rowW ei e ≠ colW ei e),
      dinv (srcOf ei e) * v (srcOf ei e) k = ((a (srcOf ei e) * u (srcOf ei e) k : ℝ) : EReal) := by
    intro e _; rw [ha, hu, EReal.coe_mul]
  rw [Finset.sum_congr rfl hK, ← coe_sum, ha, ← EReal.coe_neg, ← EReal.coe_mul, Finset.mul_sum]

/-! ## The dense combine -/

theorem comb_eq (v T P : Tab) (hv : RealTab v) (hT : RealTab T) (hP : RealTab P)
    (W : (⟨3, ![3, 32, 32]⟩ : Shape).Idx → EReal) (hW : ∀ q, IsReal (W q)) (b : Fin 32 → EReal) :
    combK v T P W b = combR v T P W b := by
  funext i j
  unfold combK combR
  congr 1
  choose x hx using hv
  choose t ht using hT
  choose p hp using hP
  choose w hw using hW
  have e1 : ∀ k : Fin 32, v i k * (W (ix3 (0 : Fin 3) k j) - W (ix3 (2 : Fin 3) k j))
      = ((x i k * (w (ix3 (0 : Fin 3) k j) - w (ix3 (2 : Fin 3) k j)) : ℝ) : EReal) := fun k => by
    rw [hx, hw, hw, ← EReal.coe_sub, ← EReal.coe_mul]
  have e2 : ∀ k : Fin 32, T i k * W (ix3 (1 : Fin 3) k j) = ((t i k * w (ix3 (1 : Fin 3) k j) : ℝ) : EReal) := fun k => by
    rw [ht, hw, ← EReal.coe_mul]
  have e3 : ∀ k : Fin 32, P i k * (2 * W (ix3 (2 : Fin 3) k j)) = ((p i k * (2 * w (ix3 (2 : Fin 3) k j)) : ℝ) : EReal) := fun k => by
    rw [hp, hw, show (2 : EReal) = ((2 : ℝ) : EReal) by norm_cast, ← EReal.coe_mul, ← EReal.coe_mul]
  have f1 : ∀ k : Fin 32, v i k * W (ix3 (0 : Fin 3) k j) = ((x i k * w (ix3 (0 : Fin 3) k j) : ℝ) : EReal) := fun k => by
    rw [hx, hw, ← EReal.coe_mul]
  have f3 : ∀ k : Fin 32, (2 * P i k - v i k) * W (ix3 (2 : Fin 3) k j)
      = (((2 * p i k - x i k) * w (ix3 (2 : Fin 3) k j) : ℝ) : EReal) := fun k => by
    rw [hp, hx, hw, show (2 : EReal) = ((2 : ℝ) : EReal) by norm_cast, ← EReal.coe_mul, ← EReal.coe_sub, ← EReal.coe_mul]
  rw [Finset.sum_congr rfl fun k _ => e1 k, Finset.sum_congr rfl fun k _ => e2 k, Finset.sum_congr rfl fun k _ => e3 k,
    Finset.sum_congr rfl fun k _ => f1 k, Finset.sum_congr rfl fun k _ => f3 k,
    ← coe_sum, ← coe_sum, ← coe_sum, ← coe_sum, ← coe_sum, ← EReal.coe_add, ← EReal.coe_add, ← EReal.coe_add, ← EReal.coe_add]
  congr 1
  rw [← Finset.sum_add_distrib, ← Finset.sum_add_distrib, ← Finset.sum_add_distrib, ← Finset.sum_add_distrib]
  exact Finset.sum_congr rfl fun k _ => by ring

theorem combR_real (v T P : Tab) (hv : RealTab v) (hT : RealTab T) (hP : RealTab P)
    (W : (⟨3, ![3, 32, 32]⟩ : Shape).Idx → EReal) (hW : ∀ q, IsReal (W q)) (b : Fin 32 → EReal) (hb : ∀ j, IsReal (b j)) :
    RealTab (combR v T P W b) := fun i j =>
  (((isReal_sum _ _ fun k _ => (hv i k).mul (hW _)).add (isReal_sum _ _ fun k _ => (hT i k).mul (hW _))).add
    (isReal_sum _ _ fun k _ => (isReal_sub (isReal_two.mul (hP i k)) (hv i k)).mul (hW _))).add (hb j)

/-! ## A layer, and the two results -/

theorem layer_eq (ei : IVec ⟨2, ![2, 1600000]⟩ 32) (dinv : Fin 100000 → EReal) (hd : ∀ d, IsReal (dinv d)) (v : Tab) (hv : RealTab v)
    (W : (⟨3, ![3, 32, 32]⟩ : Shape).Idx → EReal) (hW : ∀ q, IsReal (W q)) (b : Fin 32 → EReal) :
    layerK ei dinv v W b = layerR ei dinv v W b := by
  unfold layerK layerR
  have h1 : propK ei dinv v = propR ei dinv v := prop_eq ei dinv hd v hv
  have r1 : RealTab (propK ei dinv v) := propK_real ei dinv hd v hv
  have h2 : propK ei dinv (propK ei dinv v) = propR ei dinv (propR ei dinv v) := by
    rw [prop_eq ei dinv hd _ r1, h1]
  have r2 : RealTab (propK ei dinv (propK ei dinv v)) := propK_real ei dinv hd _ r1
  rw [comb_eq v _ _ hv r1 r2 W hW b, h2, h1]

theorem layerR_real (ei : IVec ⟨2, ![2, 1600000]⟩ 32) (dinv : Fin 100000 → EReal) (hd : ∀ d, IsReal (dinv d)) (v : Tab) (hv : RealTab v)
    (W : (⟨3, ![3, 32, 32]⟩ : Shape).Idx → EReal) (hW : ∀ q, IsReal (W q)) (b : Fin 32 → EReal) (hb : ∀ j, IsReal (b j)) :
    RealTab (layerR ei dinv v W b) := by
  unfold layerR
  have r1 : RealTab (propR ei dinv v) := by rw [← prop_eq ei dinv hd v hv]; exact propK_real ei dinv hd v hv
  have r2 : RealTab (propR ei dinv (propR ei dinv v)) := by
    rw [← prop_eq ei dinv hd _ r1]; exact propK_real ei dinv hd _ r1
  exact combR_real v _ _ hv r1 r2 W hW b hb

/-- THE BRIDGE: on real features, weights and biases the kernel's and the reference's results are one table. -/
theorem outK_eq_outR (ei : IVec ⟨2, ![2, 1600000]⟩ 32) (x : Tab) (hx : RealTab x)
    (W1 : (⟨3, ![3, 32, 32]⟩ : Shape).Idx → EReal) (hW1 : ∀ q, IsReal (W1 q)) (b1 : Fin 32 → EReal) (hb1 : ∀ j, IsReal (b1 j))
    (W2 : (⟨3, ![3, 32, 32]⟩ : Shape).Idx → EReal) (hW2 : ∀ q, IsReal (W2 q)) (b2 : Fin 32 → EReal) :
    outK ei x W1 b1 W2 b2 = outR ei x W1 b1 W2 b2 := by
  unfold outK outR
  have hdeg : (fun d => dinvOf (degK ei d)) = fun d => dinvOf (degR ei d) := funext fun d => by rw [degK_eq_degR]
  rw [hdeg]
  have hd : ∀ d, IsReal (dinvOf (degR ei d)) := fun d => isReal_dinvOf (isReal_degR ei d)
  have l1 := layer_eq ei _ hd x hx W1 hW1 b1
  rw [l1]
  have rh : RealTab (fun i j => max (layerR ei (fun d => dinvOf (degR ei d)) x W1 b1 i j) 0) := fun i j =>
    (layerR_real ei _ hd x hx W1 hW1 b1 hb1 i j).max isReal_zero
  rw [layer_eq ei _ hd _ rh W2 hW2 b2]

end Cert.Cheb

end
-- ==== Proof.PreReal.lean ====
/-
  From the precondition to reals. The precondition is the conjunction, over the five float inputs, of
  `all (|a| < +∞)`: an `and`-reduction that is 1 had a 1 at every index, and an extended real whose absolute value is below
  +∞ is neither infinity, so it is a real number.
-/
import proofs.«146355_j53403623358893_2_alg».proof.Pre_finite_inputs
import proofs.«146355_j53403623358893_2_alg».proof.Proof.Gen.Pre_finite_inputs
import proofs.«146355_j53403623358893_2_alg».proof.Proof.LibRealMix
import proofs.«146355_j53403623358893_2_alg».proof.Proof.LibWords
import Idealize.ShloMosaic.PureOps.Ideal
import Idealize.ShloMosaic.Lib.ReduceAll
import Idealize.ShloMosaic.Lib.Affine
import Idealize.ShloMosaic.Lib.ValueIdx

noncomputable section

namespace Cert.Cheb.Pre

open Idealize.ShloMosaic Idealize.ShloMosaic.ValueIdx Cert.GraphConv Cert.Pre_finite_inputs

instance : Subsingleton S_.Idx := ⟨fun a b => funext fun d => d.elim0⟩

/-- An extended real with `|x| < +∞` is a real number. -/
theorem isReal_of_abs_lt (x : EReal)
    (h : FloatOps.cmpf (F := Ideal) .olt (FloatOps.hostAbsf (F := Ideal) (φ := .f32) x) (FloatOps.ofBits (F := Ideal) .f32 0x7F800000#32) = 1#1) : IsReal x := by
  have h2 : max x (-x) < ⊤ := by
    have h' : Ideal.cmp .olt (max x (-x)) (Ideal.ofBits .f32 0x7F800000#32) = 1#1 := h
    rw [Cert.Chamfer.Words.ofBits_top] at h'
    unfold Ideal.cmp at h'
    by_contra hc
    simp [hc] at h'
  induction x using EReal.rec with
  | bot => simp at h2
  | coe r => exact ⟨r, rfl⟩
  | top => simp at h2

variable [Facts]

/-- Every entry of each float input is a real number. -/
theorem reals (a0 : FVec Ideal S100000x32 .f32) (a1 : IVec S2x1600000 32) (a2 : FVec Ideal S3x32x32 .f32) (a3 : FVec Ideal S32 .f32)
    (a4 : FVec Ideal S3x32x32 .f32) (a5 : FVec Ideal S32 .f32)
    (h : fn (F := Ideal) a0 a1 a2 a3 a4 a5 = fun _ => 1#1) :
    (∀ i, IsReal (a0 i)) ∧ (∀ i, IsReal (a2 i)) ∧ (∀ i, IsReal (a3 i)) ∧ (∀ i, IsReal (a4 i)) ∧ (∀ i, IsReal (a5 i)) := by
  have h0 := congrFun h ix0
  dsimp only [fn, fn_part1] at h0
  obtain ⟨h1, e5⟩ := IntOp.andi_eq_one.mp h0
  obtain ⟨h2, e4⟩ := IntOp.andi_eq_one.mp h1
  obtain ⟨h3, e3⟩ := IntOp.andi_eq_one.mp h2
  obtain ⟨e0, e2⟩ := IntOp.andi_eq_one.mp h3
  refine ⟨fun i => ?_, fun i => ?_, fun i => ?_, fun i => ?_, fun i => ?_⟩
  · exact isReal_of_abs_lt _ (Host.reduce_andi_all _ _ _ _ _ e0 i)
  · exact isReal_of_abs_lt _ (Host.reduce_andi_all _ _ _ _ _ e2 i)
  · exact isReal_of_abs_lt _ (Host.reduce_andi_all _ _ _ _ _ e3 i)
  · exact isReal_of_abs_lt _ (Host.reduce_andi_all _ _ _ _ _ e4 i)
  · exact isReal_of_abs_lt _ (Host.reduce_andi_all _ _ _ _ _ e5 i)

end Cert.Cheb.Pre

end
-- ==== Proof.lean ====
/-
  The certificate's five claims for the two-layer Chebyshev graph convolution (order 3) with a rectifier after the first
  layer and a residual after the second.

  Frames. The kernel program (as printed, and idealized) is eight items: five stretches of host operations, a pallas_call
  (the first layer's dense combine), one more stretch, a second pallas_call (the second layer's combine with the residual).
  Each call's body stores one value over its 5000-row output block; no item writes an argument array. The reference is a
  straight line of host operations, and its frame is its run with the result dropped.

  The idealization rewrote nothing, so there is nothing to preserve.

  The value claim compares, on the extended reals, the kernel's propagation — scale the rows by D^{-1/2}, gather along the
  column numbers, sum into the row numbers with self-loops diverted to a dropped extra row, scale by −D^{-1/2} — and its
  combine x(W₀ − W₂) + T₁W₁ + P(2W₂) with the reference's per-edge weights −mask·D^{-1/2}[row]·D^{-1/2}[col] and recurrence
  x W₀ + T₁ W₁ + (2P − x) W₂.
-/
import proofs.«146355_j53403623358893_2_alg».proof.Defs
import proofs.«146355_j53403623358893_2_alg».proof.Proof.Gen.Kernel
import proofs.«146355_j53403623358893_2_alg».proof.Proof.Gen.KernelIdeal
import proofs.«146355_j53403623358893_2_alg».proof.Proof.Gen.ReferenceIdeal
import proofs.«146355_j53403623358893_2_alg».proof.Proof.Gen.Pre_finite_inputs
import proofs.«146355_j53403623358893_2_alg».proof.Proof.KRun
import proofs.«146355_j53403623358893_2_alg».proof.Proof.KIRun
import proofs.«146355_j53403623358893_2_alg».proof.Proof.RefRun
import proofs.«146355_j53403623358893_2_alg».proof.Proof.KIValue
import proofs.«146355_j53403623358893_2_alg».proof.Proof.RefClosed
import proofs.«146355_j53403623358893_2_alg».proof.Proof.ChebMath
import proofs.«146355_j53403623358893_2_alg».proof.Proof.PreReal
import Idealize.ShloMosaic.Adequacy
import Idealize.ShloMosaic.Init

noncomputable section

namespace Cert.Proof

open Idealize.ShloMosaic Idealize.ShloMosaic.ValueIdx Idealize.SL.Sem Cert.Cheb Cert.KernelIdeal.Hand

theorem frame_k : @Cert.frame_Kernel Cert.Kernel.Gen.facts Cert.Pre_finite_inputs.Gen.facts :=
  fun m ρ _ => Cert.Kernel.Hand.frame m ρ

theorem frame_ki : @Cert.frame_KernelIdeal Cert.KernelIdeal.Gen.facts Cert.Pre_finite_inputs.Gen.facts :=
  fun m ρ _ => Cert.KernelIdeal.Hand.frame m ρ

theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.ValueP.run (F := Ideal) m ρ)

theorem preserves : Cert.preserves_Kernel_KernelIdeal := trivial

set_option maxHeartbeats 800000 in
/-- Both programs run; the kernel's result array is the kernel-side closed form of its arguments, the reference's the
    reference-side closed form of the same arguments, and on real inputs (which the precondition gives) the two closed
    forms are one table. -/
theorem algebraic : @Cert.algebraic_KernelIdeal_ReferenceIdeal Cert.KernelIdeal.Gen.facts Cert.ReferenceIdeal.Gen.facts Cert.Pre_finite_inputs.Gen.facts := by
  intro m ρ m' ρ' hpre hagree
  refine ⟨fun c => untab (outK (aE m c) (aX m c) (aW1 m c) (aB1 m c) (aW2 m c) (aB2 m c)), ?_, ?_⟩
  · exact (θ_run Cert.KernelIdeal.defs _ _).mono (fun r h c => ⟨(h c).1.trans (Cert.KernelIdeal.Hand.result_eq m c), (h c).2⟩)
      (Cert.KernelIdeal.Hand.run_all m ρ)
  · refine (θ_run Cert.ReferenceIdeal.defs _ _).mono (fun r h c => ⟨(h c).1.trans ?_, (h c).2⟩)
      (Cert.ReferenceIdeal.ValueP.run (F := Ideal) m' ρ')
    obtain ⟨r0, r2, r3, r4, r5⟩ := @Cert.Cheb.Pre.reals Cert.Pre_finite_inputs.Gen.facts _ _ _ _ _ _ (hpre c)
    obtain ⟨g0, g1, g2, g3, g4, g5⟩ := hagree c
    rw [Cert.ReferenceIdeal.Closed.res_eq m' c, g0, g1, g2, g3, g4, g5]
    exact congrArg untab (outK_eq_outR (aE m c) (aX m c) (fun i k => r0 _) (aW1 m c) r2 (aB1 m c) (fun j => r3 _) (aW2 m c) r4 (aB2 m c)).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
